-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S512x512x512 : Shape := ⟨3, ![512, 512, 512]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel
  bcast_S_S512x512x512 : S_.BroadcastsInDim S512x512x512 (![] : Fin 0 → Fin S512x512x512.rank)
  reducesTo_S512x512x512_S_d0_1_2 : S512x512x512.ReducesTo [0, 1, 2] S_

variable [Facts]

def fn {F : FTy → Type} [FloatOps F] (main_arg0 : FVec F S4194304x3 .f32) (main_arg1 : FVec F S512x512x512 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  let main_v4 : FVec F S512x512x512 .f32 := Host.absf main_arg1
  let main_cst_0 : FVec F S_ .f32 := constant S_ .f32 0x7F800000#32
  let main_v5 : FVec F S512x512x512 .f32 := broadcastInDim S512x512x512 ![] bcast_S_S512x512x512 main_cst_0
  let main_v6 : IVec S512x512x512 1 := cmpf .olt main_v4 main_v5
  let main_c_1 : IVec S_ 1 := constantI S_ 1 1#1
  let main_v7 : IVec S_ 1 := (fun x v => Host.reduce IntOp.andi x v reducesTo_S512x512x512_S_d0_1_2 h_S_) main_v6 main_c_1
  let main_v8 : IVec S_ 1 := andi main_v3 main_v7
  main_v8
-- ==== Kernel.lean ====
abbrev S4194304x3 : Shape := ⟨2, ![4194304, 3]⟩
abbrev S512x512x512 : Shape := ⟨3, ![512, 512, 512]⟩
abbrev S3 : Shape := ⟨1, ![3]⟩
abbrev S1x3 : Shape := ⟨2, ![1, 3]⟩
abbrev S4194304x1 : Shape := ⟨2, ![4194304, 1]⟩
abbrev S4194304 : Shape := ⟨1, ![4194304]⟩
abbrev S_ : Shape := ⟨0, ![]⟩
abbrev S4194304x2 : Shape := ⟨2, ![4194304, 2]⟩
abbrev S4194304x1x1 : Shape := ⟨3, ![4194304, 1, 1]⟩
abbrev S4194304x2x1 : Shape := ⟨3, ![4194304, 2, 1]⟩
abbrev S4194304x1x2 : Shape := ⟨3, ![4194304, 1, 2]⟩
abbrev S4194304x2x2 : Shape := ⟨3, ![4194304, 2, 2]⟩
abbrev S4194304x2x2x1 : Shape := ⟨4, ![4194304, 2, 2, 1]⟩
abbrev S4194304x2x2x3 : Shape := ⟨4, ![4194304, 2, 2, 3]⟩
abbrev S1x4194304 : Shape := ⟨2, ![1, 4194304]⟩
abbrev S8x4194304 : Shape := ⟨2, ![8, 4194304]⟩
abbrev S3x4194304 : Shape := ⟨2, ![3, 4194304]⟩
abbrev S8x32768x128 : Shape := ⟨3, ![8, 32768, 128]⟩
abbrev S3x32768x128 : Shape := ⟨3, ![3, 32768, 128]⟩
abbrev S32768x128 : Shape := ⟨2, ![32768, 128]⟩
abbrev S8x2048x128 : Shape := ⟨3, ![8, 2048, 128]⟩
abbrev S3x2048x128 : Shape := ⟨3, ![3, 2048, 128]⟩
abbrev S2048x128 : Shape := ⟨2, ![2048, 128]⟩
abbrev S1x2048x128 : Shape := ⟨3, ![1, 2048, 128]⟩

abbrev nBuf : Space → Nat
  | .hbm => 167
  | .vmem => 6
  | .smem => 0
  | _ => 0

abbrev hbmTy0_0 (i : Nat) : BufTy := match i % 128 with
  | 0 => ⟨S4194304x3, .f32⟩
  | 1 => ⟨S512x512x512, .f32⟩
  | 2 => ⟨S3, .f32⟩
  | 3 => ⟨S1x3, .f32⟩
  | 4 => ⟨S4194304x3, .f32⟩
  | 5 => ⟨S4194304x3, .f32⟩
  | 6 => ⟨S4194304x3, .i32⟩
  | 7 => ⟨S4194304x3, .f32⟩
  | 8 => ⟨S4194304x3, .f32⟩
  | 9 => ⟨S4194304x1, .i32⟩
  | 10 => ⟨S4194304, .i32⟩
  | 11 => ⟨S_, .i32⟩
  | 12 => ⟨S_, .i32⟩
  | 13 => ⟨S_, .i32⟩
  | 14 => ⟨S4194304, .i32⟩
  | 15 => ⟨S4194304, .i32⟩
  | 16 => ⟨S_, .i32⟩
  | 17 => ⟨S4194304, .i32⟩
  | 18 => ⟨S4194304, .i32⟩
  | 19 => ⟨S4194304x1, .i32⟩
  | 20 => ⟨S4194304, .i32⟩
  | 21 => ⟨S_, .i32⟩
  | 22 => ⟨S_, .i32⟩
  | 23 => ⟨S_, .i32⟩
  | 24 => ⟨S4194304, .i32⟩
  | 25 => ⟨S4194304, .i32⟩
  | 26 => ⟨S_, .i32⟩
  | 27 => ⟨S4194304, .i32⟩
  | 28 => ⟨S4194304, .i32⟩
  | 29 => ⟨S4194304x1, .i32⟩
  | 30 => ⟨S4194304, .i32⟩
  | 31 => ⟨S_, .i32⟩
  | 32 => ⟨S_, .i32⟩
  | 33 => ⟨S_, .i32⟩
  | 34 => ⟨S4194304, .i32⟩
  | 35 => ⟨S4194304, .i32⟩
  | 36 => ⟨S_, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S_, .i32⟩
  | 43 => ⟨S4194304, .i32⟩
  | 44 => ⟨S4194304, .i32⟩
  | 45 => ⟨S_, .i32⟩
  | 46 => ⟨S4194304, .i32⟩
  | 47 => ⟨S4194304, .i32⟩
  | 48 => ⟨S_, .i32⟩
  | 49 => ⟨S4194304, .i32⟩
  | 50 => ⟨S4194304, .i32⟩
  | 51 => ⟨S_, .i32⟩
  | 52 => ⟨S4194304, .i32⟩
  | 53 => ⟨S4194304, .i32⟩
  | 54 => ⟨S_, .i32⟩
  | 55 => ⟨S4194304, .i32⟩
  | 56 => ⟨S4194304, .i32⟩
  | 57 => ⟨S4194304x1, .f32⟩
  | 58 => ⟨S4194304, .f32⟩
  | 59 => ⟨S4194304x1, .f32⟩
  | 60 => ⟨S4194304, .f32⟩
  | 61 => ⟨S4194304x1, .f32⟩
  | 62 => ⟨S4194304, .f32⟩
  | 63 => ⟨S4194304x1, .i32⟩
  | 64 => ⟨S4194304x1, .i32⟩
  | 65 => ⟨S4194304x2, .i32⟩
  | 66 => ⟨S4194304x1, .i32⟩
  | 67 => ⟨S4194304x1, .i32⟩
  | 68 => ⟨S4194304x2, .i32⟩
  | 69 => ⟨S4194304x1x1, .i32⟩
  | 70 => ⟨S4194304x2x1, .i32⟩
  | 71 => ⟨S4194304x1x2, .i32⟩
  | 72 => ⟨S_, .i32⟩
  | 73 => ⟨S4194304x1x1, .i32⟩
  | 74 => ⟨S4194304x1x1, .i1⟩
  | 75 => ⟨S_, .i32⟩
  | 76 => ⟨S4194304x1x1, .i32⟩
  | 77 => ⟨S4194304x1x1, .i32⟩
  | 78 => ⟨S4194304x1x1, .i32⟩
  | 79 => ⟨S_, .i32⟩
  | 80 => ⟨S4194304x2x1, .i32⟩
  | 81 => ⟨S4194304x2x1, .i1⟩
  | 82 => ⟨S_, .i32⟩
  | 83 => ⟨S4194304x2x1, .i32⟩
  | 84 => ⟨S4194304x2x1, .i32⟩
  | 85 => ⟨S4194304x2x1, .i32⟩
  | 86 => ⟨S_, .i32⟩
  | 87 => ⟨S4194304x1x2, .i32⟩
  | 88 => ⟨S4194304x1x2, .i1⟩
  | 89 => ⟨S_, .i32⟩
  | 90 => ⟨S4194304x1x2, .i32⟩
  | 91 => ⟨S4194304x1x2, .i32⟩
  | 92 => ⟨S4194304x1x2, .i32⟩
  | 93 => ⟨S4194304x2x2, .i32⟩
  | 94 => ⟨S4194304x2x2, .i32⟩
  | 95 => ⟨S4194304x2x2, .i32⟩
  | 96 => ⟨S4194304x2x2x1, .i32⟩
  | 97 => ⟨S4194304x2x2x1, .i32⟩
  | 98 => ⟨S4194304x2x2x1, .i32⟩
  | 99 => ⟨S4194304x2x2x3, .i32⟩
  | 100 => ⟨S4194304x2x2, .f32⟩
  | 101 => ⟨S4194304x1x1, .i32⟩
  | 102 => ⟨S4194304x2x1, .i32⟩
  | 103 => ⟨S4194304x1x2, .i32⟩
  | 104 => ⟨S_, .i32⟩
  | 105 => ⟨S4194304x1x1, .i32⟩
  | 106 => ⟨S4194304x1x1, .i1⟩
  | 107 => ⟨S_, .i32⟩
  | 108 => ⟨S4194304x1x1, .i32⟩
  | 109 => ⟨S4194304x1x1, .i32⟩
  | 110 => ⟨S4194304x1x1, .i32⟩
  | 111 => ⟨S_, .i32⟩
  | 112 => ⟨S4194304x2x1, .i32⟩
  | 113 => ⟨S4194304x2x1, .i1⟩
  | 114 => ⟨S_, .i32⟩
  | 115 => ⟨S4194304x2x1, .i32⟩
  | 116 => ⟨S4194304x2x1, .i32⟩
  | 117 => ⟨S4194304x2x1, .i32⟩
  | 118 => ⟨S_, .i32⟩
  | 119 => ⟨S4194304x1x2, .i32⟩
  | 120 => ⟨S4194304x1x2, .i1⟩
  | 121 => ⟨S_, .i32⟩
  | 122 => ⟨S4194304x1x2, .i32⟩
  | 123 => ⟨S4194304x1x2, .i32⟩
  | 124 => ⟨S4194304x1x2, .i32⟩
  | 125 => ⟨S4194304x2x2, .i32⟩
  | 126 => ⟨S4194304x2x2, .i32⟩
  | 127 => ⟨S4194304x2x2, .i32⟩
  | _ => ⟨S4194304x3, .f32⟩

abbrev hbmTy0_1 (i : Nat) : BufTy := match i % 128 with
  | 0 => ⟨S4194304x2x2x1, .i32⟩
  | 1 => ⟨S4194304x2x2x1, .i32⟩
  | 2 => ⟨S4194304x2x2x1, .i32⟩
  | 3 => ⟨S4194304x2x2x3, .i32⟩
  | 4 => ⟨S4194304x2x2, .f32⟩
  | 5 => ⟨S4194304x1x1, .f32⟩
  | 6 => ⟨S4194304, .f32⟩
  | 7 => ⟨S4194304x1x1, .f32⟩
  | 8 => ⟨S4194304, .f32⟩
  | 9 => ⟨S4194304x1x1, .f32⟩
  | 10 => ⟨S4194304, .f32⟩
  | 11 => ⟨S4194304x1x1, .f32⟩
  | 12 => ⟨S4194304, .f32⟩
  | 13 => ⟨S4194304x1x1, .f32⟩
  | 14 => ⟨S4194304, .f32⟩
  | 15 => ⟨S4194304x1x1, .f32⟩
  | 16 => ⟨S4194304, .f32⟩
  | 17 => ⟨S4194304x1x1, .f32⟩
  | 18 => ⟨S4194304, .f32⟩
  | 19 => ⟨S4194304x1x1, .f32⟩
  | 20 => ⟨S4194304, .f32⟩
  | 21 => ⟨S1x4194304, .f32⟩
  | 22 => ⟨S1x4194304, .f32⟩
  | 23 => ⟨S1x4194304, .f32⟩
  | 24 => ⟨S1x4194304, .f32⟩
  | 25 => ⟨S1x4194304, .f32⟩
  | 26 => ⟨S1x4194304, .f32⟩
  | 27 => ⟨S1x4194304, .f32⟩
  | 28 => ⟨S1x4194304, .f32⟩
  | 29 => ⟨S8x4194304, .f32⟩
  | 30 => ⟨S1x4194304, .f32⟩
  | 31 => ⟨S1x4194304, .f32⟩
  | 32 => ⟨S1x4194304, .f32⟩
  | 33 => ⟨S3x4194304, .f32⟩
  | 34 => ⟨S8x32768x128, .f32⟩
  | 35 => ⟨S3x32768x128, .f32⟩
  | 36 => ⟨S32768x128, .f32⟩
  | 37 => ⟨S4194304, .f32⟩
  | 38 => ⟨S4194304x1, .f32⟩
  | _ => ⟨S4194304x3, .f32⟩

abbrev hbmTy (i : Nat) : BufTy := match i / 128 with
  | 0 => hbmTy0_0 i
  | 1 => hbmTy0_1 i
  | _ => ⟨S4194304x3, .f32⟩

abbrev bufTy : (tb : Table) → Fin (tcTables nBuf tb) → BufTy
  | .hbm, ⟨i, _⟩ => hbmTy i
  | .local _ .vmem, ⟨0, _⟩ => ⟨S8x2048x128, .f32⟩
  | .local _ .vmem, ⟨1, _⟩ => ⟨S8x2048x128, .f32⟩
  | .local _ .vmem, ⟨2, _⟩ => ⟨S3x2048x128, .f32⟩
  | .local _ .vmem, ⟨3, _⟩ => ⟨S3x2048x128, .f32⟩
  | .local _ .vmem, ⟨4, _⟩ => ⟨S2048x128, .f32⟩
  | .local _ .vmem, ⟨5, _⟩ => ⟨S2048x128, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_c_4 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v14 : Ref sig .tc := ⟨.hbm, 38, rfl⟩
abbrev main_c_5 : Ref sig .tc := ⟨.hbm, 39, rfl⟩
abbrev main_v15 : Ref sig .tc := ⟨.hbm, 40, rfl⟩
abbrev main_v16 : Ref sig .tc := ⟨.hbm, 41, rfl⟩
abbrev main_c_6 : Ref sig .tc := ⟨.hbm, 42, rfl⟩
abbrev main_v17 : Ref sig .tc := ⟨.hbm, 43, rfl⟩
abbrev main_v18 : Ref sig .tc := ⟨.hbm, 44, rfl⟩
abbrev main_c_7 : Ref sig .tc := ⟨.hbm, 45, rfl⟩
abbrev main_v19 : Ref sig .tc := ⟨.hbm, 46, rfl⟩
abbrev main_v20 : Ref sig .tc := ⟨.hbm, 47, rfl⟩
abbrev main_c_8 : Ref sig .tc := ⟨.hbm, 48, rfl⟩
abbrev main_v21 : Ref sig .tc := ⟨.hbm, 49, rfl⟩
abbrev main_v22 : Ref sig .tc := ⟨.hbm, 50, rfl⟩
abbrev main_c_9 : Ref sig .tc := ⟨.hbm, 51, rfl⟩
abbrev main_v23 : Ref sig .tc := ⟨.hbm, 52, rfl⟩
abbrev main_v24 : Ref sig .tc := ⟨.hbm, 53, rfl⟩
abbrev main_c_10 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_v42 : Ref sig .tc := ⟨.hbm, 73, rfl⟩
abbrev main_v43 : Ref sig .tc := ⟨.hbm, 74, rfl⟩
abbrev main_c_12 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_15 : Ref sig .tc := ⟨.hbm, 86, rfl⟩
abbrev main_v52 : Ref sig .tc := ⟨.hbm, 87, rfl⟩
abbrev main_v53 : Ref sig .tc := ⟨.hbm, 88, rfl⟩
abbrev main_c_16 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_17 : Ref sig .tc := ⟨.hbm, 104, rfl⟩
abbrev main_v68 : Ref sig .tc := ⟨.hbm, 105, rfl⟩
abbrev main_v69 : Ref sig .tc := ⟨.hbm, 106, rfl⟩
abbrev main_c_18 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_21 : Ref sig .tc := ⟨.hbm, 118, rfl⟩
abbrev main_v78 : Ref sig .tc := ⟨.hbm, 119, rfl⟩
abbrev main_v79 : Ref sig .tc := ⟨.hbm, 120, rfl⟩
abbrev main_c_22 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  slices_S4194304x3_S4194304x1_0_0 : S4194304x3.Slices ![0, 0] S4194304x1
  shapeCasts_S4194304x1_S4194304 : S4194304x1.ShapeCasts S4194304
  bcast_S_S4194304 : S_.BroadcastsInDim S4194304 (![] : Fin 0 → Fin S4194304.rank)
  slices_S4194304x3_S4194304x1_0_1 : S4194304x3.Slices ![0, 1] S4194304x1
  slices_S4194304x3_S4194304x1_0_2 : S4194304x3.Slices ![0, 2] S4194304x1
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S4194304_S4194304x1x1_0 : S4194304.BroadcastsInDim S4194304x1x1 (![0] : Fin 1 → Fin S4194304x1x1.rank)
  bcast_S4194304x2_S4194304x2x1_0_1 : S4194304x2.BroadcastsInDim S4194304x2x1 (![0, 1] : Fin 2 → Fin S4194304x2x1.rank)
  bcast_S4194304x2_S4194304x1x2_0_2 : S4194304x2.BroadcastsInDim S4194304x1x2 (![0, 2] : Fin 2 → Fin S4194304x1x2.rank)
  bcast_S_S4194304x1x1 : S_.BroadcastsInDim S4194304x1x1 (![] : Fin 0 → Fin S4194304x1x1.rank)
  bcast_S_S4194304x2x1 : S_.BroadcastsInDim S4194304x2x1 (![] : Fin 0 → Fin S4194304x2x1.rank)
  bcast_S_S4194304x1x2 : S_.BroadcastsInDim S4194304x1x2 (![] : Fin 0 → Fin S4194304x1x2.rank)
  bcast_S4194304x1x1_S4194304x2x2_0_1_2 : S4194304x1x1.BroadcastsInDim S4194304x2x2 (![0, 1, 2] : Fin 3 → Fin S4194304x2x2.rank)
  bcast_S4194304x2x1_S4194304x2x2_0_1_2 : S4194304x2x1.BroadcastsInDim S4194304x2x2 (![0, 1, 2] : Fin 3 → Fin S4194304x2x2.rank)
  bcast_S4194304x1x2_S4194304x2x2_0_1_2 : S4194304x1x2.BroadcastsInDim S4194304x2x2 (![0, 1, 2] : Fin 3 → Fin S4194304x2x2.rank)
  bcast_S4194304x2x2_S4194304x2x2x1_0_1_2 : S4194304x2x2.BroadcastsInDim S4194304x2x2x1 (![0, 1, 2] : Fin 3 → Fin S4194304x2x2x1.rank)
  concatenates_S4194304x2x2x1_S4194304x2x2x1_S4194304x2x2x1_S4194304x2x2x3_d3 : Shape.Concatenates [S4194304x2x2x1, S4194304x2x2x1, S4194304x2x2x1] S4194304x2x2x3 3
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_0_1 : S4194304x2x2.Slices ![0, 0, 1] S4194304x1x1
  slices_S4194304x2x2_S4194304x1x1_0_1_0 : S4194304x2x2.Slices ![0, 1, 0] S4194304x1x1
  slices_S4194304x2x2_S4194304x1x1_0_1_1 : S4194304x2x2.Slices ![0, 1, 1] S4194304x1x1
  bcast_S4194304_S1x4194304_1 : S4194304.BroadcastsInDim S1x4194304 (![1] : Fin 1 → Fin S1x4194304.rank)
  concatenates_S1x4194304_S1x4194304_S1x4194304_S1x4194304_S1x4194304_S1x4194304_S1x4194304_S1x4194304_S8x4194304_d0 : Shape.Concatenates [S1x4194304, S1x4194304, S1x4194304, S1x4194304, S1x4194304, S1x4194304, S1x4194304, S1x4194304] S8x4194304 0
  concatenates_S1x4194304_S1x4194304_S1x4194304_S3x4194304_d0 : Shape.Concatenates [S1x4194304, S1x4194304, S1x4194304] S3x4194304 0
  shapeCasts_S8x4194304_S8x32768x128 : S8x4194304.ShapeCasts S8x32768x128
  shapeCasts_S3x4194304_S3x32768x128 : S3x4194304.ShapeCasts S3x32768x128
  inb_S3x2048x128_S1x2048x128_0_0_0 : ∀ a, (![0, 0, 0] : Fin 3 → Nat) a + S1x2048x128.size a ≤ S3x2048x128.size a
  h_S1x2048x128 : 0 < S1x2048x128.numel
  shapeCasts_S1x2048x128_S2048x128 : S1x2048x128.ShapeCasts S2048x128
  inb_S3x2048x128_S1x2048x128_1_0_0 : ∀ a, (![1, 0, 0] : Fin 3 → Nat) a + S1x2048x128.size a ≤ S3x2048x128.size a
  inb_S3x2048x128_S1x2048x128_2_0_0 : ∀ a, (![2, 0, 0] : Fin 3 → Nat) a + S1x2048x128.size a ≤ S3x2048x128.size a
  inb_S8x2048x128_S1x2048x128_0_0_0 : ∀ a, (![0, 0, 0] : Fin 3 → Nat) a + S1x2048x128.size a ≤ S8x2048x128.size a
  inb_S8x2048x128_S1x2048x128_1_0_0 : ∀ a, (![1, 0, 0] : Fin 3 → Nat) a + S1x2048x128.size a ≤ S8x2048x128.size a
  inb_S8x2048x128_S1x2048x128_2_0_0 : ∀ a, (![2, 0, 0] : Fin 3 → Nat) a + S1x2048x128.size a ≤ S8x2048x128.size a
  inb_S8x2048x128_S1x2048x128_3_0_0 : ∀ a, (![3, 0, 0] : Fin 3 → Nat) a + S1x2048x128.size a ≤ S8x2048x128.size a
  inb_S8x2048x128_S1x2048x128_4_0_0 : ∀ a, (![4, 0, 0] : Fin 3 → Nat) a + S1x2048x128.size a ≤ S8x2048x128.size a
  inb_S8x2048x128_S1x2048x128_5_0_0 : ∀ a, (![5, 0, 0] : Fin 3 → Nat) a + S1x2048x128.size a ≤ S8x2048x128.size a
  inb_S8x2048x128_S1x2048x128_6_0_0 : ∀ a, (![6, 0, 0] : Fin 3 → Nat) a + S1x2048x128.size a ≤ S8x2048x128.size a
  inb_S8x2048x128_S1x2048x128_7_0_0 : ∀ a, (![7, 0, 0] : Fin 3 → Nat) a + S1x2048x128.size a ≤ S8x2048x128.size a
  inb_S2048x128_S2048x128_0_0 : ∀ a, (![0, 0] : Fin 2 → Nat) a + S2048x128.size a ≤ S2048x128.size a
  h_S2048x128 : 0 < S2048x128.numel
  shapeCasts_S32768x128_S4194304 : S32768x128.ShapeCasts S4194304
  shapeCasts_S4194304_S4194304x1 : S4194304.ShapeCasts S4194304x1
  gather_S512x512x512_S4194304x2x2x3_S4194304x2x2_n_012_n_n_012_3_111_wf : GatherDims.WF S512x512x512 S4194304x2x2x3 S4194304x2x2 [] [0, 1, 2] [] [0, 1, 2] [] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S8x32768x128.size a
  hwx0_0 : ∀ i : grid0.Coords, EltTy.bits .f32 = 32 ∨ (Rect.block (s := S8x32768x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048x128.size a ≤ S3x32768x128.size a
  hwx0_1 : ∀ i : grid0.Coords, EltTy.bits .f32 = 32 ∨ (Rect.block (s := S3x32768x128) S3x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)

variable [Facts₀]

def gather_S512x512x512_S4194304x2x2x3_S4194304x2x2_n_012_n_n_012_3_111 : GatherDims S512x512x512 S4194304x2x2x3 S4194304x2x2 where
  offsetDims := []
  collapsedSliceDims := [0, 1, 2]
  operandBatchingDims := []
  startIndicesBatchingDims := []
  startIndexMap := [0, 1, 2]
  indexVectorDim := 3
  sliceSizes := ![1, 1, 1]
  wf := gather_S512x512x512_S4194304x2x2x3_S4194304x2x2_n_012_n_n_012_3_111_wf

abbrev win0_0 : Pipeline.Window sig grid0 :=
  Pipeline.Window.ofSpec (Memref.whole main_v120) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v121) S3x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v122) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S512x512x512 : Shape := ⟨3, ![512, 512, 512]⟩
abbrev S3 : Shape := ⟨1, ![3]⟩
abbrev S1x3 : Shape := ⟨2, ![1, 3]⟩
abbrev S4194304x1 : Shape := ⟨2, ![4194304, 1]⟩
abbrev S4194304 : Shape := ⟨1, ![4194304]⟩
abbrev S_ : Shape := ⟨0, ![]⟩

abbrev nBuf : Space → Nat
  | .hbm => 318
  | .vmem => 0
  | .smem => 0
  | _ => 0

abbrev hbmTy0_0 (i : Nat) : BufTy := match i % 128 with
  | 0 => ⟨S4194304x3, .f32⟩
  | 1 => ⟨S512x512x512, .f32⟩
  | 2 => ⟨S3, .f32⟩
  | 3 => ⟨S1x3, .f32⟩
  | 4 => ⟨S4194304x3, .f32⟩
  | 5 => ⟨S4194304x3, .f32⟩
  | 6 => ⟨S4194304x3, .i32⟩
  | 7 => ⟨S4194304x3, .f32⟩
  | 8 => ⟨S4194304x3, .f32⟩
  | 9 => ⟨S4194304x1, .i32⟩
  | 10 => ⟨S4194304, .i32⟩
  | 11 => ⟨S_, .i32⟩
  | 12 => ⟨S_, .i32⟩
  | 13 => ⟨S_, .i32⟩
  | 14 => ⟨S4194304, .i32⟩
  | 15 => ⟨S4194304, .i32⟩
  | 16 => ⟨S_, .i32⟩
  | 17 => ⟨S4194304, .i32⟩
  | 18 => ⟨S4194304, .i32⟩
  | 19 => ⟨S4194304x1, .i32⟩
  | 20 => ⟨S4194304, .i32⟩
  | 21 => ⟨S_, .i32⟩
  | 22 => ⟨S_, .i32⟩
  | 23 => ⟨S_, .i32⟩
  | 24 => ⟨S4194304, .i32⟩
  | 25 => ⟨S4194304, .i32⟩
  | 26 => ⟨S_, .i32⟩
  | 27 => ⟨S4194304, .i32⟩
  | 28 => ⟨S4194304, .i32⟩
  | 29 => ⟨S4194304x1, .i32⟩
  | 30 => ⟨S4194304, .i32⟩
  | 31 => ⟨S_, .i32⟩
  | 32 => ⟨S_, .i32⟩
  | 33 => ⟨S_, .i32⟩
  | 34 => ⟨S4194304, .i32⟩
  | 35 => ⟨S4194304, .i32⟩
  | 36 => ⟨S_, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S_, .i32⟩
  | 43 => ⟨S4194304, .i32⟩
  | 44 => ⟨S4194304, .i32⟩
  | 45 => ⟨S_, .i32⟩
  | 46 => ⟨S4194304, .i32⟩
  | 47 => ⟨S4194304, .i32⟩
  | 48 => ⟨S_, .i32⟩
  | 49 => ⟨S4194304, .i32⟩
  | 50 => ⟨S4194304, .i32⟩
  | 51 => ⟨S_, .i32⟩
  | 52 => ⟨S4194304, .i32⟩
  | 53 => ⟨S4194304, .i32⟩
  | 54 => ⟨S_, .i32⟩
  | 55 => ⟨S4194304, .i32⟩
  | 56 => ⟨S4194304, .i32⟩
  | 57 => ⟨S4194304x1, .f32⟩
  | 58 => ⟨S4194304x1, .f32⟩
  | 59 => ⟨S4194304x1, .f32⟩
  | 60 => ⟨S_, .i32⟩
  | 61 => ⟨S4194304, .i32⟩
  | 62 => ⟨S4194304, .i1⟩
  | 63 => ⟨S_, .i32⟩
  | 64 => ⟨S4194304, .i32⟩
  | 65 => ⟨S4194304, .i32⟩
  | 66 => ⟨S4194304, .i32⟩
  | 67 => ⟨S_, .i32⟩
  | 68 => ⟨S4194304, .i32⟩
  | 69 => ⟨S4194304, .i1⟩
  | 70 => ⟨S_, .i32⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i32⟩
  | 80 => ⟨S4194304, .i32⟩
  | 81 => ⟨S4194304x1, .i32⟩
  | 82 => ⟨S4194304x1, .i32⟩
  | 83 => ⟨S4194304x1, .i32⟩
  | 84 => ⟨S4194304x3, .i32⟩
  | 85 => ⟨S4194304, .f32⟩
  | 86 => ⟨S4194304x1, .f32⟩
  | 87 => ⟨S_, .i32⟩
  | 88 => ⟨S4194304, .i32⟩
  | 89 => ⟨S4194304, .i1⟩
  | 90 => ⟨S_, .i32⟩
  | 91 => ⟨S4194304, .i32⟩
  | 92 => ⟨S4194304, .i32⟩
  | 93 => ⟨S4194304, .i32⟩
  | 94 => ⟨S_, .i32⟩
  | 95 => ⟨S4194304, .i32⟩
  | 96 => ⟨S4194304, .i1⟩
  | 97 => ⟨S_, .i32⟩
  | 98 => ⟨S4194304, .i32⟩
  | 99 => ⟨S4194304, .i32⟩
  | 100 => ⟨S4194304, .i32⟩
  | 101 => ⟨S_, .i32⟩
  | 102 => ⟨S4194304, .i32⟩
  | 103 => ⟨S4194304, .i1⟩
  | 104 => ⟨S_, .i32⟩
  | 105 => ⟨S4194304, .i32⟩
  | 106 => ⟨S4194304, .i32⟩
  | 107 => ⟨S4194304, .i32⟩
  | 108 => ⟨S4194304x1, .i32⟩
  | 109 => ⟨S4194304x1, .i32⟩
  | 110 => ⟨S4194304x1, .i32⟩
  | 111 => ⟨S4194304x3, .i32⟩
  | 112 => ⟨S4194304, .f32⟩
  | 113 => ⟨S4194304x1, .f32⟩
  | 114 => ⟨S_, .i32⟩
  | 115 => ⟨S4194304, .i32⟩
  | 116 => ⟨S4194304, .i1⟩
  | 117 => ⟨S_, .i32⟩
  | 118 => ⟨S4194304, .i32⟩
  | 119 => ⟨S4194304, .i32⟩
  | 120 => ⟨S4194304, .i32⟩
  | 121 => ⟨S_, .i32⟩
  | 122 => ⟨S4194304, .i32⟩
  | 123 => ⟨S4194304, .i1⟩
  | 124 => ⟨S_, .i32⟩
  | 125 => ⟨S4194304, .i32⟩
  | 126 => ⟨S4194304, .i32⟩
  | 127 => ⟨S4194304, .i32⟩
  | _ => ⟨S4194304x3, .f32⟩

abbrev hbmTy0_1 (i : Nat) : BufTy := match i % 128 with
  | 0 => ⟨S_, .i32⟩
  | 1 => ⟨S4194304, .i32⟩
  | 2 => ⟨S4194304, .i1⟩
  | 3 => ⟨S_, .i32⟩
  | 4 => ⟨S4194304, .i32⟩
  | 5 => ⟨S4194304, .i32⟩
  | 6 => ⟨S4194304, .i32⟩
  | 7 => ⟨S4194304x1, .i32⟩
  | 8 => ⟨S4194304x1, .i32⟩
  | 9 => ⟨S4194304x1, .i32⟩
  | 10 => ⟨S4194304x3, .i32⟩
  | 11 => ⟨S4194304, .f32⟩
  | 12 => ⟨S4194304x1, .f32⟩
  | 13 => ⟨S_, .i32⟩
  | 14 => ⟨S4194304, .i32⟩
  | 15 => ⟨S4194304, .i1⟩
  | 16 => ⟨S_, .i32⟩
  | 17 => ⟨S4194304, .i32⟩
  | 18 => ⟨S4194304, .i32⟩
  | 19 => ⟨S4194304, .i32⟩
  | 20 => ⟨S_, .i32⟩
  | 21 => ⟨S4194304, .i32⟩
  | 22 => ⟨S4194304, .i1⟩
  | 23 => ⟨S_, .i32⟩
  | 24 => ⟨S4194304, .i32⟩
  | 25 => ⟨S4194304, .i32⟩
  | 26 => ⟨S4194304, .i32⟩
  | 27 => ⟨S_, .i32⟩
  | 28 => ⟨S4194304, .i32⟩
  | 29 => ⟨S4194304, .i1⟩
  | 30 => ⟨S_, .i32⟩
  | 31 => ⟨S4194304, .i32⟩
  | 32 => ⟨S4194304, .i32⟩
  | 33 => ⟨S4194304, .i32⟩
  | 34 => ⟨S4194304x1, .i32⟩
  | 35 => ⟨S4194304x1, .i32⟩
  | 36 => ⟨S4194304x1, .i32⟩
  | 37 => ⟨S4194304x3, .i32⟩
  | 38 => ⟨S4194304, .f32⟩
  | 39 => ⟨S4194304x1, .f32⟩
  | 40 => ⟨S_, .i32⟩
  | 41 => ⟨S4194304, .i32⟩
  | 42 => ⟨S4194304, .i1⟩
  | 43 => ⟨S_, .i32⟩
  | 44 => ⟨S4194304, .i32⟩
  | 45 => ⟨S4194304, .i32⟩
  | 46 => ⟨S4194304, .i32⟩
  | 47 => ⟨S_, .i32⟩
  | 48 => ⟨S4194304, .i32⟩
  | 49 => ⟨S4194304, .i1⟩
  | 50 => ⟨S_, .i32⟩
  | 51 => ⟨S4194304, .i32⟩
  | 52 => ⟨S4194304, .i32⟩
  | 53 => ⟨S4194304, .i32⟩
  | 54 => ⟨S_, .i32⟩
  | 55 => ⟨S4194304, .i32⟩
  | 56 => ⟨S4194304, .i1⟩
  | 57 => ⟨S_, .i32⟩
  | 58 => ⟨S4194304, .i32⟩
  | 59 => ⟨S4194304, .i32⟩
  | 60 => ⟨S4194304, .i32⟩
  | 61 => ⟨S4194304x1, .i32⟩
  | 62 => ⟨S4194304x1, .i32⟩
  | 63 => ⟨S4194304x1, .i32⟩
  | 64 => ⟨S4194304x3, .i32⟩
  | 65 => ⟨S4194304, .f32⟩
  | 66 => ⟨S4194304x1, .f32⟩
  | 67 => ⟨S_, .i32⟩
  | 68 => ⟨S4194304, .i32⟩
  | 69 => ⟨S4194304, .i1⟩
  | 70 => ⟨S_, .i32⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i32⟩
  | 80 => ⟨S4194304, .i32⟩
  | 81 => ⟨S_, .i32⟩
  | 82 => ⟨S4194304, .i32⟩
  | 83 => ⟨S4194304, .i1⟩
  | 84 => ⟨S_, .i32⟩
  | 85 => ⟨S4194304, .i32⟩
  | 86 => ⟨S4194304, .i32⟩
  | 87 => ⟨S4194304, .i32⟩
  | 88 => ⟨S4194304x1, .i32⟩
  | 89 => ⟨S4194304x1, .i32⟩
  | 90 => ⟨S4194304x1, .i32⟩
  | 91 => ⟨S4194304x3, .i32⟩
  | 92 => ⟨S4194304, .f32⟩
  | 93 => ⟨S4194304x1, .f32⟩
  | 94 => ⟨S_, .i32⟩
  | 95 => ⟨S4194304, .i32⟩
  | 96 => ⟨S4194304, .i1⟩
  | 97 => ⟨S_, .i32⟩
  | 98 => ⟨S4194304, .i32⟩
  | 99 => ⟨S4194304, .i32⟩
  | 100 => ⟨S4194304, .i32⟩
  | 101 => ⟨S_, .i32⟩
  | 102 => ⟨S4194304, .i32⟩
  | 103 => ⟨S4194304, .i1⟩
  | 104 => ⟨S_, .i32⟩
  | 105 => ⟨S4194304, .i32⟩
  | 106 => ⟨S4194304, .i32⟩
  | 107 => ⟨S4194304, .i32⟩
  | 108 => ⟨S_, .i32⟩
  | 109 => ⟨S4194304, .i32⟩
  | 110 => ⟨S4194304, .i1⟩
  | 111 => ⟨S_, .i32⟩
  | 112 => ⟨S4194304, .i32⟩
  | 113 => ⟨S4194304, .i32⟩
  | 114 => ⟨S4194304, .i32⟩
  | 115 => ⟨S4194304x1, .i32⟩
  | 116 => ⟨S4194304x1, .i32⟩
  | 117 => ⟨S4194304x1, .i32⟩
  | 118 => ⟨S4194304x3, .i32⟩
  | 119 => ⟨S4194304, .f32⟩
  | 120 => ⟨S4194304x1, .f32⟩
  | 121 => ⟨S_, .i32⟩
  | 122 => ⟨S4194304, .i32⟩
  | 123 => ⟨S4194304, .i1⟩
  | 124 => ⟨S_, .i32⟩
  | 125 => ⟨S4194304, .i32⟩
  | 126 => ⟨S4194304, .i32⟩
  | 127 => ⟨S4194304, .i32⟩
  | _ => ⟨S4194304x3, .f32⟩

abbrev hbmTy0_2 (i : Nat) : BufTy := match i % 128 with
  | 0 => ⟨S_, .i32⟩
  | 1 => ⟨S4194304, .i32⟩
  | 2 => ⟨S4194304, .i1⟩
  | 3 => ⟨S_, .i32⟩
  | 4 => ⟨S4194304, .i32⟩
  | 5 => ⟨S4194304, .i32⟩
  | 6 => ⟨S4194304, .i32⟩
  | 7 => ⟨S_, .i32⟩
  | 8 => ⟨S4194304, .i32⟩
  | 9 => ⟨S4194304, .i1⟩
  | 10 => ⟨S_, .i32⟩
  | 11 => ⟨S4194304, .i32⟩
  | 12 => ⟨S4194304, .i32⟩
  | 13 => ⟨S4194304, .i32⟩
  | 14 => ⟨S4194304x1, .i32⟩
  | 15 => ⟨S4194304x1, .i32⟩
  | 16 => ⟨S4194304x1, .i32⟩
  | 17 => ⟨S4194304x3, .i32⟩
  | 18 => ⟨S4194304, .f32⟩
  | 19 => ⟨S4194304x1, .f32⟩
  | 20 => ⟨S_, .f32⟩
  | 21 => ⟨S4194304x1, .f32⟩
  | 22 => ⟨S4194304x1, .f32⟩
  | 23 => ⟨S4194304x1, .f32⟩
  | 24 => ⟨S4194304x1, .f32⟩
  | 25 => ⟨S4194304x1, .f32⟩
  | 26 => ⟨S_, .f32⟩
  | 27 => ⟨S4194304x1, .f32⟩
  | 28 => ⟨S4194304x1, .f32⟩
  | 29 => ⟨S4194304x1, .f32⟩
  | 30 => ⟨S4194304x1, .f32⟩
  | 31 => ⟨S4194304x1, .f32⟩
  | 32 => ⟨S_, .f32⟩
  | 33 => ⟨S4194304x1, .f32⟩
  | 34 => ⟨S4194304x1, .f32⟩
  | 35 => ⟨S4194304x1, .f32⟩
  | 36 => ⟨S4194304x1, .f32⟩
  | 37 => ⟨S4194304x1, .f32⟩
  | 38 => ⟨S_, .f32⟩
  | 39 => ⟨S4194304x1, .f32⟩
  | 40 => ⟨S4194304x1, .f32⟩
  | 41 => ⟨S4194304x1, .f32⟩
  | 42 => ⟨S4194304x1, .f32⟩
  | 43 => ⟨S4194304x1, .f32⟩
  | 44 => ⟨S_, .f32⟩
  | 45 => ⟨S4194304x1, .f32⟩
  | 46 => ⟨S4194304x1, .f32⟩
  | 47 => ⟨S4194304x1, .f32⟩
  | 48 => ⟨S4194304x1, .f32⟩
  | 49 => ⟨S4194304x1, .f32⟩
  | 50 => ⟨S_, .f32⟩
  | 51 => ⟨S4194304x1, .f32⟩
  | 52 => ⟨S4194304x1, .f32⟩
  | 53 => ⟨S4194304x1, .f32⟩
  | 54 => ⟨S4194304x1, .f32⟩
  | 55 => ⟨S4194304x1, .f32⟩
  | 56 => ⟨S_, .f32⟩
  | 57 => ⟨S4194304x1, .f32⟩
  | 58 => ⟨S4194304x1, .f32⟩
  | 59 => ⟨S4194304x1, .f32⟩
  | 60 => ⟨S4194304x1, .f32⟩
  | 61 => ⟨S4194304x1, .f32⟩
  | _ => ⟨S4194304x3, .f32⟩

abbrev hbmTy (i : Nat) : BufTy := match i / 128 with
  | 0 => hbmTy0_0 i
  | 1 => hbmTy0_1 i
  | 2 => hbmTy0_2 i
  | _ => ⟨S4194304x3, .f32⟩

abbrev bufTy : (tb : Table) → Fin (tcTables nBuf tb) → BufTy
  | .hbm, ⟨i, _⟩ => hbmTy i
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_c_4 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v14 : Ref sig .tc := ⟨.hbm, 38, rfl⟩
abbrev main_c_5 : Ref sig .tc := ⟨.hbm, 39, rfl⟩
abbrev main_v15 : Ref sig .tc := ⟨.hbm, 40, rfl⟩
abbrev main_v16 : Ref sig .tc := ⟨.hbm, 41, rfl⟩
abbrev main_c_6 : Ref sig .tc := ⟨.hbm, 42, rfl⟩
abbrev main_v17 : Ref sig .tc := ⟨.hbm, 43, rfl⟩
abbrev main_v18 : Ref sig .tc := ⟨.hbm, 44, rfl⟩
abbrev main_c_7 : Ref sig .tc := ⟨.hbm, 45, rfl⟩
abbrev main_v19 : Ref sig .tc := ⟨.hbm, 46, rfl⟩
abbrev main_v20 : Ref sig .tc := ⟨.hbm, 47, rfl⟩
abbrev main_c_8 : Ref sig .tc := ⟨.hbm, 48, rfl⟩
abbrev main_v21 : Ref sig .tc := ⟨.hbm, 49, rfl⟩
abbrev main_v22 : Ref sig .tc := ⟨.hbm, 50, rfl⟩
abbrev main_c_9 : Ref sig .tc := ⟨.hbm, 51, rfl⟩
abbrev main_v23 : Ref sig .tc := ⟨.hbm, 52, rfl⟩
abbrev main_v24 : Ref sig .tc := ⟨.hbm, 53, rfl⟩
abbrev main_c_10 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_11 : Ref sig .tc := ⟨.hbm, 60, rfl⟩
abbrev main_v30 : Ref sig .tc := ⟨.hbm, 61, rfl⟩
abbrev main_v31 : Ref sig .tc := ⟨.hbm, 62, rfl⟩
abbrev main_c_12 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_13 : Ref sig .tc := ⟨.hbm, 67, rfl⟩
abbrev main_v35 : Ref sig .tc := ⟨.hbm, 68, rfl⟩
abbrev main_v36 : Ref sig .tc := ⟨.hbm, 69, rfl⟩
abbrev main_c_14 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_15 : Ref sig .tc := ⟨.hbm, 74, rfl⟩
abbrev main_v40 : Ref sig .tc := ⟨.hbm, 75, rfl⟩
abbrev main_v41 : Ref sig .tc := ⟨.hbm, 76, rfl⟩
abbrev main_c_16 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_17 : Ref sig .tc := ⟨.hbm, 87, rfl⟩
abbrev main_v51 : Ref sig .tc := ⟨.hbm, 88, rfl⟩
abbrev main_v52 : Ref sig .tc := ⟨.hbm, 89, rfl⟩
abbrev main_c_18 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_19 : Ref sig .tc := ⟨.hbm, 94, rfl⟩
abbrev main_v56 : Ref sig .tc := ⟨.hbm, 95, rfl⟩
abbrev main_v57 : Ref sig .tc := ⟨.hbm, 96, rfl⟩
abbrev main_c_20 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_c_21 : Ref sig .tc := ⟨.hbm, 101, rfl⟩
abbrev main_v61 : Ref sig .tc := ⟨.hbm, 102, rfl⟩
abbrev main_v62 : Ref sig .tc := ⟨.hbm, 103, rfl⟩
abbrev main_c_22 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_23 : Ref sig .tc := ⟨.hbm, 114, rfl⟩
abbrev main_v72 : Ref sig .tc := ⟨.hbm, 115, rfl⟩
abbrev main_v73 : Ref sig .tc := ⟨.hbm, 116, rfl⟩
abbrev main_c_24 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_25 : Ref sig .tc := ⟨.hbm, 121, rfl⟩
abbrev main_v77 : Ref sig .tc := ⟨.hbm, 122, rfl⟩
abbrev main_v78 : Ref sig .tc := ⟨.hbm, 123, rfl⟩
abbrev main_c_26 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_c_27 : Ref sig .tc := ⟨.hbm, 128, rfl⟩
abbrev main_v82 : Ref sig .tc := ⟨.hbm, 129, rfl⟩
abbrev main_v83 : Ref sig .tc := ⟨.hbm, 130, rfl⟩
abbrev main_c_28 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_29 : Ref sig .tc := ⟨.hbm, 141, rfl⟩
abbrev main_v93 : Ref sig .tc := ⟨.hbm, 142, rfl⟩
abbrev main_v94 : Ref sig .tc := ⟨.hbm, 143, rfl⟩
abbrev main_c_30 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_31 : Ref sig .tc := ⟨.hbm, 148, rfl⟩
abbrev main_v98 : Ref sig .tc := ⟨.hbm, 149, rfl⟩
abbrev main_v99 : Ref sig .tc := ⟨.hbm, 150, rfl⟩
abbrev main_c_32 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_33 : Ref sig .tc := ⟨.hbm, 155, rfl⟩
abbrev main_v103 : Ref sig .tc := ⟨.hbm, 156, rfl⟩
abbrev main_v104 : Ref sig .tc := ⟨.hbm, 157, rfl⟩
abbrev main_c_34 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_35 : Ref sig .tc := ⟨.hbm, 168, rfl⟩
abbrev main_v114 : Ref sig .tc := ⟨.hbm, 169, rfl⟩
abbrev main_v115 : Ref sig .tc := ⟨.hbm, 170, rfl⟩
abbrev main_c_36 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_c_37 : Ref sig .tc := ⟨.hbm, 175, rfl⟩
abbrev main_v119 : Ref sig .tc := ⟨.hbm, 176, rfl⟩
abbrev main_v120 : Ref sig .tc := ⟨.hbm, 177, rfl⟩
abbrev main_c_38 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_c_39 : Ref sig .tc := ⟨.hbm, 182, rfl⟩
abbrev main_v124 : Ref sig .tc := ⟨.hbm, 183, rfl⟩
abbrev main_v125 : Ref sig .tc := ⟨.hbm, 184, rfl⟩
abbrev main_c_40 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_41 : Ref sig .tc := ⟨.hbm, 195, rfl⟩
abbrev main_v135 : Ref sig .tc := ⟨.hbm, 196, rfl⟩
abbrev main_v136 : Ref sig .tc := ⟨.hbm, 197, rfl⟩
abbrev main_c_42 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_c_43 : Ref sig .tc := ⟨.hbm, 202, rfl⟩
abbrev main_v140 : Ref sig .tc := ⟨.hbm, 203, rfl⟩
abbrev main_v141 : Ref sig .tc := ⟨.hbm, 204, rfl⟩
abbrev main_c_44 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_c_45 : Ref sig .tc := ⟨.hbm, 209, rfl⟩
abbrev main_v145 : Ref sig .tc := ⟨.hbm, 210, rfl⟩
abbrev main_v146 : Ref sig .tc := ⟨.hbm, 211, rfl⟩
abbrev main_c_46 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_c_47 : Ref sig .tc := ⟨.hbm, 222, rfl⟩
abbrev main_v156 : Ref sig .tc := ⟨.hbm, 223, rfl⟩
abbrev main_v157 : Ref sig .tc := ⟨.hbm, 224, rfl⟩
abbrev main_c_48 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_c_49 : Ref sig .tc := ⟨.hbm, 229, rfl⟩
abbrev main_v161 : Ref sig .tc := ⟨.hbm, 230, rfl⟩
abbrev main_v162 : Ref sig .tc := ⟨.hbm, 231, rfl⟩
abbrev main_c_50 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_c_51 : Ref sig .tc := ⟨.hbm, 236, rfl⟩
abbrev main_v166 : Ref sig .tc := ⟨.hbm, 237, rfl⟩
abbrev main_v167 : Ref sig .tc := ⟨.hbm, 238, rfl⟩
abbrev main_c_52 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_c_53 : Ref sig .tc := ⟨.hbm, 249, rfl⟩
abbrev main_v177 : Ref sig .tc := ⟨.hbm, 250, rfl⟩
abbrev main_v178 : Ref sig .tc := ⟨.hbm, 251, rfl⟩
abbrev main_c_54 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_c_55 : Ref sig .tc := ⟨.hbm, 256, rfl⟩
abbrev main_v182 : Ref sig .tc := ⟨.hbm, 257, rfl⟩
abbrev main_v183 : Ref sig .tc := ⟨.hbm, 258, rfl⟩
abbrev main_c_56 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_c_57 : Ref sig .tc := ⟨.hbm, 263, rfl⟩
abbrev main_v187 : Ref sig .tc := ⟨.hbm, 264, rfl⟩
abbrev main_v188 : Ref sig .tc := ⟨.hbm, 265, rfl⟩
abbrev main_c_58 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_cst_59 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_cst_60 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_cst_61 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_cst_62 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_cst_63 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_cst_64 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_cst_65 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  slices_S4194304x3_S4194304x1_0_0 : S4194304x3.Slices ![0, 0] S4194304x1
  shapeCasts_S4194304x1_S4194304 : S4194304x1.ShapeCasts S4194304
  bcast_S_S4194304 : S_.BroadcastsInDim S4194304 (![] : Fin 0 → Fin S4194304.rank)
  slices_S4194304x3_S4194304x1_0_1 : S4194304x3.Slices ![0, 1] S4194304x1
  slices_S4194304x3_S4194304x1_0_2 : S4194304x3.Slices ![0, 2] S4194304x1
  bcast_S4194304_S4194304x1_0 : S4194304.BroadcastsInDim S4194304x1 (![0] : Fin 1 → Fin S4194304x1.rank)
  concatenates_S4194304x1_S4194304x1_S4194304x1_S4194304x3_d1 : Shape.Concatenates [S4194304x1, S4194304x1, S4194304x1] S4194304x3 1
  bcast_S_S4194304x1 : S_.BroadcastsInDim S4194304x1 (![] : Fin 0 → Fin S4194304x1.rank)
  gather_S512x512x512_S4194304x3_S4194304_n_012_n_n_012_1_111_wf : GatherDims.WF S512x512x512 S4194304x3 S4194304 [] [0, 1, 2] [] [0, 1, 2] [] 1 ![1, 1, 1]

variable [Facts₀]

def gather_S512x512x512_S4194304x3_S4194304_n_012_n_n_012_1_111 : GatherDims S512x512x512 S4194304x3 S4194304 where
  offsetDims := []
  collapsedSliceDims := [0, 1, 2]
  operandBatchingDims := []
  startIndicesBatchingDims := []
  startIndexMap := [0, 1, 2]
  indexVectorDim := 1
  sliceSizes := ![1, 1, 1]
  wf := gather_S512x512x512_S4194304x3_S4194304_n_012_n_n_012_1_111_wf

class Facts : Prop extends Facts₀ where

variable [Facts]
-- ==== Proof.EntryBits.lean ====
/-
  The arrays as the kernel's one region finds them: each TensorCore buffer after the host operations that precede the
  region (the scaling of the coordinates, their integer parts and fractions, the three clamps, the two brick gathers, the
  packing of the eight corner rows and the three weight rows), read off the launch memory m.
-/
import proofs.«161852_j89034672046121_2_alg».proof.Proof.Gen.Kernel.Launch

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- Core c's TensorCore buffer contents when the region is entered, as a valuation: the launch memory after the seven
    stretches of host operations that precede the region. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same, read at one TensorCore reference. -/
abbrev V (c : Dev nD) (b : Ref sig .tc) : Buf (Elt F) ((c : Thread nD τ).loc b) := V0 m c (Proc.devRef .tc b)

end Cert.Kernel.Hand

end
-- ==== Proof.BlockBits.lean ====
/-
  What the kernel body stores at one grid point, as a pure function of the two input blocks it loads: the corner block
  x0 (eight rows of 2048 x 128 corner values) and the weight block x1 (three rows of 2048 x 128 weights). The body reads
  each of the eleven rows through a one-row rectangle, blends them entrywise, and stores the 2048 x 128 result over its
  whole output block.
-/
import proofs.«161852_j89034672046121_2_alg».proof.Proof.Gen.Kernel.Skeleton
import Idealize.ShloMosaic.Lib.Pipeline.FrameBody

noncomputable section

namespace Cert.Kernel.Hand

open Idealize.ShloMosaic Idealize.ShloMosaic.TcCoe Idealize.SL.Sem
open Cert.Kernel Cert.Kernel.Gen

variable {F : FTy → Type} [FloatOps F]

/-- Row j of the weight block, as a rectangle: rows 0, 1, 2 hold the weights along x, y, z. -/
abbrev rw0 : Rect S3x2048x128 := Rect.unit (s := S3x2048x128) ![0, 0, 0] S1x2048x128.size inb_S3x2048x128_S1x2048x128_0_0_0
abbrev rw1 : Rect S3x2048x128 := Rect.unit (s := S3x2048x128) ![1, 0, 0] S1x2048x128.size inb_S3x2048x128_S1x2048x128_1_0_0
abbrev rw2 : Rect S3x2048x128 := Rect.unit (s := S3x2048x128) ![2, 0, 0] S1x2048x128.size inb_S3x2048x128_S1x2048x128_2_0_0
/-- Row k of the corner block, as a rectangle: row k holds corner number k of every point of the block. -/
abbrev rc0 : Rect S8x2048x128 := Rect.unit (s := S8x2048x128) ![0, 0, 0] S1x2048x128.size inb_S8x2048x128_S1x2048x128_0_0_0
abbrev rc1 : Rect S8x2048x128 := Rect.unit (s := S8x2048x128) ![1, 0, 0] S1x2048x128.size inb_S8x2048x128_S1x2048x128_1_0_0
abbrev rc2 : Rect S8x2048x128 := Rect.unit (s := S8x2048x128) ![2, 0, 0] S1x2048x128.size inb_S8x2048x128_S1x2048x128_2_0_0
abbrev rc3 : Rect S8x2048x128 := Rect.unit (s := S8x2048x128) ![3, 0, 0] S1x2048x128.size inb_S8x2048x128_S1x2048x128_3_0_0
abbrev rc4 : Rect S8x2048x128 := Rect.unit (s := S8x2048x128) ![4, 0, 0] S1x2048x128.size inb_S8x2048x128_S1x2048x128_4_0_0
abbrev rc5 : Rect S8x2048x128 := Rect.unit (s := S8x2048x128) ![5, 0, 0] S1x2048x128.size inb_S8x2048x128_S1x2048x128_5_0_0
abbrev rc6 : Rect S8x2048x128 := Rect.unit (s := S8x2048x128) ![6, 0, 0] S1x2048x128.size inb_S8x2048x128_S1x2048x128_6_0_0
abbrev rc7 : Rect S8x2048x128 := Rect.unit (s := S8x2048x128) ![7, 0, 0] S1x2048x128.size inb_S8x2048x128_S1x2048x128_7_0_0
/-- The whole output block, as a rectangle. -/
abbrev ro : Rect S2048x128 := Rect.unit (s := S2048x128) ![0, 0] S2048x128.size inb_S2048x128_S2048x128_0_0

/-- The 2048 x 128 values the body stores, from the corner block and the weight block it loads. -/
def blockValue (x0 : Vec F S8x2048x128 .f32) (x1 : Vec F S3x2048x128 .f32) : FVec F S2048x128 .f32 :=
  k0_pay1 (k0_pay2 (View.ld x1 rw0)) (k0_pay3 (View.ld x1 rw1)) (k0_pay4 (View.ld x1 rw2))
    (k0_pay5 (View.ld x0 rc1)) (k0_pay6 (View.ld x0 rc2)) (k0_pay7 (View.ld x0 rc3)) (k0_pay8 (View.ld x0 rc4))
    (k0_pay9 (View.ld x0 rc5)) (k0_pay10 (View.ld x0 rc6)) (k0_pay11 (View.ld x0 rc7))
    (k0_pay12 (View.ld x1 rw0) (View.ld x0 rc0))

/-- The output window's staging buffer after the body: its one store, over the whole block. -/
def out0_2 (x0 : Vec F S8x2048x128 .f32) (x1 : Vec F S3x2048x128 .f32) : Vec F S2048x128 .f32 :=
  View.canon [⟨ro, blockValue x0 x1⟩]

end Cert.Kernel.Hand

end
-- ==== Proof.FrameDataBits.lean ====
/-
  The proof data of the program's one pipeline. The region runs over a grid of 16 points; at point t it stages block t of
  the corner array (window 0: eight rows of 2048 x 128 values), block t of the weight array (window 1: three such rows),
  runs the body, and writes the body's 2048 x 128 result back as block t of the result array (window 2). The data say,
  for each window, what its staging buffer holds after the body at each point: an input window still holds its block of
  the array as the region found it, and the output window holds what the body stores, as a function of the two input
  blocks.
-/
import proofs.«161852_j89034672046121_2_alg».proof.Proof.EntryBits
import proofs.«161852_j89034672046121_2_alg».proof.Proof.BlockBits
import proofs.«161852_j89034672046121_2_alg».proof.Proof.Gen.Kernel.Launch
import proofs.«161852_j89034672046121_2_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Window w's block at grid point t: the entries of the window's array, as the region finds it (V), that lie in the
    rectangle the window stages at t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the pipeline on core c. The arrays are as the region finds them. After the body at point t the
    corner window holds its block, the weight window holds its block (the body only reads them), and the result window
    holds the body's one store computed from those two blocks. The invariant is the one of a body that owns nothing of
    its own; every share is whole; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The data's arrays are the region-entry contents: the definition projected, so that V (a fold over 162 host
    operations) is never unfolded to see it. -/
theorem A_eq (c : Dev nD) (w : Fin cfg0.W) : (dats m 0 c).A w = V m c (Pipeline.arrRef spec0 w) := by
  dsimp only [dats]

/-- What the body leaves in each window's staging buffer at point t: the definition's case at that window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Hand

end
-- ==== Proof.FrameHostBits.lean ====
/-
  The program around its one region, on the host side. The program is seven stretches of host operations (the scaling of
  the coordinates, their integer parts and fractions, the three clamps, the gathers and the packing of the corner and
  weight arrays), then the region, then two reshapes of the region's result. Here: none of these operations allocates a
  buffer; the program reduces to the region followed by the two reshapes, entered at the contents the seven stretches
  leave; the two reshapes touch only arrays of the region and buffers that bypass it, and write no array of the region;
  and neither argument array is ever written by a host operation, before the region or after it, so each is found, and
  left, as launched.
-/
import proofs.«161852_j89034672046121_2_alg».proof.Proof.EntryBits
import proofs.«161852_j89034672046121_2_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

-- the longest stretch is a literal list of 125 operations: a conjunction over it nests that deep
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## No host operation allocates -/

/-- Every host operation of the program computes into a buffer that exists from the launch on: none allocates. Stretch
    by stretch, each operation's set of fresh buffers is empty by its definition. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The program around the region -/

/-- The program is the seven stretches, the region, the two reshapes, in this order; every operation of the seven
    stretches touches TensorCore buffers only and allocates nothing. So, holding the unscoped buffers at the launch
    contents, the program reduces to the region continued by the two reshapes, holding those buffers at V: the launch
    contents after the seven stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (And.intro hostOps0_sub (And.intro hostOps0_1_sub (And.intro hostOps0_2_sub (And.intro hostOps0_3_sub
      (And.intro hostOps0_4_sub (And.intro hostOps0_5_sub hostOps0_6_sub))))))
    (And.intro hostOps0_fresh (And.intro hostOps0_1_fresh (And.intro hostOps0_2_fresh (And.intro hostOps0_3_fresh
      (And.intro hostOps0_4_fresh (And.intro hostOps0_5_fresh hostOps0_6_fresh))))))
    main_chain

/-! ## The two reshapes after the region -/

/-- The reshapes touch only arrays of the pipeline and buffers that bypass the region: each touches unscoped TensorCore
    buffers only, and with nothing prefetched every such buffer is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And they write no array of the pipeline: the first writes the flat copy of the result, the second the column copy,
    and neither of these two buffers is the corner array, the weight array or the result array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-! ## The argument arrays are never written -/

/-- Every host operation writes exactly one buffer, its result, and no result buffer is an argument of the program. So,
    stretch by stretch, no operation writes the coordinate array (argument 0) or the volume (argument 1): the
    conjunction over the stretch of the inequalities between buffer names, each decided. -/
theorem hostOps0_args : ∀ op ∈ (hostOps0 : List (HloOp τ sig (Elt F))),
    Proc.devRef .tc main_arg0 ∉ op.writes ∧ Proc.devRef .tc main_arg1 ∉ op.writes :=
  List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_1_args : ∀ op ∈ (hostOps0_1 : List (HloOp τ sig (Elt F))),
    Proc.devRef .tc main_arg0 ∉ op.writes ∧ Proc.devRef .tc main_arg1 ∉ op.writes :=
  List.forall_iff_forall_mem.mp (by
    simp only [hostOps0_1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_2_args : ∀ op ∈ (hostOps0_2 : List (HloOp τ sig (Elt F))),
    Proc.devRef .tc main_arg0 ∉ op.writes ∧ Proc.devRef .tc main_arg1 ∉ op.writes :=
  List.forall_iff_forall_mem.mp (by
    simp only [hostOps0_2, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_3_args : ∀ op ∈ (hostOps0_3 : List (HloOp τ sig (Elt F))),
    Proc.devRef .tc main_arg0 ∉ op.writes ∧ Proc.devRef .tc main_arg1 ∉ op.writes :=
  List.forall_iff_forall_mem.mp (by
    simp only [hostOps0_3, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_4_args : ∀ op ∈ (hostOps0_4 : List (HloOp τ sig (Elt F))),
    Proc.devRef .tc main_arg0 ∉ op.writes ∧ Proc.devRef .tc main_arg1 ∉ op.writes :=
  List.forall_iff_forall_mem.mp (by
    simp only [hostOps0_4, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_5_args : ∀ op ∈ (hostOps0_5 : List (HloOp τ sig (Elt F))),
    Proc.devRef .tc main_arg0 ∉ op.writes ∧ Proc.devRef .tc main_arg1 ∉ op.writes :=
  List.forall_iff_forall_mem.mp (by
    simp only [hostOps0_5, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
set_option maxHeartbeats 8000000 in
theorem hostOps0_6_args : ∀ op ∈ (hostOps0_6 : List (HloOp τ sig (Elt F))),
    Proc.devRef .tc main_arg0 ∉ op.writes ∧ Proc.devRef .tc main_arg1 ∉ op.writes :=
  List.forall_iff_forall_mem.mp (by
    simp only [hostOps0_6, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps1_args : ∀ op ∈ (hostOps1 : List (HloOp τ sig (Elt F))),
    Proc.devRef .tc main_arg0 ∉ op.writes ∧ Proc.devRef .tc main_arg1 ∉ op.writes :=
  List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))

/-- The same over the seven stretches before the region laid end to end: an operation of the concatenation is an
    operation of one stretch. -/
theorem pre_args : ∀ op ∈ List.flatten [(hostOps0 : List (HloOp τ sig (Elt F))), hostOps0_1, hostOps0_2, hostOps0_3, hostOps0_4, hostOps0_5, hostOps0_6],
    Proc.devRef .tc main_arg0 ∉ op.writes ∧ Proc.devRef .tc main_arg1 ∉ op.writes := by
  intro op hop
  obtain ⟨ops, hops, hmem⟩ := List.mem_flatten.mp hop
  simp only [List.mem_cons, List.mem_nil_iff, or_false] at hops
  rcases hops with rfl | rfl | rfl | rfl | rfl | rfl | rfl
  · exact hostOps0_args op hmem
  · exact hostOps0_1_args op hmem
  · exact hostOps0_2_args op hmem
  · exact hostOps0_3_args op hmem
  · exact hostOps0_4_args op hmem
  · exact hostOps0_5_args op hmem
  · exact hostOps0_6_args op hmem

/-- And over the one stretch after it. -/
theorem post_args : ∀ op ∈ List.flatten [(hostOps1 : List (HloOp τ sig (Elt F)))],
    Proc.devRef .tc main_arg0 ∉ op.writes ∧ Proc.devRef .tc main_arg1 ∉ op.writes := by
  intro op hop
  obtain ⟨ops, hops, hmem⟩ := List.mem_flatten.mp hop
  simp only [List.mem_cons, List.mem_nil_iff, or_false] at hops
  rcases hops with rfl
  exact hostOps1_args op hmem

/-- The region finds the coordinate array as launched: a buffer no operation of a sequence writes keeps its contents
    through the sequence. -/
theorem V_main_arg0 (c : Dev nD) : V m c main_arg0 = m ((c : Thread nD τ).loc main_arg0) :=
  StableHlo.after_of_forall_not_mem (b := Proc.devRef .tc main_arg0) _ _ (fun op hop => (pre_args op hop).1)

/-- The region finds the volume as launched. -/
theorem V_main_arg1 (c : Dev nD) : V m c main_arg1 = m ((c : Thread nD τ).loc main_arg1) :=
  StableHlo.after_of_forall_not_mem (b := Proc.devRef .tc main_arg1) _ _ (fun op hop => (pre_args op hop).2)

/-- The program ends with the coordinate array as launched. The final contents are the two reshapes applied to the
    region's exit contents, which are the entry contents with the pipeline's three arrays replaced: the reshapes do not
    write the coordinate array, it is none of the three arrays, and the entry contents have it as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => (post_args op hop).1),
    Pipeline.withArrays_of_ne _ c (V0 m c) _ main_arg0 (by exact (by decide : ∀ w, Pipeline.arrRef spec0 w ≠ main_arg0))]
  exact V_main_arg0 m c

/-- The program ends with the volume as launched, for the same three reasons. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => (post_args op hop).2),
    Pipeline.withArrays_of_ne _ c (V0 m c) _ main_arg1 (by exact (by decide : ∀ w, Pipeline.arrRef spec0 w ≠ main_arg1))]
  exact V_main_arg1 m c

end Cert.Kernel.Hand

end
-- ==== Proof.FrameBodyBits.lean ====
/-
  The kernel body at one grid point, as a statement about memory. Given the corner block and the weight block held whole
  in the two input staging buffers and anything in the output staging buffer, the body runs to its end leaving the two
  inputs as they were and the output buffer holding the blend of the eleven loaded rows: it loads the three weight rows
  and the eight corner rows through one-row rectangles, computes entrywise, and stores the 2048 x 128 result over the
  whole output block, so that what the buffer held before is gone.
-/
import proofs.«161852_j89034672046121_2_alg».proof.Proof.BlockBits
import proofs.«161852_j89034672046121_2_alg».proof.Proof.Gen.Kernel.Launch
import proofs.«161852_j89034672046121_2_alg».proof.Proof.Gen.Kernel.Skeleton
import proofs.«161852_j89034672046121_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 2048 x 128 entries: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀

variable {F : FTy → Type} [FloatOps F]

local notation "𝕄" => MT nD τ sig Unit (Elt F) ℕ (UR sig nD τ) ℕ

/-- The body's one store is over the rectangle that starts at (0, 0) and has the block's own extents: every index of the
    block lies in it. -/
theorem cover0_2 (p0 : Vec F S2048x128 .f32) (y : S2048x128.Idx) :
    ∃ pc ∈ ([⟨ro, p0⟩] : List (View.Piece (Elt F) S2048x128 .f32)), y ∈ pc.1.set :=
  View.cover_of_tiled [⟨ro, p0⟩] S2048x128.size (by rfl) y

set_option maxHeartbeats 4000000 in
/-- The body on whole staging buffers: the corner buffer at x0, the weight buffer at x1, the output buffer at anything.
    It runs to the continuation with the two inputs unchanged and the output at out0_2 x0 x1. The printed function is its
    sequence of memory operations over named values; the first sixty statements are a function of their own, which
    performs the eleven loads and returns the loaded rows reshaped. Running the loads against the held contents names each
    loaded row as the read of x0 or x1 through its rectangle; the closing store writes the blend of those rows over the
    whole block, and a buffer written over a covering rectangle reads as the value written. -/
theorem sound_kernel (c : Dev nD) (E : Set ℕ) (i : grid0.Coords)
    (arg1 : Memref sig .tc .vmem S8x2048x128 .f32) (harg1 : arg1.IsWhole)
    (arg2 : Memref sig .tc .vmem S3x2048x128 .f32) (harg2 : arg2.IsWhole)
    (arg3 : Memref sig .tc .vmem S2048x128 .f32) (harg3 : arg3.IsWhole)
    (x0 : Vec F S8x2048x128 .f32) (x1 : Vec F S3x2048x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__blend_kernel i arg1 harg1 arg2 harg2 arg3 harg3) K := by
  simp only [cc0__blend_kernel_eq_skeleton]; unfold cc0__blend_kernel_skel
  simp only [k0_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Hand

end
-- ==== Proof.FrameBits.lean ====
/-
  The frame of the program: it terminates without fault and leaves its two argument arrays (the coordinates and the
  volume) as launched. The program is host operations, one pipelined region over a grid of 16 points, and two reshapes.
  The region's launch theorem asks for proof data (what each window's staging buffer holds after the body at each point)
  and for the body's triple at every point against those data; it gives the final memory: the pipeline's three arrays at
  what the data compute, every other unscoped buffer as the trailing reshapes leave the region-entry contents. The
  argument arrays are among the latter, and no host operation writes them.
-/
import proofs.«161852_j89034672046121_2_alg».proof.Proof.EntryBits
import proofs.«161852_j89034672046121_2_alg».proof.Proof.BlockBits
import proofs.«161852_j89034672046121_2_alg».proof.Proof.FrameDataBits
import proofs.«161852_j89034672046121_2_alg».proof.Proof.FrameHostBits
import proofs.«161852_j89034672046121_2_alg».proof.Proof.FrameBodyBits
import proofs.«161852_j89034672046121_2_alg».proof.Proof.Gen.Kernel.Launch
import proofs.«161852_j89034672046121_2_alg».proof.Proof.Gen.Kernel.Skeleton
import proofs.«161852_j89034672046121_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What an input window's staging buffer holds when the body is called -/

/-- The corner window's current staging buffer holds block t of the corner array at every point t, whatever it held
    before: the window is an input, never idle and never cut, so at a point where it is fetched the buffer is the fetched
    block, and at a point where it is not the block index has not moved and the body left the block in place. Stated for
    any proof data whose array is the region-entry one and whose body leaves the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weight window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the launch theorem's -/

/-- The launch theorem's final memory has every unscoped buffer that is no array of the pipeline at what the trailing
    reshapes leave of the region-entry contents. The two argument arrays are such buffers, and there they are as
    launched (W_main_arg0, W_main_arg1). So a run to the launch theorem's post is a run to the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body obligation, at a generic point -/

/-- What the body is called with at point t: the invariant, the core's debt, and each window's current staging buffer
    held whole at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same with each buffer at what the data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. The two input buffers hold their blocks (before0_0, before0_1) and the output buffer holds
    something, which is all the body's triple asks; the triple returns the inputs unchanged and the output at the
    body's store over the two blocks, which is what the data say. The invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation: its conjunction over the three windows written out is sound_body's. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which takes
-- unfolding plain definitions inside a metavariable's type
set_option backward.isDefEq.respectTransparency.types false in
/-- On the compiled mesh, for any values, from any memory with all counters at zero: every weakly fair execution of the
    program on the TensorCores terminates, and every final state has each array of the pipeline at what the launch
    theorem computes from the proof data, and every other unscoped buffer at what the two trailing reshapes leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame: the program terminates without fault and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.Entry.lean ====
/-
  The arrays as the kernel's one region finds them: each TensorCore buffer after the host operations that precede the
  region (the scaling of the coordinates, their integer parts and fractions, the three clamps, the two brick gathers, the
  packing of the eight corner rows and the three weight rows), read off the launch memory m.
-/
import proofs.«161852_j89034672046121_2_alg».proof.Proof.Gen.KernelIdeal.Launch

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Core c's TensorCore buffer contents when the region is entered, as a valuation: the launch memory after the seven
    stretches of host operations that precede the region. -/
abbrev V0 (c : Dev nD) : Valuation τ sig (Elt F) :=
  StableHlo.after (List.flatten [hostOps0, hostOps0_1, hostOps0_2, hostOps0_3, hostOps0_4, hostOps0_5, hostOps0_6]) (fun b => m (c, b))

/-- The same, read at one TensorCore reference. -/
abbrev V (c : Dev nD) (b : Ref sig .tc) : Buf (Elt F) ((c : Thread nD τ).loc b) := V0 m c (Proc.devRef .tc b)

end Cert.KernelIdeal.Hand

end
-- ==== Proof.Block.lean ====
/-
  What the kernel body stores at one grid point, as a pure function of the two input blocks it loads: the corner block
  x0 (eight rows of 2048 x 128 corner values) and the weight block x1 (three rows of 2048 x 128 weights). The body reads
  each of the eleven rows through a one-row rectangle, blends them entrywise, and stores the 2048 x 128 result over its
  whole output block.
-/
import proofs.«161852_j89034672046121_2_alg».proof.Proof.Gen.KernelIdeal.Skeleton
import Idealize.ShloMosaic.Lib.Pipeline.FrameBody

noncomputable section

namespace Cert.KernelIdeal.Hand

open Idealize.ShloMosaic Idealize.ShloMosaic.TcCoe Idealize.SL.Sem
open Cert.KernelIdeal Cert.KernelIdeal.Gen

variable {F : FTy → Type} [FloatOps F]

/-- Row j of the weight block, as a rectangle: rows 0, 1, 2 hold the weights along x, y, z. -/
abbrev rw0 : Rect S3x2048x128 := Rect.unit (s := S3x2048x128) ![0, 0, 0] S1x2048x128.size inb_S3x2048x128_S1x2048x128_0_0_0
abbrev rw1 : Rect S3x2048x128 := Rect.unit (s := S3x2048x128) ![1, 0, 0] S1x2048x128.size inb_S3x2048x128_S1x2048x128_1_0_0
abbrev rw2 : Rect S3x2048x128 := Rect.unit (s := S3x2048x128) ![2, 0, 0] S1x2048x128.size inb_S3x2048x128_S1x2048x128_2_0_0
/-- Row k of the corner block, as a rectangle: row k holds corner number k of every point of the block. -/
abbrev rc0 : Rect S8x2048x128 := Rect.unit (s := S8x2048x128) ![0, 0, 0] S1x2048x128.size inb_S8x2048x128_S1x2048x128_0_0_0
abbrev rc1 : Rect S8x2048x128 := Rect.unit (s := S8x2048x128) ![1, 0, 0] S1x2048x128.size inb_S8x2048x128_S1x2048x128_1_0_0
abbrev rc2 : Rect S8x2048x128 := Rect.unit (s := S8x2048x128) ![2, 0, 0] S1x2048x128.size inb_S8x2048x128_S1x2048x128_2_0_0
abbrev rc3 : Rect S8x2048x128 := Rect.unit (s := S8x2048x128) ![3, 0, 0] S1x2048x128.size inb_S8x2048x128_S1x2048x128_3_0_0
abbrev rc4 : Rect S8x2048x128 := Rect.unit (s := S8x2048x128) ![4, 0, 0] S1x2048x128.size inb_S8x2048x128_S1x2048x128_4_0_0
abbrev rc5 : Rect S8x2048x128 := Rect.unit (s := S8x2048x128) ![5, 0, 0] S1x2048x128.size inb_S8x2048x128_S1x2048x128_5_0_0
abbrev rc6 : Rect S8x2048x128 := Rect.unit (s := S8x2048x128) ![6, 0, 0] S1x2048x128.size inb_S8x2048x128_S1x2048x128_6_0_0
abbrev rc7 : Rect S8x2048x128 := Rect.unit (s := S8x2048x128) ![7, 0, 0] S1x2048x128.size inb_S8x2048x128_S1x2048x128_7_0_0
/-- The whole output block, as a rectangle. -/
abbrev ro : Rect S2048x128 := Rect.unit (s := S2048x128) ![0, 0] S2048x128.size inb_S2048x128_S2048x128_0_0

/-- The 2048 x 128 values the body stores, from the corner block and the weight block it loads. -/
def blockValue (x0 : Vec F S8x2048x128 .f32) (x1 : Vec F S3x2048x128 .f32) : FVec F S2048x128 .f32 :=
  k0_pay1 (k0_pay2 (View.ld x1 rw0)) (k0_pay3 (View.ld x1 rw1)) (k0_pay4 (View.ld x1 rw2))
    (k0_pay5 (View.ld x0 rc1)) (k0_pay6 (View.ld x0 rc2)) (k0_pay7 (View.ld x0 rc3)) (k0_pay8 (View.ld x0 rc4))
    (k0_pay9 (View.ld x0 rc5)) (k0_pay10 (View.ld x0 rc6)) (k0_pay11 (View.ld x0 rc7))
    (k0_pay12 (View.ld x1 rw0) (View.ld x0 rc0))

/-- The output window's staging buffer after the body: its one store, over the whole block. -/
def out0_2 (x0 : Vec F S8x2048x128 .f32) (x1 : Vec F S3x2048x128 .f32) : Vec F S2048x128 .f32 :=
  View.canon [⟨ro, blockValue x0 x1⟩]

end Cert.KernelIdeal.Hand

end
-- ==== Proof.FrameDataIdeal.lean ====
/-
  The proof data of the program's one pipeline. The region runs over a grid of 16 points; at point t it stages block t of
  the corner array (window 0: eight rows of 2048 x 128 values), block t of the weight array (window 1: three such rows),
  runs the body, and writes the body's 2048 x 128 result back as block t of the result array (window 2). The data say,
  for each window, what its staging buffer holds after the body at each point: an input window still holds its block of
  the array as the region found it, and the output window holds what the body stores, as a function of the two input
  blocks.
-/
import proofs.«161852_j89034672046121_2_alg».proof.Proof.Entry
import proofs.«161852_j89034672046121_2_alg».proof.Proof.Block
import proofs.«161852_j89034672046121_2_alg».proof.Proof.Gen.KernelIdeal.Launch
import proofs.«161852_j89034672046121_2_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Window w's block at grid point t: the entries of the window's array, as the region finds it (V), that lie in the
    rectangle the window stages at t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the pipeline on core c. The arrays are as the region finds them. After the body at point t the
    corner window holds its block, the weight window holds its block (the body only reads them), and the result window
    holds the body's one store computed from those two blocks. The invariant is the one of a body that owns nothing of
    its own; every share is whole; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The data's arrays are the region-entry contents: the definition projected, so that V (a fold over 162 host
    operations) is never unfolded to see it. -/
theorem A_eq (c : Dev nD) (w : Fin cfg0.W) : (dats m 0 c).A w = V m c (Pipeline.arrRef spec0 w) := by
  dsimp only [dats]

/-- What the body leaves in each window's staging buffer at point t: the definition's case at that window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Hand

end
-- ==== Proof.Spec.lean ====
/-
  The function both programs compute, stated once, index by index, over the extended reals.

  A query point n has three clamped base indices z0 n, y0 n, x0 n in [0, 511], their successors z1 n, y1 n, x1 n
  (min (· + 1) 511), and three fractional weights wt (n, 0), wt (n, 1), wt (n, 2) along z, y, x. The value at n is the
  trilinear blend of the eight volume entries at the corners (z, y, x), z in {z0, z1}, y in {y0, y1}, x in {x0, x1}:
  first along x with weight wx = wt (n, 2), then along y with wy = wt (n, 1), then along z with wz = wt (n, 0), each
  step a * (1 - w) + b * w.  The index vectors and the weights enter as arbitrary arrays: nothing here depends on how
  they were computed, only on how they are used.

  An index word is used the way jnp's indexing and StableHLO's gather use it: a negative word is first wrapped by the axis
  length 512 (v + 512 when v < 0, signed), then read as a signed integer and clamped into [0, 511].
-/
import Idealize.ShloMosaic.PureOps.Ideal
import Idealize.ShloMosaic.Lib.ValueIdx

noncomputable section

namespace Cert.Spec

open Idealize.ShloMosaic Idealize.ShloMosaic.ValueIdx

/-- The rank-0 shape: one entry. -/
abbrev Sc : Shape := ⟨0, ![]⟩
/-- The volume's shape. -/
abbrev SVol : Shape := ⟨3, ![512, 512, 512]⟩
/-- One word per query point. -/
abbrev SPts : Shape := ⟨1, ![4194304]⟩
/-- Three weights per query point. -/
abbrev SWt : Shape := ⟨2, ![4194304, 3]⟩
/-- The result: a column, one entry per query point. -/
abbrev SOut : Shape := ⟨2, ![4194304, 1]⟩

/-- jnp's wrap of a possibly negative index word by the axis length 512: v + 512 when v < 0 (signed), else v;
    stated with the vector operations themselves on a one-entry array, so that the same operations applied
    entrywise to any array give this at every entry by unfolding. -/
def wrap (v : BitVec 32) : BitVec 32 :=
  select (s := Sc) (cmpi .slt (fun _ => v) (fun _ => 0#32)) (addi (fun _ => v) (fun _ => 512#32)) (fun _ => v) ix0

/-- The position a gather reads along an axis of length 512: the word as a signed integer, clamped into [0, 511]. -/
def cl (v : BitVec 32) : Fin 512 := ⟨min v.toInt.toNat 511, by omega⟩

/-- The volume entry addressed by three index words. -/
def at3 (vol : SVol.Idx → EReal) (z y x : BitVec 32) : EReal :=
  vol (ix3 (cl (wrap z)) (cl (wrap y)) (cl (wrap x)))

/-- The float word of 1.0, read at the extended reals. -/
def one : EReal := Ideal.ofBits .f32 0x3F800000#32

/-- One linear interpolation step: a * (1 - w) + b * w. -/
def lerp (a b w : EReal) : EReal := a * (one - w) + b * w

/-- The trilinear blend of eight corner values c_zyx: along x, then y, then z. -/
def blend (c000 c001 c010 c011 c100 c101 c110 c111 wx wy wz : EReal) : EReal :=
  lerp (lerp (lerp c000 c001 wx) (lerp c010 c011 wx) wy) (lerp (lerp c100 c101 wx) (lerp c110 c111 wx) wy) wz

/-- Corner number k of point n, k = 4 * (z bit) + 2 * (y bit) + (x bit): the eight volume entries the blend reads,
    in the order 000, 001, 010, 011, 100, 101, 110, 111. -/
def corner (vol : SVol.Idx → EReal) (Z0 Y0 X0 Z1 Y1 X1 : SPts.Idx → BitVec 32) (k : Fin 8) (n : Fin 4194304) : EReal :=
  match k with
  | ⟨0, _⟩ => at3 vol (Z0 (ix1 n)) (Y0 (ix1 n)) (X0 (ix1 n))
  | ⟨1, _⟩ => at3 vol (Z0 (ix1 n)) (Y0 (ix1 n)) (X1 (ix1 n))
  | ⟨2, _⟩ => at3 vol (Z0 (ix1 n)) (Y1 (ix1 n)) (X0 (ix1 n))
  | ⟨3, _⟩ => at3 vol (Z0 (ix1 n)) (Y1 (ix1 n)) (X1 (ix1 n))
  | ⟨4, _⟩ => at3 vol (Z1 (ix1 n)) (Y0 (ix1 n)) (X0 (ix1 n))
  | ⟨5, _⟩ => at3 vol (Z1 (ix1 n)) (Y0 (ix1 n)) (X1 (ix1 n))
  | ⟨6, _⟩ => at3 vol (Z1 (ix1 n)) (Y1 (ix1 n)) (X0 (ix1 n))
  | ⟨7, _⟩ => at3 vol (Z1 (ix1 n)) (Y1 (ix1 n)) (X1 (ix1 n))

/-- The value at query point n. -/
def point (vol : SVol.Idx → EReal) (Z0 Y0 X0 Z1 Y1 X1 : SPts.Idx → BitVec 32) (wt : SWt.Idx → EReal)
    (n : Fin 4194304) : EReal :=
  blend (corner vol Z0 Y0 X0 Z1 Y1 X1 0 n) (corner vol Z0 Y0 X0 Z1 Y1 X1 1 n) (corner vol Z0 Y0 X0 Z1 Y1 X1 2 n)
    (corner vol Z0 Y0 X0 Z1 Y1 X1 3 n) (corner vol Z0 Y0 X0 Z1 Y1 X1 4 n) (corner vol Z0 Y0 X0 Z1 Y1 X1 5 n)
    (corner vol Z0 Y0 X0 Z1 Y1 X1 6 n) (corner vol Z0 Y0 X0 Z1 Y1 X1 7 n)
    (wt (ix2 n (2 : Fin 3))) (wt (ix2 n (1 : Fin 3))) (wt (ix2 n (0 : Fin 3)))

/-- THE RESULT, as one function of the volume, the six index vectors and the weights: entry (n, 0) is the value at n. -/
def G (vol : SVol.Idx → EReal) (Z0 Y0 X0 Z1 Y1 X1 : SPts.Idx → BitVec 32) (wt : SWt.Idx → EReal) : SOut.Idx → EReal :=
  fun i => point vol Z0 Y0 X0 Z1 Y1 X1 wt (i 0)

end Cert.Spec

end
-- ==== Proof.BlockValue.lean ====
/-
  The block the body stores, read at one entry (r, l): the trilinear blend of the eight corner entries (k, r, l) of the
  corner block and the three weight entries (j, r, l) of the weight block.  Each of the eleven rows is loaded through a
  one-row rectangle and its unit row axis dropped, which at (r, l) reads entry (k, r, l); everything after that is
  entrywise, so the block's value at (r, l) is the blend of those eleven numbers.
-/
import proofs.«161852_j89034672046121_2_alg».proof.Proof.Block
import proofs.«161852_j89034672046121_2_alg».proof.Proof.Spec
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

/-- Row k of a block of K rows of 2048 x 128, loaded through its one-row rectangle and its unit row axis dropped, read at
    (r, l): the block's entry (k, r, l). -/
theorem row_apply {K : ℕ} (k : ℕ) (hk : k < K) (x : Vec Ideal (⟨3, ![K, 2048, 128]⟩ : Shape) .f32)
    (inb : ∀ a, (![k, 0, 0] : Fin 3 → ℕ) a + S1x2048x128.size a ≤ (⟨3, ![K, 2048, 128]⟩ : Shape).size a)
    (h : S1x2048x128.ShapeCasts S2048x128) (r : Fin 2048) (l : Fin 128) :
    shapeCast S2048x128 (View.ld x (Rect.unit (s := ⟨3, ![K, 2048, 128]⟩) ![k, 0, 0] S1x2048x128.size inb)) h (ix2 r l)
      = x (ix3 ⟨k, hk⟩ r l) := by
  refine (shapeCast_1ab_ab_apply _ h r l).trans ?_
  show x ((Rect.unit (s := ⟨3, ![K, 2048, 128]⟩) ![k, 0, 0] S1x2048x128.size inb).emb (ix3 0 r l)) = _
  congr 1
  funext a
  refine Fin.ext ?_
  match a with
  | ⟨0, _⟩ => show k + 1 * 0 = k; omega
  | ⟨1, _⟩ => show 0 + 1 * r.val = r.val; omega
  | ⟨2, _⟩ => show 0 + 1 * l.val = l.val; omega

/-- THE BLOCK AT AN ENTRY: what the body stores at (r, l) is the trilinear blend of the corner block's eight entries
    (k, r, l) with the weight block's entries (0, r, l), (1, r, l), (2, r, l) as the weights along x, y, z. The body's
    arithmetic is entrywise and spelt exactly as the blend is (a * (1 - w) + b * w at each of the seven steps), so
    after the eleven row loads are read at (r, l) the two sides are the same expression. -/
theorem blockValue_apply (x0 : Vec Ideal S8x2048x128 .f32) (x1 : Vec Ideal S3x2048x128 .f32) (r : Fin 2048) (l : Fin 128) :
    blockValue (F := Ideal) x0 x1 (ix2 r l)
      = Cert.Spec.blend (x0 (ix3 (⟨0, by decide⟩ : Fin 8) r l)) (x0 (ix3 (⟨1, by decide⟩ : Fin 8) r l)) (x0 (ix3 (⟨2, by decide⟩ : Fin 8) r l)) (x0 (ix3 (⟨3, by decide⟩ : Fin 8) r l))
          (x0 (ix3 (⟨4, by decide⟩ : Fin 8) r l)) (x0 (ix3 (⟨5, by decide⟩ : Fin 8) r l)) (x0 (ix3 (⟨6, by decide⟩ : Fin 8) r l)) (x0 (ix3 (⟨7, by decide⟩ : Fin 8) r l))
          (x1 (ix3 (⟨0, by decide⟩ : Fin 3) r l)) (x1 (ix3 (⟨1, by decide⟩ : Fin 3) r l)) (x1 (ix3 (⟨2, by decide⟩ : Fin 3) r l)) := by
  calc blockValue (F := Ideal) x0 x1 (ix2 r l)
      = Cert.Spec.blend (shapeCast S2048x128 (View.ld x0 rc0) shapeCasts_S1x2048x128_S2048x128 (ix2 r l)) (shapeCast S2048x128 (View.ld x0 rc1) shapeCasts_S1x2048x128_S2048x128 (ix2 r l)) (shapeCast S2048x128 (View.ld x0 rc2) shapeCasts_S1x2048x128_S2048x128 (ix2 r l)) (shapeCast S2048x128 (View.ld x0 rc3) shapeCasts_S1x2048x128_S2048x128 (ix2 r l))
          (shapeCast S2048x128 (View.ld x0 rc4) shapeCasts_S1x2048x128_S2048x128 (ix2 r l)) (shapeCast S2048x128 (View.ld x0 rc5) shapeCasts_S1x2048x128_S2048x128 (ix2 r l)) (shapeCast S2048x128 (View.ld x0 rc6) shapeCasts_S1x2048x128_S2048x128 (ix2 r l)) (shapeCast S2048x128 (View.ld x0 rc7) shapeCasts_S1x2048x128_S2048x128 (ix2 r l))
          (shapeCast S2048x128 (View.ld x1 rw0) shapeCasts_S1x2048x128_S2048x128 (ix2 r l)) (shapeCast S2048x128 (View.ld x1 rw1) shapeCasts_S1x2048x128_S2048x128 (ix2 r l)) (shapeCast S2048x128 (View.ld x1 rw2) shapeCasts_S1x2048x128_S2048x128 (ix2 r l)) := rfl
    _ = _ := by
      rw [row_apply (K := 8) 0 (by decide) x0 inb_S8x2048x128_S1x2048x128_0_0_0 shapeCasts_S1x2048x128_S2048x128 r l,
        row_apply (K := 8) 1 (by decide) x0 inb_S8x2048x128_S1x2048x128_1_0_0 shapeCasts_S1x2048x128_S2048x128 r l,
        row_apply (K := 8) 2 (by decide) x0 inb_S8x2048x128_S1x2048x128_2_0_0 shapeCasts_S1x2048x128_S2048x128 r l,
        row_apply (K := 8) 3 (by decide) x0 inb_S8x2048x128_S1x2048x128_3_0_0 shapeCasts_S1x2048x128_S2048x128 r l,
        row_apply (K := 8) 4 (by decide) x0 inb_S8x2048x128_S1x2048x128_4_0_0 shapeCasts_S1x2048x128_S2048x128 r l,
        row_apply (K := 8) 5 (by decide) x0 inb_S8x2048x128_S1x2048x128_5_0_0 shapeCasts_S1x2048x128_S2048x128 r l,
        row_apply (K := 8) 6 (by decide) x0 inb_S8x2048x128_S1x2048x128_6_0_0 shapeCasts_S1x2048x128_S2048x128 r l,
        row_apply (K := 8) 7 (by decide) x0 inb_S8x2048x128_S1x2048x128_7_0_0 shapeCasts_S1x2048x128_S2048x128 r l,
        row_apply (K := 3) 0 (by decide) x1 inb_S3x2048x128_S1x2048x128_0_0_0 shapeCasts_S1x2048x128_S2048x128 r l,
        row_apply (K := 3) 1 (by decide) x1 inb_S3x2048x128_S1x2048x128_1_0_0 shapeCasts_S1x2048x128_S2048x128 r l,
        row_apply (K := 3) 2 (by decide) x1 inb_S3x2048x128_S1x2048x128_2_0_0 shapeCasts_S1x2048x128_S2048x128 r l]

end Cert.KernelIdeal.Hand

end
-- ==== Proof.ArrayValue.lean ====
/-
  From blocks to the array.  The region's output array [32768, 128] is written block by block: grid point t stores the
  2048 x 128 block of rows [2048 t, 2048 t + 2048), computed from the corner array's block (all eight corner rows, the
  same 2048 rows, all lanes) and the weight array's block (all three weight rows, the same rows and lanes).  Entry
  (R, l) of the output therefore depends only on the entries (k, R, l) of the two packed arrays: it is their trilinear
  blend.  The sixteen blocks tile the array, so after the last point the whole array is that entrywise blend.
-/
import proofs.«161852_j89034672046121_2_alg».proof.Proof.FrameDataIdeal
import proofs.«161852_j89034672046121_2_alg».proof.Proof.BlockValue
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The entrywise blend of the packed corner array A0 [8, 32768, 128] and the packed weight array A1 [3, 32768, 128]:
    at (R, l), the eight corners A0 (k, R, l) blended with the weights A1 (0, R, l), A1 (1, R, l), A1 (2, R, l) along
    x, y, z. -/
def arrValue (A0 : Vec Ideal S8x32768x128 .f32) (A1 : Vec Ideal S3x32768x128 .f32) : Vec Ideal S32768x128 .f32 :=
  fun i => Cert.Spec.blend (A0 (ix3 (⟨0, by decide⟩ : Fin 8) (i 0) (i 1))) (A0 (ix3 (⟨1, by decide⟩ : Fin 8) (i 0) (i 1))) (A0 (ix3 (⟨2, by decide⟩ : Fin 8) (i 0) (i 1)))
    (A0 (ix3 (⟨3, by decide⟩ : Fin 8) (i 0) (i 1))) (A0 (ix3 (⟨4, by decide⟩ : Fin 8) (i 0) (i 1))) (A0 (ix3 (⟨5, by decide⟩ : Fin 8) (i 0) (i 1)))
    (A0 (ix3 (⟨6, by decide⟩ : Fin 8) (i 0) (i 1))) (A0 (ix3 (⟨7, by decide⟩ : Fin 8) (i 0) (i 1)))
    (A1 (ix3 (⟨0, by decide⟩ : Fin 3) (i 0) (i 1))) (A1 (ix3 (⟨1, by decide⟩ : Fin 3) (i 0) (i 1))) (A1 (ix3 (⟨2, by decide⟩ : Fin 3) (i 0) (i 1)))

/-- ONE ENTRY OF ONE BLOCK.  If the corner block x0 and the weight block x1 are the rows [2048 T, 2048 T + 2048) of the
    packed arrays A0 and A1 (all leading rows, all lanes), then what the body stores at the block's entry y is the
    entrywise blend of A0 and A1 at the array entry i that y lands on (row 2048 T + y 0, lane y 1). -/
theorem block_entry (x0 : Vec Ideal S8x2048x128 .f32) (x1 : Vec Ideal S3x2048x128 .f32)
    (A0 : Vec Ideal S8x32768x128 .f32) (A1 : Vec Ideal S3x32768x128 .f32) (T : ℕ)
    (h0 : ∀ (k : Fin 8) (r : Fin 2048) (l : Fin 128) (R : Fin 32768) (L : Fin 128), R.val = T * 2048 + r.val → L.val = l.val →
      x0 (ix3 k r l) = A0 (ix3 k R L))
    (h1 : ∀ (j : Fin 3) (r : Fin 2048) (l : Fin 128) (R : Fin 32768) (L : Fin 128), R.val = T * 2048 + r.val → L.val = l.val →
      x1 (ix3 j r l) = A1 (ix3 j R L))
    (y : S2048x128.Idx) (i : S32768x128.Idx) (hi0 : (i 0).val = T * 2048 + (y 0).val) (hi1 : (i 1).val = (y 1).val) :
    blockValue (F := Ideal) x0 x1 y = arrValue A0 A1 i := by
  obtain ⟨r, l, rfl⟩ : ∃ (r : Fin 2048) (l : Fin 128), y = ix2 r l := ⟨y 0, y 1, eq_ix2 y⟩
  rw [blockValue_apply]
  unfold arrValue
  rw [h0 (⟨0, by decide⟩ : Fin 8) r l (i 0) (i 1) hi0 hi1, h0 (⟨1, by decide⟩ : Fin 8) r l (i 0) (i 1) hi0 hi1, h0 (⟨2, by decide⟩ : Fin 8) r l (i 0) (i 1) hi0 hi1, h0 (⟨3, by decide⟩ : Fin 8) r l (i 0) (i 1) hi0 hi1, h0 (⟨4, by decide⟩ : Fin 8) r l (i 0) (i 1) hi0 hi1, h0 (⟨5, by decide⟩ : Fin 8) r l (i 0) (i 1) hi0 hi1, h0 (⟨6, by decide⟩ : Fin 8) r l (i 0) (i 1) hi0 hi1, h0 (⟨7, by decide⟩ : Fin 8) r l (i 0) (i 1) hi0 hi1,
    h1 (⟨0, by decide⟩ : Fin 3) r l (i 0) (i 1) hi0 hi1, h1 (⟨1, by decide⟩ : Fin 3) r l (i 0) (i 1) hi0 hi1, h1 (⟨2, by decide⟩ : Fin 3) r l (i 0) (i 1) hi0 hi1]

/-- The index maps over the sixteen grid points: the corner and weight windows take all their leading rows and all
    lanes, and block t of the 32768 rows; the output window takes block t of its rows and all lanes. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0 :=
  (by decide +kernel : ∀ t : Fin grid0.N, _)

/-- The zero offsets of the whole-block store, however spelt. -/
theorem hz : (![0, 0] : Fin 2 → Nat) = fun _ => 0 := funext fun a => by fin_cases a <;> rfl

/-- Where entry (k, r, l) of the corner window's block at point t sits in the corner array: (k, 2048 t + r, l). -/
theorem blk0_emb (t : Fin cfg0.N) (k : Fin 8) (r : Fin 2048) (l : Fin 128) (R : Fin 32768) (L : Fin 128)
    (hR : R.val = t.val * 2048 + r.val) (hL : L.val = l.val) :
    ((cfg0.win 0).blk t).view.emb (ix3 k r l) = ix3 k R L := by
  obtain ⟨e00, e01, e02, -, -, -, -, -⟩ := idx_facts t
  funext a; apply Fin.ext
  match a with
  | ⟨0, _⟩ => show win0_0.index t (0 : Fin 3) * 8 + 1 * k.val = k.val; omega
  | ⟨1, _⟩ => show win0_0.index t (1 : Fin 3) * 2048 + 1 * r.val = R.val; omega
  | ⟨2, _⟩ => show win0_0.index t (2 : Fin 3) * 128 + 1 * l.val = L.val; omega

/-- Where entry (j, r, l) of the weight window's block at point t sits in the weight array: (j, 2048 t + r, l). -/
theorem blk1_emb (t : Fin cfg0.N) (k : Fin 3) (r : Fin 2048) (l : Fin 128) (R : Fin 32768) (L : Fin 128)
    (hR : R.val = t.val * 2048 + r.val) (hL : L.val = l.val) :
    ((cfg0.win 1).blk t).view.emb (ix3 k r l) = ix3 k R L := by
  obtain ⟨-, -, -, e10, e11, e12, -, -⟩ := idx_facts t
  funext a; apply Fin.ext
  match a with
  | ⟨0, _⟩ => show win0_1.index t (0 : Fin 3) * 3 + 1 * k.val = k.val; omega
  | ⟨1, _⟩ => show win0_1.index t (1 : Fin 3) * 2048 + 1 * r.val = R.val; omega
  | ⟨2, _⟩ => show win0_1.index t (2 : Fin 3) * 128 + 1 * l.val = L.val; omega

/-- Where entry y of the output window's block at point t sits in the output array: row 2048 t + y 0, lane y 1. -/
theorem blk2_emb (t : Fin cfg0.N) (y : S2048x128.Idx) :
    ((((cfg0.win 2).blk t).view.emb y) 0).val = t.val * 2048 + (y 0).val
    ∧ ((((cfg0.win 2).blk t).view.emb y) 1).val = (y 1).val := by
  obtain ⟨-, -, -, -, -, -, e20, e21⟩ := idx_facts t
  constructor
  · show win0_2.index t (0 : Fin 2) * 2048 + 1 * (y 0).val = t.val * 2048 + (y 0).val; omega
  · show win0_2.index t (1 : Fin 2) * 128 + 1 * (y 1).val = (y 1).val; omega

/-- The corner window's block at point t of ANY contents A of its array, read at (k, r, l), is A at (k, 2048 t + r, l). -/
theorem read_blk0 (c : Dev nD) (A : Buf (Elt Ideal) ((c : Thread nD τ).loc (Pipeline.arrRef spec0 0)))
    (t : Fin cfg0.N) (k : Fin 8) (r : Fin 2048) (l : Fin 128) (R : Fin 32768) (L : Fin 128)
    (hR : R.val = t.val * 2048 + r.val) (hL : L.val = l.val) :
    ((cfg0.win 0).blk t).view.read (Elt Ideal) A (ix3 k r l) = A (ix3 k R L) := by
  show A (((cfg0.win 0).blk t).view.emb (ix3 k r l)) = A (ix3 k R L)
  rw [blk0_emb t k r l R L hR hL]

/-- The weight window's block at point t of ANY contents A of its array, read at (j, r, l), is A at (j, 2048 t + r, l). -/
theorem read_blk1 (c : Dev nD) (A : Buf (Elt Ideal) ((c : Thread nD τ).loc (Pipeline.arrRef spec0 1)))
    (t : Fin cfg0.N) (k : Fin 3) (r : Fin 2048) (l : Fin 128) (R : Fin 32768) (L : Fin 128)
    (hR : R.val = t.val * 2048 + r.val) (hL : L.val = l.val) :
    ((cfg0.win 1).blk t).view.read (Elt Ideal) A (ix3 k r l) = A (ix3 k R L) := by
  show A (((cfg0.win 1).blk t).view.emb (ix3 k r l)) = A (ix3 k R L)
  rw [blk1_emb t k r l R L hR hL]

/-- WHAT POINT t WRITES BACK is block t of the entrywise blend of the two packed arrays as the region finds them. -/
theorem flushed_eq (c : Dev nD) (t : Fin cfg0.N) :
    (dats m 0 c).flushed 2 t
      = ((cfg0.win 2).blk t).view.read (Elt Ideal)
          (arrValue (V m c (Pipeline.arrRef spec0 0)) (V m c (Pipeline.arrRef spec0 1))) := by
  show (cfg0.win 2).cut (grid0.coords t) ((dats m 0 c).after 2 t) = _
  rw [after0_2]
  unfold out0_2 iblk
  rw [View.canon_unit_zero hz]
  generalize V m c (Pipeline.arrRef spec0 0) = A0
  generalize V m c (Pipeline.arrRef spec0 1) = A1
  funext j
  exact block_entry _ _ A0 A1 t.val (read_blk0 c A0 t) (read_blk1 c A1 t) j (((cfg0.win 2).blk t).view.emb j)
    (blk2_emb t j).1 (blk2_emb t j).2

/-- An entry of the output array is in point t's block iff each coordinate is in the block's range on its axis. -/
theorem mem_blk (t : Fin cfg0.N) (i : S32768x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v122).slice (win0_2.rect t)).set ↔ _
  rw [View.set_slice_whole, Rect.mem_set_unit]
  exact Iff.rfl

/-- THE BLOCKS TILE THE ARRAY: row R lies in the block of point R / 2048. -/
theorem cover (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  have hN : (i 0).val / 2048 < grid0.N := by rw [N_0]; omega
  refine ⟨⟨(i 0).val / 2048, hN⟩, flush0_2 _, ?_⟩
  obtain ⟨-, -, -, -, -, -, e20, e21⟩ := idx_facts ⟨(i 0).val / 2048, hN⟩
  rw [mem_blk]
  intro a
  match a with
  | ⟨0, _⟩ =>
    show win0_2.index ⟨(i 0).val / 2048, hN⟩ (0 : Fin 2) * 2048 ≤ (i 0).val ∧ (i 0).val < win0_2.index ⟨(i 0).val / 2048, hN⟩ (0 : Fin 2) * 2048 + 2048
    rw [e20]; show (i 0).val / 2048 * 2048 ≤ (i 0).val ∧ (i 0).val < (i 0).val / 2048 * 2048 + 2048; omega
  | ⟨1, _⟩ =>
    show win0_2.index ⟨(i 0).val / 2048, hN⟩ (1 : Fin 2) * 128 ≤ (i 1).val ∧ (i 1).val < win0_2.index ⟨(i 0).val / 2048, hN⟩ (1 : Fin 2) * 128 + 128
    rw [e21]; omega

/-- THE OUTPUT ARRAY AFTER THE REGION: the entrywise blend of the packed corner and weight arrays. -/
theorem final (c : Dev nD) :
    (dats m 0 c).arrAt 2 cfg0.N = arrValue (V m c (Pipeline.arrRef spec0 0)) (V m c (Pipeline.arrRef spec0 1)) :=
  (dats m 0 c).arrAt_eq_of_cover 2 _ (fun t _ => flushed_eq m c t) cover

end Cert.KernelIdeal.Hand

end
-- ==== Proof.FrameHostIdeal.lean ====
/-
  The program around its one region, on the host side. The program is seven stretches of host operations (the scaling of
  the coordinates, their integer parts and fractions, the three clamps, the gathers and the packing of the corner and
  weight arrays), then the region, then two reshapes of the region's result. Here: none of these operations allocates a
  buffer; the program reduces to the region followed by the two reshapes, entered at the contents the seven stretches
  leave; the two reshapes touch only arrays of the region and buffers that bypass it, and write no array of the region;
  and neither argument array is ever written by a host operation, before the region or after it, so each is found, and
  left, as launched.
-/
import proofs.«161852_j89034672046121_2_alg».proof.Proof.Entry
import proofs.«161852_j89034672046121_2_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

-- the longest stretch is a literal list of 125 operations: a conjunction over it nests that deep
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## No host operation allocates -/

/-- Every host operation of the program computes into a buffer that exists from the launch on: none allocates. Stretch
    by stretch, each operation's set of fresh buffers is empty by its definition. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The program around the region -/

/-- The program is the seven stretches, the region, the two reshapes, in this order; every operation of the seven
    stretches touches TensorCore buffers only and allocates nothing. So, holding the unscoped buffers at the launch
    contents, the program reduces to the region continued by the two reshapes, holding those buffers at V: the launch
    contents after the seven stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (And.intro hostOps0_sub (And.intro hostOps0_1_sub (And.intro hostOps0_2_sub (And.intro hostOps0_3_sub
      (And.intro hostOps0_4_sub (And.intro hostOps0_5_sub hostOps0_6_sub))))))
    (And.intro hostOps0_fresh (And.intro hostOps0_1_fresh (And.intro hostOps0_2_fresh (And.intro hostOps0_3_fresh
      (And.intro hostOps0_4_fresh (And.intro hostOps0_5_fresh hostOps0_6_fresh))))))
    main_chain

/-! ## The two reshapes after the region -/

/-- The reshapes touch only arrays of the pipeline and buffers that bypass the region: each touches unscoped TensorCore
    buffers only, and with nothing prefetched every such buffer is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And they write no array of the pipeline: the first writes the flat copy of the result, the second the column copy,
    and neither of these two buffers is the corner array, the weight array or the result array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-! ## The argument arrays are never written -/

/-- Every host operation writes exactly one buffer, its result, and no result buffer is an argument of the program. So,
    stretch by stretch, no operation writes the coordinate array (argument 0) or the volume (argument 1): the
    conjunction over the stretch of the inequalities between buffer names, each decided. -/
theorem hostOps0_args : ∀ op ∈ (hostOps0 : List (HloOp τ sig (Elt F))),
    Proc.devRef .tc main_arg0 ∉ op.writes ∧ Proc.devRef .tc main_arg1 ∉ op.writes :=
  List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_1_args : ∀ op ∈ (hostOps0_1 : List (HloOp τ sig (Elt F))),
    Proc.devRef .tc main_arg0 ∉ op.writes ∧ Proc.devRef .tc main_arg1 ∉ op.writes :=
  List.forall_iff_forall_mem.mp (by
    simp only [hostOps0_1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_2_args : ∀ op ∈ (hostOps0_2 : List (HloOp τ sig (Elt F))),
    Proc.devRef .tc main_arg0 ∉ op.writes ∧ Proc.devRef .tc main_arg1 ∉ op.writes :=
  List.forall_iff_forall_mem.mp (by
    simp only [hostOps0_2, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_3_args : ∀ op ∈ (hostOps0_3 : List (HloOp τ sig (Elt F))),
    Proc.devRef .tc main_arg0 ∉ op.writes ∧ Proc.devRef .tc main_arg1 ∉ op.writes :=
  List.forall_iff_forall_mem.mp (by
    simp only [hostOps0_3, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_4_args : ∀ op ∈ (hostOps0_4 : List (HloOp τ sig (Elt F))),
    Proc.devRef .tc main_arg0 ∉ op.writes ∧ Proc.devRef .tc main_arg1 ∉ op.writes :=
  List.forall_iff_forall_mem.mp (by
    simp only [hostOps0_4, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps0_5_args : ∀ op ∈ (hostOps0_5 : List (HloOp τ sig (Elt F))),
    Proc.devRef .tc main_arg0 ∉ op.writes ∧ Proc.devRef .tc main_arg1 ∉ op.writes :=
  List.forall_iff_forall_mem.mp (by
    simp only [hostOps0_5, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
set_option maxHeartbeats 8000000 in
theorem hostOps0_6_args : ∀ op ∈ (hostOps0_6 : List (HloOp τ sig (Elt F))),
    Proc.devRef .tc main_arg0 ∉ op.writes ∧ Proc.devRef .tc main_arg1 ∉ op.writes :=
  List.forall_iff_forall_mem.mp (by
    simp only [hostOps0_6, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
theorem hostOps1_args : ∀ op ∈ (hostOps1 : List (HloOp τ sig (Elt F))),
    Proc.devRef .tc main_arg0 ∉ op.writes ∧ Proc.devRef .tc main_arg1 ∉ op.writes :=
  List.forall_iff_forall_mem.mp (by
    simp only [hostOps1, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))

/-- The same over the seven stretches before the region laid end to end: an operation of the concatenation is an
    operation of one stretch. -/
theorem pre_args : ∀ op ∈ List.flatten [(hostOps0 : List (HloOp τ sig (Elt F))), hostOps0_1, hostOps0_2, hostOps0_3, hostOps0_4, hostOps0_5, hostOps0_6],
    Proc.devRef .tc main_arg0 ∉ op.writes ∧ Proc.devRef .tc main_arg1 ∉ op.writes := by
  intro op hop
  obtain ⟨ops, hops, hmem⟩ := List.mem_flatten.mp hop
  simp only [List.mem_cons, List.mem_nil_iff, or_false] at hops
  rcases hops with rfl | rfl | rfl | rfl | rfl | rfl | rfl
  · exact hostOps0_args op hmem
  · exact hostOps0_1_args op hmem
  · exact hostOps0_2_args op hmem
  · exact hostOps0_3_args op hmem
  · exact hostOps0_4_args op hmem
  · exact hostOps0_5_args op hmem
  · exact hostOps0_6_args op hmem

/-- And over the one stretch after it. -/
theorem post_args : ∀ op ∈ List.flatten [(hostOps1 : List (HloOp τ sig (Elt F)))],
    Proc.devRef .tc main_arg0 ∉ op.writes ∧ Proc.devRef .tc main_arg1 ∉ op.writes := by
  intro op hop
  obtain ⟨ops, hops, hmem⟩ := List.mem_flatten.mp hop
  simp only [List.mem_cons, List.mem_nil_iff, or_false] at hops
  rcases hops with rfl
  exact hostOps1_args op hmem

/-- The region finds the coordinate array as launched: a buffer no operation of a sequence writes keeps its contents
    through the sequence. -/
theorem V_main_arg0 (c : Dev nD) : V m c main_arg0 = m ((c : Thread nD τ).loc main_arg0) :=
  StableHlo.after_of_forall_not_mem (b := Proc.devRef .tc main_arg0) _ _ (fun op hop => (pre_args op hop).1)

/-- The region finds the volume as launched. -/
theorem V_main_arg1 (c : Dev nD) : V m c main_arg1 = m ((c : Thread nD τ).loc main_arg1) :=
  StableHlo.after_of_forall_not_mem (b := Proc.devRef .tc main_arg1) _ _ (fun op hop => (pre_args op hop).2)

/-- The program ends with the coordinate array as launched. The final contents are the two reshapes applied to the
    region's exit contents, which are the entry contents with the pipeline's three arrays replaced: the reshapes do not
    write the coordinate array, it is none of the three arrays, and the entry contents have it as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => (post_args op hop).1),
    Pipeline.withArrays_of_ne _ c (V0 m c) _ main_arg0 (by exact (by decide : ∀ w, Pipeline.arrRef spec0 w ≠ main_arg0))]
  exact V_main_arg0 m c

/-- The program ends with the volume as launched, for the same three reasons. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => (post_args op hop).2),
    Pipeline.withArrays_of_ne _ c (V0 m c) _ main_arg1 (by exact (by decide : ∀ w, Pipeline.arrRef spec0 w ≠ main_arg1))]
  exact V_main_arg1 m c

end Cert.KernelIdeal.Hand

end
-- ==== Proof.FrameBodyIdeal.lean ====
/-
  The kernel body at one grid point, as a statement about memory. Given the corner block and the weight block held whole
  in the two input staging buffers and anything in the output staging buffer, the body runs to its end leaving the two
  inputs as they were and the output buffer holding the blend of the eleven loaded rows: it loads the three weight rows
  and the eight corner rows through one-row rectangles, computes entrywise, and stores the 2048 x 128 result over the
  whole output block, so that what the buffer held before is gone.
-/
import proofs.«161852_j89034672046121_2_alg».proof.Proof.Block
import proofs.«161852_j89034672046121_2_alg».proof.Proof.Gen.KernelIdeal.Launch
import proofs.«161852_j89034672046121_2_alg».proof.Proof.Gen.KernelIdeal.Skeleton
import proofs.«161852_j89034672046121_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 2048 x 128 entries: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀

variable {F : FTy → Type} [FloatOps F]

local notation "𝕄" => MT nD τ sig Unit (Elt F) ℕ (UR sig nD τ) ℕ

/-- The body's one store is over the rectangle that starts at (0, 0) and has the block's own extents: every index of the
    block lies in it. -/
theorem cover0_2 (p0 : Vec F S2048x128 .f32) (y : S2048x128.Idx) :
    ∃ pc ∈ ([⟨ro, p0⟩] : List (View.Piece (Elt F) S2048x128 .f32)), y ∈ pc.1.set :=
  View.cover_of_tiled [⟨ro, p0⟩] S2048x128.size (by rfl) y

set_option maxHeartbeats 4000000 in
/-- The body on whole staging buffers: the corner buffer at x0, the weight buffer at x1, the output buffer at anything.
    It runs to the continuation with the two inputs unchanged and the output at out0_2 x0 x1. The printed function is its
    sequence of memory operations over named values; the first sixty statements are a function of their own, which
    performs the eleven loads and returns the loaded rows reshaped. Running the loads against the held contents names each
    loaded row as the read of x0 or x1 through its rectangle; the closing store writes the blend of those rows over the
    whole block, and a buffer written over a covering rectangle reads as the value written. -/
theorem sound_kernel (c : Dev nD) (E : Set ℕ) (i : grid0.Coords)
    (arg1 : Memref sig .tc .vmem S8x2048x128 .f32) (harg1 : arg1.IsWhole)
    (arg2 : Memref sig .tc .vmem S3x2048x128 .f32) (harg2 : arg2.IsWhole)
    (arg3 : Memref sig .tc .vmem S2048x128 .f32) (harg3 : arg3.IsWhole)
    (x0 : Vec F S8x2048x128 .f32) (x1 : Vec F S3x2048x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__blend_kernel i arg1 harg1 arg2 harg2 arg3 harg3) K := by
  simp only [cc0__blend_kernel_eq_skeleton]; unfold cc0__blend_kernel_skel
  simp only [k0_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Hand

end
-- ==== Proof.FrameIdeal.lean ====
/-
  The frame of the program: it terminates without fault and leaves its two argument arrays (the coordinates and the
  volume) as launched. The program is host operations, one pipelined region over a grid of 16 points, and two reshapes.
  The region's launch theorem asks for proof data (what each window's staging buffer holds after the body at each point)
  and for the body's triple at every point against those data; it gives the final memory: the pipeline's three arrays at
  what the data compute, every other unscoped buffer as the trailing reshapes leave the region-entry contents. The
  argument arrays are among the latter, and no host operation writes them.
-/
import proofs.«161852_j89034672046121_2_alg».proof.Proof.Entry
import proofs.«161852_j89034672046121_2_alg».proof.Proof.Block
import proofs.«161852_j89034672046121_2_alg».proof.Proof.FrameDataIdeal
import proofs.«161852_j89034672046121_2_alg».proof.Proof.FrameHostIdeal
import proofs.«161852_j89034672046121_2_alg».proof.Proof.FrameBodyIdeal
import proofs.«161852_j89034672046121_2_alg».proof.Proof.Gen.KernelIdeal.Launch
import proofs.«161852_j89034672046121_2_alg».proof.Proof.Gen.KernelIdeal.Skeleton
import proofs.«161852_j89034672046121_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What an input window's staging buffer holds when the body is called -/

/-- The corner window's current staging buffer holds block t of the corner array at every point t, whatever it held
    before: the window is an input, never idle and never cut, so at a point where it is fetched the buffer is the fetched
    block, and at a point where it is not the block index has not moved and the body left the block in place. Stated for
    any proof data whose array is the region-entry one and whose body leaves the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weight window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the launch theorem's -/

/-- The launch theorem's final memory has every unscoped buffer that is no array of the pipeline at what the trailing
    reshapes leave of the region-entry contents. The two argument arrays are such buffers, and there they are as
    launched (W_main_arg0, W_main_arg1). So a run to the launch theorem's post is a run to the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body obligation, at a generic point -/

/-- What the body is called with at point t: the invariant, the core's debt, and each window's current staging buffer
    held whole at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same with each buffer at what the data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. The two input buffers hold their blocks (before0_0, before0_1) and the output buffer holds
    something, which is all the body's triple asks; the triple returns the inputs unchanged and the output at the
    body's store over the two blocks, which is what the data say. The invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation: its conjunction over the three windows written out is sound_body's. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which takes
-- unfolding plain definitions inside a metavariable's type
set_option backward.isDefEq.respectTransparency.types false in
/-- On the compiled mesh, for any values, from any memory with all counters at zero: every weakly fair execution of the
    program on the TensorCores terminates, and every final state has each array of the pipeline at what the launch
    theorem computes from the proof data, and every other unscoped buffer at what the two trailing reshapes leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame: the program terminates without fault and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.TailIdeal.lean ====
/-
  The program's result from the region's output array. After the region two reshapes run: the 32768 x 128 output array is
  laid out flat as 4194304 entries, and the flat array is given a trailing axis of extent one. Both keep the row-major
  order of entries, so entry (n, 0) of the result is entry (n / 128, n % 128) of the output array. Also here, read off
  the launch theorem's final memory: the result buffer holds what the two reshapes leave, and the two argument arrays
  hold what they held at launch.
-/
import proofs.«161852_j89034672046121_2_alg».proof.Proof.FrameIdeal
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.KernelIdeal.Facts₀

variable {F : FTy → Type} [FloatOps F]

variable (m : (ℓ : Loc nD τ sig) → Buf (Elt F) ℓ) (ρ : Dev nD → PrngReg)

/-! ## The final memory at the result and at the arguments -/

/-- In the launch theorem's final memory, the result buffer (the column copy of the flat result) holds what the two
    trailing reshapes leave there: it is an unscoped buffer and none of the pipeline's three arrays. -/
theorem post_result (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v124) = Pipeline.afterTail₀ cfgs (dats m) 0 (V0 m) [hostOps1] c main_v124 :=
  (h c).2 main_v124 (Pipeline.mem_restRefs_of main_v124 (by decide) (by decide))

/-- In that memory the coordinate array is as launched: it too is an unscoped buffer and no array of the pipeline, and
    what the trailing reshapes leave there is the launch contents. -/
theorem kept_main_arg0 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).2 main_arg0 (Pipeline.mem_restRefs_of main_arg0 (by decide) (by decide))).trans (W_main_arg0 m (dats m) c)

/-- And so is the volume. -/
theorem kept_main_arg1 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).2 main_arg1 (Pipeline.mem_restRefs_of main_arg1 (by decide) (by decide))).trans (W_main_arg1 m (dats m) c)

/-! ## The two reshapes, read at one entry -/

/-- Entry (n, 0) of the result is entry (n / 128, n % 128) of the region's output array. The result is the reshape to
    4194304 x 1 of the reshape to 4194304 of the output array as the region leaves it. A reshape keeps each entry's
    row-major position. Position of (n, 0) in the 4194304 x 1 array: n * 1 + 0 = n, the position of n in the flat array;
    position of (a, b) in the 32768 x 128 array: a * 128 + b, which is n at a = n / 128, b = n % 128. -/
theorem tail_apply (c : Dev nD) (n : Fin 4194304) :
    (Pipeline.afterTail₀ cfgs (dats m) 0 (V0 m) [hostOps1] c main_v124 : S4194304x1.Idx → Elt F .f32) (ix2 n (0 : Fin 1))
      = ((dats m 0 c).arrAt 2 cfg0.N : S32768x128.Idx → Elt F .f32)
          (ix2 (⟨n.val / 128, by omega⟩ : Fin 32768) (⟨n.val % 128, by omega⟩ : Fin 128)) := by
  unfold Pipeline.afterTail₀
  show StableHlo.after hostOps1 _ (Proc.devRef .tc main_v124) _ = _
  -- the two reshapes computed: the second's function of the first's function of the exit contents of the output array
  after_results
  -- the exit contents of the output array are the pipeline's: it is window 2's array
  have hW : Pipeline.withArrays (cfgs 0).spec c (V0 m c) (fun w => (dats m 0 c).arrAt w (cfgs 0).N) (Proc.devRef .tc main_v122)
      = (dats m 0 c).arrAt 2 cfg0.N :=
    Pipeline.withArrays_arr spec0 launch0.win.arr_inj c (V0 m c) (fun w => (dats m 0 c).arrAt w cfg0.N) 2
  rw [hW]
  generalize (dats m 0 c).arrAt 2 cfg0.N = A
  show shapeCast S4194304x1 (shapeCast S4194304 (A : S32768x128.Idx → Elt F .f32) _) _ (ix2 n (0 : Fin 1)) = _
  have hk1 : (S4194304.rowMajor (ix1 n)).val = (S4194304x1.rowMajor (ix2 n (0 : Fin 1))).val := by
    rw [Shape.rowMajor_val_one, Shape.rowMajor_val_two]
    show n.val = n.val * 1 + 0
    omega
  have hk2 : (S32768x128.rowMajor (ix2 (⟨n.val / 128, by omega⟩ : Fin 32768) (⟨n.val % 128, by omega⟩ : Fin 128))).val
      = (S4194304.rowMajor (ix1 n)).val := by
    rw [Shape.rowMajor_val_one, Shape.rowMajor_val_two]
    show n.val / 128 * 128 + n.val % 128 = n.val
    omega
  exact (shapeCast_apply _ _ (ix2 n (0 : Fin 1)) (ix1 n) hk1).trans (shapeCast_apply A _ (ix1 n) _ hk2)

end Cert.KernelIdeal.Hand

end
-- ==== Proof.HostLine.lean ====
/-
  Reading a straight line of host operations one operation at a time.

  The kernel program's host side is a line of 162 operations in static single assignment: every operation writes one
  buffer, and no buffer is written twice. So the contents of a buffer after the WHOLE line are what the one operation
  that writes it left there, and that operation read its operands at contents nothing later changes either. This
  module states that once, for any line given with the list of the buffers its operations write (the k-th operation
  writes the k-th buffer of the list): the buffer written at position k holds, at the end, the k-th operation's result
  over the contents after the first k operations (line_write), and a buffer that no operation from position k on writes
  holds at the end what it held after the first k operations (line_keep). Which buffers the later operations write is
  decided on the list of references, never on the operations.

  It is then instantiated at the last stretch of the kernel program's host operations (125 operations: the successors
  z1, y1, x1, the three weight columns, the two index bricks, the two brick gathers, the packing of the eight corner rows
  and of the three weight rows), over the contents the earlier stretches leave.
-/
import proofs.«161852_j89034672046121_2_alg».proof.Proof.Entry
import proofs.«161852_j89034672046121_2_alg».proof.Proof.Gen.KernelIdeal.Launch
import Idealize.ShloMosaic.Lib.StableHlo.Run
import Idealize.ShloMosaic.PureOps.Ideal
import Idealize.ShloMosaic.Lib.Pipeline.Frame

noncomputable section

namespace Cert.KernelHost

open Idealize.ShloMosaic Idealize.ShloMosaic.TcCoe Idealize.SL.Sem Idealize.ShloMosaic.StableHlo

section Line

variable {τ : Topo} {sig : RefSig} {Val : EltTy → Type}

/-- The operations of the line write one buffer each: the k-th operation writes exactly the k-th reference of ws. -/
def Writes (ops : List (HloOp τ sig Val)) (ws : List (Ref sig .tc)) : Prop :=
  List.Forall₂ (fun op r => op.writes = {Proc.devRef (τ := τ) .tc r}) ops ws

/-- A buffer that is not among the ones the line writes holds after the line what it held before. -/
theorem after_of_not_written : ∀ {ops : List (HloOp τ sig Val)} {ws : List (Ref sig .tc)}, Writes ops ws →
    ∀ (V : Valuation τ sig Val) {r : Ref sig .tc}, r ∉ ws → after ops V (Proc.devRef .tc r) = V (Proc.devRef .tc r)
  | _, _, .nil, _, _, _ => rfl
  | _, _, @List.Forall₂.cons _ _ _ op w _ _ h t, V, r, hr => by
    rw [after_cons, after_of_not_written t _ (fun hm => hr (List.mem_cons_of_mem _ hm))]
    refine op.result_of_not_mem V ?_
    rw [h, Finset.mem_singleton]
    exact fun e => hr (Proc.devRef_injective _ e ▸ List.mem_cons_self)

/-- THE BUFFER WRITTEN AT POSITION k: when no later operation writes it again, it holds after the whole line the k-th
    operation's result over the contents after the first k operations. -/
theorem line_write {ops : List (HloOp τ sig Val)} {ws : List (Ref sig .tc)} (hw : Writes ops ws) (V : Valuation τ sig Val)
    (k : Nat) {op : HloOp τ sig Val} {post : List (HloOp τ sig Val)} (h : ops.drop k = op :: post)
    {y : Ref sig .tc} (hy : y ∉ ws.drop (k + 1)) :
    after ops V (Proc.devRef .tc y) = op.result (after (ops.take k) V) (Proc.devRef .tc y) := by
  have hpost : Writes post (ws.drop (k + 1)) := by
    have h1 : ops.drop (k + 1) = post := by rw [← List.drop_drop, h]; rfl
    have := List.forall₂_drop (k + 1) hw
    rwa [h1] at this
  conv_lhs => rw [← List.take_append_drop k ops, h]
  rw [after_append, after_cons, after_of_not_written hpost _ hy]

/-- A BUFFER NO OPERATION FROM POSITION k ON WRITES holds after the whole line what it held after the first k
    operations. -/
theorem line_keep {ops : List (HloOp τ sig Val)} {ws : List (Ref sig .tc)} (hw : Writes ops ws) (V : Valuation τ sig Val)
    (k : Nat) {x : Ref sig .tc} (hx : x ∉ ws.drop k) :
    after (ops.take k) V (Proc.devRef .tc x) = after ops V (Proc.devRef .tc x) := by
  conv_rhs => rw [← List.take_append_drop k ops, after_append]
  exact (after_of_not_written (List.forall₂_drop k hw) _ hx).symm

/-- A line that ends with one more stretch is the stretches before it, then that stretch. -/
theorem after_flatten_snoc (ls : List (List (HloOp τ sig Val))) (l : List (HloOp τ sig Val)) (V : Valuation τ sig Val) :
    after (List.flatten (ls ++ [l])) V = after l (after (List.flatten ls) V) := by
  rw [List.flatten_append, after_append, List.flatten_singleton]

end Line

/-! ## The kernel program's last stretch of host operations -/

section Host

open Cert.KernelIdeal Cert.KernelIdeal.Gen Cert.KernelIdeal.Hand

variable (m : (ℓ : Loc nD τ sig) → Buf (Elt Ideal) ℓ) (c : Dev nD)

/-- Core c's buffers after the first six stretches (the scaled coordinates, their integer parts and fractions, the
    three clamped base indices): what the last stretch starts from. -/
def Vpre : Valuation τ sig (Elt Ideal) :=
  after (List.flatten [hostOps0, hostOps0_1, hostOps0_2, hostOps0_3, hostOps0_4, hostOps0_5]) (fun b => m (c, b))

/-- The buffers the 125 operations of the last stretch write, in program order. -/
def WL : List (Ref sig .tc) :=
    main_c_5 :: main_v15 :: main_v16 :: main_c_6 :: main_v17 :: main_v18 :: main_c_7 :: main_v19 ::
    main_v20 :: main_c_8 :: main_v21 :: main_v22 :: main_c_9 :: main_v23 :: main_v24 :: main_c_10 ::
    main_v25 :: main_v26 :: main_v27 :: main_v28 :: main_v29 :: main_v30 :: main_v31 :: main_v32 ::
    main_v33 :: main_v34 :: main_v35 :: main_v36 :: main_v37 :: main_v38 :: main_v39 :: main_v40 ::
    main_v41 :: main_c_11 :: main_v42 :: main_v43 :: main_c_12 :: main_v44 :: main_v45 :: main_v46 ::
    main_c_13 :: main_v47 :: main_v48 :: main_c_14 :: main_v49 :: main_v50 :: main_v51 :: main_c_15 ::
    main_v52 :: main_v53 :: main_c_16 :: main_v54 :: main_v55 :: main_v56 :: main_v57 :: main_v58 ::
    main_v59 :: main_v60 :: main_v61 :: main_v62 :: main_v63 :: main_v64 :: main_v65 :: main_v66 ::
    main_v67 :: main_c_17 :: main_v68 :: main_v69 :: main_c_18 :: main_v70 :: main_v71 :: main_v72 ::
    main_c_19 :: main_v73 :: main_v74 :: main_c_20 :: main_v75 :: main_v76 :: main_v77 :: main_c_21 ::
    main_v78 :: main_v79 :: main_c_22 :: main_v80 :: main_v81 :: main_v82 :: main_v83 :: main_v84 ::
    main_v85 :: main_v86 :: main_v87 :: main_v88 :: main_v89 :: main_v90 :: main_v91 :: main_v92 ::
    main_v93 :: main_v94 :: main_v95 :: main_v96 :: main_v97 :: main_v98 :: main_v99 :: main_v100 ::
    main_v101 :: main_v102 :: main_v103 :: main_v104 :: main_v105 :: main_v106 :: main_v107 :: main_v108 ::
    main_v109 :: main_v110 :: main_v111 :: main_v112 :: main_v113 :: main_v114 :: main_v115 :: main_v116 ::
    main_v117 :: main_v118 :: main_v119 :: main_v120 :: main_v121 :: []

set_option maxRecDepth 8192 in
set_option maxHeartbeats 4000000 in
/-- Each operation of the last stretch writes the buffer listed at its position, and only it. -/
theorem writes_last : Writes (hostOps0_6 (F := Ideal)) WL := by
  unfold WL
  repeat (first | exact List.Forall₂.nil | refine List.Forall₂.cons rfl ?_)

/-- Core c's buffers after the first k operations of the last stretch. -/
def P (k : Nat) : Valuation τ sig (Elt Ideal) := after ((hostOps0_6 (F := Ideal)).take k) (Vpre m c)

/-- The buffers the region finds are the last stretch run from the contents the first six leave. -/
theorem V_eq (b : Ref sig .tc) : V m c b = after hostOps0_6 (Vpre m c) (Proc.devRef .tc b) :=
  congrFun (after_flatten_snoc [hostOps0, hostOps0_1, hostOps0_2, hostOps0_3, hostOps0_4, hostOps0_5] hostOps0_6 (fun b => m (c, b)))
    (Proc.devRef .tc b)

/-- THE BUFFER THE k-TH OPERATION OF THE LAST STRETCH WRITES, as the region finds it: that operation's result over the
    contents after the first k operations (the operation is read off the program text by computation, the
    reference's absence from the later writes decided on the list). -/
theorem wr (k : Nat) {op : HloOp τ sig (Elt Ideal)} {post : List (HloOp τ sig (Elt Ideal))}
    (h : (hostOps0_6 (F := Ideal)).drop k = op :: post) {y : Ref sig .tc} (hy : y ∉ WL.drop (k + 1)) :
    V m c y = op.result (P m c k) (Proc.devRef .tc y) :=
  (V_eq m c y).trans (line_write writes_last (Vpre m c) k h hy)

/-- A BUFFER NO OPERATION OF THE LAST STRETCH FROM POSITION k ON WRITES: after the first k operations it already holds
    what the region finds. -/
theorem kp (k : Nat) {x : Ref sig .tc} (hx : x ∉ WL.drop k) : P m c k (Proc.devRef .tc x) = V m c x :=
  (line_keep writes_last (Vpre m c) k hx).trans (V_eq m c x).symm

/-! ### The same, by the kind of the operation: the buffer it writes is its function of the operands' buffers, all as
the region finds them (the operands are buffers no operation from position k on writes). -/

theorem wr_nullary (k : Nat) {y : Ref sig .tc} {v : y.ty.Contents (Elt Ideal)} {hy} {post : List (HloOp τ sig (Elt Ideal))}
    (h : (hostOps0_6 (F := Ideal)).drop k = StableHlo.nullary y v hy :: post) (hy' : y ∉ WL.drop (k + 1)) :
    V m c y = v := by
  rw [wr m c k h hy', nullary_result]

theorem wr_unary (k : Nat) {x y : Ref sig .tc} {f : x.ty.Contents (Elt Ideal) → y.ty.Contents (Elt Ideal)} {hx hy}
    {post : List (HloOp τ sig (Elt Ideal))}
    (h : (hostOps0_6 (F := Ideal)).drop k = StableHlo.unary x y f hx hy :: post) (hy' : y ∉ WL.drop (k + 1))
    (hx' : x ∉ WL.drop k) :
    V m c y = f (V m c x) := by
  rw [wr m c k h hy', unary_result, kp m c k hx']

theorem wr_binary (k : Nat) {a b y : Ref sig .tc}
    {f : a.ty.Contents (Elt Ideal) → b.ty.Contents (Elt Ideal) → y.ty.Contents (Elt Ideal)} {ha hb hy}
    {post : List (HloOp τ sig (Elt Ideal))}
    (h : (hostOps0_6 (F := Ideal)).drop k = StableHlo.binary a b y f ha hb hy :: post) (hy' : y ∉ WL.drop (k + 1))
    (ha' : a ∉ WL.drop k) (hb' : b ∉ WL.drop k) :
    V m c y = f (V m c a) (V m c b) := by
  rw [wr m c k h hy', binary_result, kp m c k ha', kp m c k hb']

theorem wr_ternary (k : Nat) {p a b y : Ref sig .tc}
    {f : p.ty.Contents (Elt Ideal) → a.ty.Contents (Elt Ideal) → b.ty.Contents (Elt Ideal) → y.ty.Contents (Elt Ideal)}
    {hp ha hb hy} {post : List (HloOp τ sig (Elt Ideal))}
    (h : (hostOps0_6 (F := Ideal)).drop k = StableHlo.ternary p a b y f hp ha hb hy :: post) (hy' : y ∉ WL.drop (k + 1))
    (hp' : p ∉ WL.drop k) (ha' : a ∉ WL.drop k) (hb' : b ∉ WL.drop k) :
    V m c y = f (V m c p) (V m c a) (V m c b) := by
  rw [wr m c k h hy', ternary_result, kp m c k hp', kp m c k ha', kp m c k hb']

theorem wr_reshape (k : Nat) {x y : Ref sig .tc} {he : x.ty.elt = y.ty.elt} {hn : x.ty.shape.ShapeCasts y.ty.shape} {hx hy}
    {post : List (HloOp τ sig (Elt Ideal))}
    (h : (hostOps0_6 (F := Ideal)).drop k = StableHlo.reshape x y he hn hx hy :: post) (hy' : y ∉ WL.drop (k + 1))
    (hx' : x ∉ WL.drop k) :
    V m c y = fun i => he ▸ shapeCast y.ty.shape (V m c x) hn i := by
  rw [wr m c k h hy', reshape_result, kp m c k hx']

theorem wr_nary (k : Nat) {n : Nat} {xs : Fin n → Ref sig .tc} {y : Ref sig .tc}
    {f : ((i : Fin n) → (xs i).ty.Contents (Elt Ideal)) → y.ty.Contents (Elt Ideal)} {hxs hy}
    {post : List (HloOp τ sig (Elt Ideal))}
    (h : (hostOps0_6 (F := Ideal)).drop k = StableHlo.nary xs y f hxs hy :: post) (hy' : y ∉ WL.drop (k + 1))
    (hxs' : ∀ i, xs i ∉ WL.drop k) :
    V m c y = f (fun i => V m c (xs i)) := by
  rw [wr m c k h hy', nary_result]
  congr 1
  funext i
  exact kp m c k (hxs' i)

end Host

end Cert.KernelHost

end
-- ==== Proof.HostLineAt.lean ====
/-
  Reading the last stretch of host operations by POSITION.

  The line lemmas name the operation at position k through the equation drop k ops = op :: post, whose check compares the
  whole remaining tail of the stretch. Here the same lemmas take the operation as the k-th entry of the list,
  ops[k]? = some op: the tail stays the unevaluated drop (k + 1) ops (a list that has a k-th entry is the entries before it,
  that entry, and the rest), so only ONE operation is compared.
-/
import proofs.«161852_j89034672046121_2_alg».proof.Proof.HostLine

noncomputable section

namespace Cert.KernelHost

open Idealize.ShloMosaic Idealize.ShloMosaic.TcCoe Idealize.SL.Sem Idealize.ShloMosaic.StableHlo
open Cert.KernelIdeal Cert.KernelIdeal.Gen Cert.KernelIdeal.Hand

/-- A list with entry a at position k, cut at k: a, then the rest. -/
theorem drop_of_get {α : Type} (l : List α) (k : Nat) (a : α) (h : l[k]? = some a) : l.drop k = a :: l.drop (k + 1) := by
  obtain ⟨hlt, he⟩ := List.getElem?_eq_some_iff.1 h
  rw [List.drop_eq_getElem_cons hlt, he]

variable (m : (ℓ : Loc nD τ sig) → Buf (Elt Ideal) ℓ) (c : Dev nD)

theorem at_nullary (k : Nat) {y : Ref sig .tc} {v : y.ty.Contents (Elt Ideal)} {hy}
    (h : (hostOps0_6 (F := Ideal))[k]? = some (StableHlo.nullary y v hy)) (hy' : y ∉ WL.drop (k + 1)) :
    V m c y = v :=
  wr_nullary m c k (drop_of_get _ k _ h) hy'

theorem at_unary (k : Nat) {x y : Ref sig .tc} {f : x.ty.Contents (Elt Ideal) → y.ty.Contents (Elt Ideal)} {hx hy}
    (h : (hostOps0_6 (F := Ideal))[k]? = some (StableHlo.unary x y f hx hy)) (hy' : y ∉ WL.drop (k + 1))
    (hx' : x ∉ WL.drop k) :
    V m c y = f (V m c x) :=
  wr_unary m c k (drop_of_get _ k _ h) hy' hx'

theorem at_binary (k : Nat) {a b y : Ref sig .tc}
    {f : a.ty.Contents (Elt Ideal) → b.ty.Contents (Elt Ideal) → y.ty.Contents (Elt Ideal)} {ha hb hy}
    (h : (hostOps0_6 (F := Ideal))[k]? = some (StableHlo.binary a b y f ha hb hy)) (hy' : y ∉ WL.drop (k + 1))
    (ha' : a ∉ WL.drop k) (hb' : b ∉ WL.drop k) :
    V m c y = f (V m c a) (V m c b) :=
  wr_binary m c k (drop_of_get _ k _ h) hy' ha' hb'

theorem at_ternary (k : Nat) {p a b y : Ref sig .tc}
    {f : p.ty.Contents (Elt Ideal) → a.ty.Contents (Elt Ideal) → b.ty.Contents (Elt Ideal) → y.ty.Contents (Elt Ideal)}
    {hp ha hb hy}
    (h : (hostOps0_6 (F := Ideal))[k]? = some (StableHlo.ternary p a b y f hp ha hb hy)) (hy' : y ∉ WL.drop (k + 1))
    (hp' : p ∉ WL.drop k) (ha' : a ∉ WL.drop k) (hb' : b ∉ WL.drop k) :
    V m c y = f (V m c p) (V m c a) (V m c b) :=
  wr_ternary m c k (drop_of_get _ k _ h) hy' hp' ha' hb'

theorem at_reshape (k : Nat) {x y : Ref sig .tc} {he : x.ty.elt = y.ty.elt} {hn : x.ty.shape.ShapeCasts y.ty.shape} {hx hy}
    (h : (hostOps0_6 (F := Ideal))[k]? = some (StableHlo.reshape x y he hn hx hy)) (hy' : y ∉ WL.drop (k + 1))
    (hx' : x ∉ WL.drop k) :
    V m c y = fun i => he ▸ shapeCast y.ty.shape (V m c x) hn i :=
  wr_reshape m c k (drop_of_get _ k _ h) hy' hx'

theorem at_nary (k : Nat) {n : Nat} {xs : Fin n → Ref sig .tc} {y : Ref sig .tc}
    {f : ((i : Fin n) → (xs i).ty.Contents (Elt Ideal)) → y.ty.Contents (Elt Ideal)} {hxs hy}
    (h : (hostOps0_6 (F := Ideal))[k]? = some (StableHlo.nary xs y f hxs hy)) (hy' : y ∉ WL.drop (k + 1))
    (hxs' : ∀ i, xs i ∉ WL.drop k) :
    V m c y = f (fun i => V m c (xs i)) :=
  wr_nary m c k (drop_of_get _ k _ h) hy' hxs'

end Cert.KernelHost

end
-- ==== Proof.Reads.lean ====
/-
  Layout operations of the kernel program's host side, read at one index.

  The host side packs per-point columns into the arrays the kernel is launched on with slices, reshapes, broadcasts and
  concatenations only. Each lemma here reads ONE such operation, at the literal shapes it has in the program, at an
  index given by its coordinates, as its operand at an index given by coordinates: a column reshaped to a vector, a
  vector laid as a row, a stack of rows reshaped so that point 128 r + l sits at row r, lane l, and the broadcasts that
  build the two index bricks [N, 2, 2, 3].
-/
import Idealize.ShloMosaic.Lib.ValueIdx
import Idealize.ShloMosaic.Lib.Pipeline.Value
import Idealize.ShloMosaic.Lib.ValueLayout
import Idealize.ShloMosaic.Lib.IdealHost

noncomputable section

namespace Cert.KernelHost

open Idealize.ShloMosaic Idealize.ShloMosaic.ValueIdx

/-- The query point stored at row r, lane l of the packed arrays. -/
abbrev ptOf (r : Fin 32768) (l : Fin 128) : Fin 4194304 := ⟨128 * r.val + l.val, by omega⟩

section Reads

variable {α : Type}

/-- A stack of K rows of 4194304 entries reshaped to K planes of 32768 rows by 128 lanes: row-major order puts entry
    (k, 128 r + l) at (k, r, l). -/
theorem pack_apply {K : Nat} (x : (⟨2, ![K, 4194304]⟩ : Shape).Idx → α)
    (h : (⟨2, ![K, 4194304]⟩ : Shape).ShapeCasts ⟨3, ![K, 32768, 128]⟩) (k : Fin K) (r : Fin 32768) (l : Fin 128) :
    shapeCast ⟨3, ![K, 32768, 128]⟩ x h (ix3 k r l) = x (ix2 k (ptOf r l)) :=
  shapeCast_apply x h _ _ (by
    rw [Shape.rowMajor_val_two, Shape.rowMajor_val_three]
    show k.val * 4194304 + (128 * r.val + l.val) = (k.val * 32768 + r.val) * 128 + l.val
    omega)

/-- A column [N, 1] reshaped to a vector [N]: entry n is entry (n, 0). -/
theorem colOut_apply {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ _ (by
    rw [Shape.rowMajor_val_two, Shape.rowMajor_val_one]
    show n.val * 1 + 0 = n.val
    omega)

/-- An array [N, 1, 1] reshaped to a vector [N]: entry n is entry (n, 0, 0). -/
theorem cellOut_apply {N : Nat} (x : (⟨3, ![N, 1, 1]⟩ : Shape).Idx → α)
    (h : (⟨3, ![N, 1, 1]⟩ : Shape).ShapeCasts ⟨1, ![N]⟩) (n : Fin N) :
    shapeCast ⟨1, ![N]⟩ x h (ix1 n) = x (ix3 n 0 0) :=
  shapeCast_apply x h _ _ (by
    rw [Shape.rowMajor_val_three, Shape.rowMajor_val_one]
    show (n.val * 1 + 0) * 1 + 0 = n.val
    omega)

/-- A vector [N] laid as the one row of [1, N]: entry (0, n) is entry n. -/
theorem rowIn_apply {N : Nat} (x : (⟨1, ![N]⟩ : Shape).Idx → α)
    (h : (⟨1, ![N]⟩ : Shape).BroadcastsInDim ⟨2, ![1, N]⟩ ![1]) (n : Fin N) :
    broadcastInDim ⟨2, ![1, N]⟩ ![1] h x (ix2 0 n) = x (ix1 n) :=
  broadcastInDim_apply _ h x _ _ (fun a => match a with
    | ⟨0, _⟩ => by
      show n.val = if N = 1 then 0 else n.val
      have := n.isLt
      split <;> omega)

/-- A vector [N] laid as the one column of [N, 1]: entry (n, 0) is entry n. -/
theorem colIn_apply {N : Nat} (x : (⟨1, ![N]⟩ : Shape).Idx → α)
    (h : (⟨1, ![N]⟩ : Shape).BroadcastsInDim ⟨2, ![N, 1]⟩ ![0]) (n : Fin N) :
    broadcastInDim ⟨2, ![N, 1]⟩ ![0] h x (ix2 n 0) = x (ix1 n) :=
  broadcastInDim_apply _ h x _ _ (fun a => match a with
    | ⟨0, _⟩ => by
      show n.val = if N = 1 then 0 else n.val
      have := n.isLt
      split <;> omega)

/-- A vector [N] laid along the first axis of [N, 1, 1]: entry (n, 0, 0) is entry n. -/
theorem cellIn_apply {N : Nat} (x : (⟨1, ![N]⟩ : Shape).Idx → α)
    (h : (⟨1, ![N]⟩ : Shape).BroadcastsInDim ⟨3, ![N, 1, 1]⟩ ![0]) (n : Fin N) :
    broadcastInDim ⟨3, ![N, 1, 1]⟩ ![0] h x (ix3 n 0 0) = x (ix1 n) :=
  broadcastInDim_apply _ h x _ _ (fun a => match a with
    | ⟨0, _⟩ => by
      show n.val = if N = 1 then 0 else n.val
      have := n.isLt
      split <;> omega)

/-- [N, 2] with a unit axis appended, [N, 2, 1]: entry (n, a, 0) is entry (n, a). -/
theorem pairMid_apply {N : Nat} (x : (⟨2, ![N, 2]⟩ : Shape).Idx → α)
    (h : (⟨2, ![N, 2]⟩ : Shape).BroadcastsInDim ⟨3, ![N, 2, 1]⟩ ![0, 1]) (n : Fin N) (a : Fin 2) :
    broadcastInDim ⟨3, ![N, 2, 1]⟩ ![0, 1] h x (ix3 n a 0) = x (ix2 n a) :=
  broadcastInDim_apply _ h x _ _ (fun d => match d with
    | ⟨0, _⟩ => by
      show n.val = if N = 1 then 0 else n.val
      have := n.isLt
      split <;> omega
    | ⟨1, _⟩ => by
      show a.val = if (2 : Nat) = 1 then 0 else a.val
      rw [if_neg (by decide)])

/-- [N, 2] with a unit axis put in the middle, [N, 1, 2]: entry (n, 0, b) is entry (n, b). -/
theorem pairLast_apply {N : Nat} (x : (⟨2, ![N, 2]⟩ : Shape).Idx → α)
    (h : (⟨2, ![N, 2]⟩ : Shape).BroadcastsInDim ⟨3, ![N, 1, 2]⟩ ![0, 2]) (n : Fin N) (b : Fin 2) :
    broadcastInDim ⟨3, ![N, 1, 2]⟩ ![0, 2] h x (ix3 n 0 b) = x (ix2 n b) :=
  broadcastInDim_apply _ h x _ _ (fun d => match d with
    | ⟨0, _⟩ => by
      show n.val = if N = 1 then 0 else n.val
      have := n.isLt
      split <;> omega
    | ⟨1, _⟩ => by
      show b.val = if (2 : Nat) = 1 then 0 else b.val
      rw [if_neg (by decide)])

/-- [N, 1, 1] repeated over the brick [N, 2, 2]: entry (n, a, b) is entry (n, 0, 0). -/
theorem brickZ_apply {N : Nat} (x : (⟨3, ![N, 1, 1]⟩ : Shape).Idx → α)
    (h : (⟨3, ![N, 1, 1]⟩ : Shape).BroadcastsInDim ⟨3, ![N, 2, 2]⟩ ![0, 1, 2]) (n : Fin N) (a b : Fin 2) :
    broadcastInDim ⟨3, ![N, 2, 2]⟩ ![0, 1, 2] h x (ix3 n a b) = x (ix3 n 0 0) :=
  broadcastInDim_apply _ h x _ _ (fun d => match d with
    | ⟨0, _⟩ => by
      show n.val = if N = 1 then 0 else n.val
      have := n.isLt
      split <;> omega
    | ⟨1, _⟩ => by
      show (0 : Nat) = if (1 : Nat) = 1 then 0 else a.val
      rw [if_pos rfl]
    | ⟨2, _⟩ => by
      show (0 : Nat) = if (1 : Nat) = 1 then 0 else b.val
      rw [if_pos rfl])

/-- [N, 2, 1] repeated along the last axis of the brick [N, 2, 2]: entry (n, a, b) is entry (n, a, 0). -/
theorem brickY_apply {N : Nat} (x : (⟨3, ![N, 2, 1]⟩ : Shape).Idx → α)
    (h : (⟨3, ![N, 2, 1]⟩ : Shape).BroadcastsInDim ⟨3, ![N, 2, 2]⟩ ![0, 1, 2]) (n : Fin N) (a b : Fin 2) :
    broadcastInDim ⟨3, ![N, 2, 2]⟩ ![0, 1, 2] h x (ix3 n a b) = x (ix3 n a 0) :=
  broadcastInDim_apply _ h x _ _ (fun d => match d with
    | ⟨0, _⟩ => by
      show n.val = if N = 1 then 0 else n.val
      have := n.isLt
      split <;> omega
    | ⟨1, _⟩ => by
      show a.val = if (2 : Nat) = 1 then 0 else a.val
      rw [if_neg (by decide)]
    | ⟨2, _⟩ => by
      show (0 : Nat) = if (1 : Nat) = 1 then 0 else b.val
      rw [if_pos rfl])

/-- [N, 1, 2] repeated along the middle axis of the brick [N, 2, 2]: entry (n, a, b) is entry (n, 0, b). -/
theorem brickX_apply {N : Nat} (x : (⟨3, ![N, 1, 2]⟩ : Shape).Idx → α)
    (h : (⟨3, ![N, 1, 2]⟩ : Shape).BroadcastsInDim ⟨3, ![N, 2, 2]⟩ ![0, 1, 2]) (n : Fin N) (a b : Fin 2) :
    broadcastInDim ⟨3, ![N, 2, 2]⟩ ![0, 1, 2] h x (ix3 n a b) = x (ix3 n 0 b) :=
  broadcastInDim_apply _ h x _ _ (fun d => match d with
    | ⟨0, _⟩ => by
      show n.val = if N = 1 then 0 else n.val
      have := n.isLt
      split <;> omega
    | ⟨1, _⟩ => by
      show (0 : Nat) = if (1 : Nat) = 1 then 0 else a.val
      rw [if_pos rfl]
    | ⟨2, _⟩ => by
      show b.val = if (2 : Nat) = 1 then 0 else b.val
      rw [if_neg (by decide)])

/-- The brick [N, 2, 2] with a unit axis appended, [N, 2, 2, 1]: entry (n, a, b, 0) is entry (n, a, b). -/
theorem brickWord_apply {N : Nat} (x : (⟨3, ![N, 2, 2]⟩ : Shape).Idx → α)
    (h : (⟨3, ![N, 2, 2]⟩ : Shape).BroadcastsInDim ⟨4, ![N, 2, 2, 1]⟩ ![0, 1, 2]) (n : Fin N) (a b : Fin 2) :
    broadcastInDim ⟨4, ![N, 2, 2, 1]⟩ ![0, 1, 2] h x (ix4 n a b 0) = x (ix3 n a b) :=
  broadcastInDim_apply _ h x _ _ (fun d => match d with
    | ⟨0, _⟩ => by
      show n.val = if N = 1 then 0 else n.val
      have := n.isLt
      split <;> omega
    | ⟨1, _⟩ => by
      show a.val = if (2 : Nat) = 1 then 0 else a.val
      rw [if_neg (by decide)]
    | ⟨2, _⟩ => by
      show b.val = if (2 : Nat) = 1 then 0 else b.val
      rw [if_neg (by decide)])

/-- One cell of the brick cut out as [N, 1, 1]: entry (n, 0, 0) of the slice at offsets (0, a, b) is entry (n, a, b). -/
theorem brickCell_apply {N : Nat} (a b : Fin 2) (x : (⟨3, ![N, 2, 2]⟩ : Shape).Idx → α)
    (h : (⟨3, ![N, 2, 2]⟩ : Shape).Slices ![0, a.val, b.val] ⟨3, ![N, 1, 1]⟩) (n : Fin N) :
    extractStridedSlice ⟨3, ![N, 1, 1]⟩ ![0, a.val, b.val] x h (ix3 n 0 0) = x (ix3 n a b) :=
  extractStridedSlice_apply _ x h _ _ (fun d => match d with
    | ⟨0, _⟩ => by show n.val = 0 + n.val; omega
    | ⟨1, _⟩ => by show a.val = a.val + 0; omega
    | ⟨2, _⟩ => by show b.val = b.val + 0; omega)

end Reads

end Cert.KernelHost

end
-- ==== Proof.WeightRows.lean ====
/-
  The three weight rows, entry by entry.

  The kernel is launched on the array W [3, 32768, 128] whose plane j is column 2 - j of the fractional parts wt [N, 3]
  (plane 0 the x weights, plane 1 the y weights, plane 2 the z weights), with point 128 r + l at row r, lane l. The host
  builds it as: three column slices of wt, each reshaped [N, 1] -> [N] and laid as a row [1, N]; the rows stacked in the
  order (column 2, column 1, column 0) to [3, N]; the stack reshaped to [3, 32768, 128]. Each step moves entries and
  changes none, so the proof follows one entry back through the five steps.
-/
import proofs.«161852_j89034672046121_2_alg».proof.Proof.HostLine
import proofs.«161852_j89034672046121_2_alg».proof.Proof.HostLineAt
import proofs.«161852_j89034672046121_2_alg».proof.Proof.Reads
import Idealize.ShloMosaic.Lib.ValueIdx
import Idealize.ShloMosaic.Lib.Pipeline.Value
import Idealize.ShloMosaic.Lib.ValueLayout
import Idealize.ShloMosaic.Lib.StableHlo.Run

noncomputable section

namespace Cert.KernelHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ### The three columns as vectors -/

/-- Column 0 of the weights (the z weights), as a vector. -/
theorem wcol_v28 (n : Fin 4194304) :
    (V m c main_v28 : S4194304.Idx → EReal) (ix1 n) = (V m c main_v5 : S4194304x3.Idx → EReal) (ix2 n 0) := by
  rw [at_reshape m c 19 rfl (by decide) (by decide)]
  refine (colOut_apply _ _ n).trans ?_
  rw [at_unary m c 18 rfl (by decide) (by decide)]
  exact slice2_axis1_apply 0 _ _ n 0 0 rfl

/-- Column 1 of the weights (the y weights), as a vector. -/
theorem wcol_v30 (n : Fin 4194304) :
    (V m c main_v30 : S4194304.Idx → EReal) (ix1 n) = (V m c main_v5 : S4194304x3.Idx → EReal) (ix2 n 1) := by
  rw [at_reshape m c 21 rfl (by decide) (by decide)]
  refine (colOut_apply _ _ n).trans ?_
  rw [at_unary m c 20 rfl (by decide) (by decide)]
  exact slice2_axis1_apply 1 _ _ n 0 1 rfl

/-- Column 2 of the weights (the x weights), as a vector. -/
theorem wcol_v32 (n : Fin 4194304) :
    (V m c main_v32 : S4194304.Idx → EReal) (ix1 n) = (V m c main_v5 : S4194304x3.Idx → EReal) (ix2 n 2) := by
  rw [at_reshape m c 23 rfl (by decide) (by decide)]
  refine (colOut_apply _ _ n).trans ?_
  rw [at_unary m c 22 rfl (by decide) (by decide)]
  exact slice2_axis1_apply 2 _ _ n 0 2 rfl

/-! ### The three columns as rows -/

/-- The x weights as a row. -/
theorem wrow_v116 (n : Fin 4194304) :
    (V m c main_v116 : S1x4194304.Idx → EReal) (ix2 0 n) = (V m c main_v5 : S4194304x3.Idx → EReal) (ix2 n 2) := by
  rw [at_unary m c 119 rfl (by decide) (by decide)]
  exact (rowIn_apply _ _ n).trans (wcol_v32 m c n)

/-- The y weights as a row. -/
theorem wrow_v117 (n : Fin 4194304) :
    (V m c main_v117 : S1x4194304.Idx → EReal) (ix2 0 n) = (V m c main_v5 : S4194304x3.Idx → EReal) (ix2 n 1) := by
  rw [at_unary m c 120 rfl (by decide) (by decide)]
  exact (rowIn_apply _ _ n).trans (wcol_v30 m c n)

/-- The z weights as a row. -/
theorem wrow_v118 (n : Fin 4194304) :
    (V m c main_v118 : S1x4194304.Idx → EReal) (ix2 0 n) = (V m c main_v5 : S4194304x3.Idx → EReal) (ix2 n 0) := by
  rw [at_unary m c 121 rfl (by decide) (by decide)]
  exact (rowIn_apply _ _ n).trans (wcol_v28 m c n)

end Cert.KernelHost

end
-- ==== Proof.Weights.lean ====
/-
  The packed weights, entry by entry.

  The kernel is launched on the array W [3, 32768, 128] whose plane j is column 2 - j of the fractional parts wt [N, 3]
  (plane 0 the x weights, plane 1 the y weights, plane 2 the z weights), with point 128 r + l at row r, lane l: the three
  weight rows (module WeightRows) stacked in the order (column 2, column 1, column 0) to [3, N], and the stack reshaped
  to [3, 32768, 128].
-/
import proofs.«161852_j89034672046121_2_alg».proof.Proof.HostLine
import proofs.«161852_j89034672046121_2_alg».proof.Proof.HostLineAt
import proofs.«161852_j89034672046121_2_alg».proof.Proof.Reads
import proofs.«161852_j89034672046121_2_alg».proof.Proof.WeightRows
import Idealize.ShloMosaic.Lib.ValueIdx
import Idealize.ShloMosaic.Lib.Pipeline.Value
import Idealize.ShloMosaic.Lib.ValueLayout
import Idealize.ShloMosaic.Lib.StableHlo.Run

noncomputable section

namespace Cert.KernelHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ### The stack of the three rows, and its reshape -/

/-- Row j of the stack [3, N] is column 2 - j of the weights. -/
theorem wstack_apply (j : Fin 3) (n : Fin 4194304) :
    (V m c main_v119 : S3x4194304.Idx → EReal) (ix2 j n)
      = (V m c main_v5 : S4194304x3.Idx → EReal) (ix2 n ⟨2 - j.val, by omega⟩) := by
  rw [at_nary m c 122 rfl (by decide) (by decide)]
  show concatenate S3x4194304 0 [⟨S1x4194304, V m c main_v116⟩, ⟨S1x4194304, V m c main_v117⟩,
    ⟨S1x4194304, V m c main_v118⟩] concatenates_S1x4194304_S1x4194304_S1x4194304_S3x4194304_d0 (ix2 j n) = _
  match j with
  | ⟨0, _⟩ =>
    exact (concatenate_apply_piece (t := S3x4194304) 0 [⟨S1x4194304, V m c main_v116⟩, ⟨S1x4194304, V m c main_v117⟩,
        ⟨S1x4194304, V m c main_v118⟩] concatenates_S1x4194304_S1x4194304_S1x4194304_S3x4194304_d0 _ 0 (show 0 < 3 by decide)
      S1x4194304 (V m c main_v116) rfl rfl 0 rfl (ix2 0 n)
      (fun b hb => match b, hb with | ⟨0, _⟩, hb => absurd rfl hb | ⟨1, _⟩, _ => rfl) rfl).trans (wrow_v116 m c n)
  | ⟨1, _⟩ =>
    exact (concatenate_apply_piece (t := S3x4194304) 0 [⟨S1x4194304, V m c main_v116⟩, ⟨S1x4194304, V m c main_v117⟩,
        ⟨S1x4194304, V m c main_v118⟩] concatenates_S1x4194304_S1x4194304_S1x4194304_S3x4194304_d0 _ 1 (show 1 < 3 by decide)
      S1x4194304 (V m c main_v117) rfl rfl 1 rfl (ix2 0 n)
      (fun b hb => match b, hb with | ⟨0, _⟩, hb => absurd rfl hb | ⟨1, _⟩, _ => rfl) rfl).trans (wrow_v117 m c n)
  | ⟨2, _⟩ =>
    exact (concatenate_apply_piece (t := S3x4194304) 0 [⟨S1x4194304, V m c main_v116⟩, ⟨S1x4194304, V m c main_v117⟩,
        ⟨S1x4194304, V m c main_v118⟩] concatenates_S1x4194304_S1x4194304_S1x4194304_S3x4194304_d0 _ 2 (show 2 < 3 by decide)
      S1x4194304 (V m c main_v118) rfl rfl 2 rfl (ix2 0 n)
      (fun b hb => match b, hb with | ⟨0, _⟩, hb => absurd rfl hb | ⟨1, _⟩, _ => rfl) rfl).trans (wrow_v118 m c n)

/-- THE PACKED WEIGHTS: plane j, row r, lane l holds column 2 - j of the weights of point 128 r + l. -/
theorem weights_apply (j : Fin 3) (r : Fin 32768) (l : Fin 128) :
    (V m c main_v121 : S3x32768x128.Idx → EReal) (ix3 j r l)
      = (V m c main_v5 : S4194304x3.Idx → EReal) (ix2 (ptOf r l) ⟨2 - j.val, by omega⟩) := by
  rw [at_reshape m c 124 rfl (by decide) (by decide)]
  exact (pack_apply _ _ j r l).trans (wstack_apply m c j (ptOf r l))

end Cert.KernelHost

end
-- ==== Proof.Rows.lean ====
/-
  A stack of eight rows, read at one entry.

  The eight corner rows [1, N] are joined along axis 0 into [8, N]: entry (k, n) of the stack is entry (0, n) of row k.
-/
import Idealize.ShloMosaic.Lib.ValueIdx
import Idealize.ShloMosaic.Lib.Pipeline.Value

noncomputable section

namespace Cert.KernelHost

open Idealize.ShloMosaic Idealize.ShloMosaic.ValueIdx

/-- Row k of the stack of eight rows is the k-th row. -/
theorem rows8_apply {α : Type} {N : Nat} (c0 c1 c2 c3 c4 c5 c6 c7 : (⟨2, ![1, N]⟩ : Shape).Idx → α)
    (h : Shape.Concatenates [⟨2, ![1, N]⟩, ⟨2, ![1, N]⟩, ⟨2, ![1, N]⟩, ⟨2, ![1, N]⟩, ⟨2, ![1, N]⟩, ⟨2, ![1, N]⟩, ⟨2, ![1, N]⟩,
      ⟨2, ![1, N]⟩] ⟨2, ![8, N]⟩ 0) (k : Fin 8) (n : Fin N) :
    concatenate ⟨2, ![8, N]⟩ 0 [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h (ix2 k n)
      = (match k with
          | ⟨0, _⟩ => c0 | ⟨1, _⟩ => c1 | ⟨2, _⟩ => c2 | ⟨3, _⟩ => c3
          | ⟨4, _⟩ => c4 | ⟨5, _⟩ => c5 | ⟨6, _⟩ => c6 | ⟨7, _⟩ => c7) (ix2 0 n) := by
  match k with
  | ⟨0, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 0 (show 0 < 8 by decide) ⟨2, ![1, N]⟩ c0 rfl rfl 0 rfl (ix2 0 n)
      (fun d hd => match d, hd with | ⟨0, _⟩, hd => absurd rfl hd | ⟨1, _⟩, _ => rfl) rfl
  | ⟨1, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 1 (show 1 < 8 by decide) ⟨2, ![1, N]⟩ c1 rfl rfl 1 rfl (ix2 0 n)
      (fun d hd => match d, hd with | ⟨0, _⟩, hd => absurd rfl hd | ⟨1, _⟩, _ => rfl) rfl
  | ⟨2, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 2 (show 2 < 8 by decide) ⟨2, ![1, N]⟩ c2 rfl rfl 2 rfl (ix2 0 n)
      (fun d hd => match d, hd with | ⟨0, _⟩, hd => absurd rfl hd | ⟨1, _⟩, _ => rfl) rfl
  | ⟨3, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 3 (show 3 < 8 by decide) ⟨2, ![1, N]⟩ c3 rfl rfl 3 rfl (ix2 0 n)
      (fun d hd => match d, hd with | ⟨0, _⟩, hd => absurd rfl hd | ⟨1, _⟩, _ => rfl) rfl
  | ⟨4, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 4 (show 4 < 8 by decide) ⟨2, ![1, N]⟩ c4 rfl rfl 4 rfl (ix2 0 n)
      (fun d hd => match d, hd with | ⟨0, _⟩, hd => absurd rfl hd | ⟨1, _⟩, _ => rfl) rfl
  | ⟨5, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 5 (show 5 < 8 by decide) ⟨2, ![1, N]⟩ c5 rfl rfl 5 rfl (ix2 0 n)
      (fun d hd => match d, hd with | ⟨0, _⟩, hd => absurd rfl hd | ⟨1, _⟩, _ => rfl) rfl
  | ⟨6, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 6 (show 6 < 8 by decide) ⟨2, ![1, N]⟩ c6 rfl rfl 6 rfl (ix2 0 n)
      (fun d hd => match d, hd with | ⟨0, _⟩, hd => absurd rfl hd | ⟨1, _⟩, _ => rfl) rfl
  | ⟨7, _⟩ =>
    exact concatenate_apply_piece (t := ⟨2, ![8, N]⟩) (0 : Fin 2) [⟨⟨2, ![1, N]⟩, c0⟩, ⟨⟨2, ![1, N]⟩, c1⟩, ⟨⟨2, ![1, N]⟩, c2⟩, ⟨⟨2, ![1, N]⟩, c3⟩, ⟨⟨2, ![1, N]⟩, c4⟩, ⟨⟨2, ![1, N]⟩, c5⟩, ⟨⟨2, ![1, N]⟩, c6⟩, ⟨⟨2, ![1, N]⟩, c7⟩] h _ 7 (show 7 < 8 by decide) ⟨2, ![1, N]⟩ c7 rfl rfl 7 rfl (ix2 0 n)
      (fun d hd => match d, hd with | ⟨0, _⟩, hd => absurd rfl hd | ⟨1, _⟩, _ => rfl) rfl

end Cert.KernelHost

end
-- ==== Proof.Gather.lean ====
/-
  The brick gather, read at one entry.

  The kernel program fetches the eight corner values of every query point with two gathers from the volume [512, 512, 512]
  at index arrays [N, 2, 2, 3]: entry (n, a, b) of the result is the volume at the three index words
  idx (n, a, b, 0), idx (n, a, b, 1), idx (n, a, b, 2), each read as a signed integer and clamped into [0, 511]
  (every axis is collapsed with slice size 1, so the clamp bound is 512 - 1, and there is neither a batch nor an offset
  coordinate to add).
-/
import Idealize.ShloMosaic.Lib.ValueIdx
import proofs.«161852_j89034672046121_2_alg».proof.Proof.Spec

noncomputable section

namespace Cert.KernelHost

open Idealize.ShloMosaic Idealize.ShloMosaic.ValueIdx

section Brick

variable {α : Type}

/-- The dimension numbers of the brick gather for an operand [512, 512, 512], start indices [N, 2, 2, 3] and a result
    [N, 2, 2]: all three operand axes collapsed, the start index a vector along the last axis of the indices. -/
abbrev brickDims (N : Nat)
    (wf : GatherDims.WF ⟨3, ![512, 512, 512]⟩ ⟨4, ![N, 2, 2, 3]⟩ ⟨3, ![N, 2, 2]⟩ [] [0, 1, 2] [] [0, 1, 2] [] 3 ![1, 1, 1]) :
    GatherDims ⟨3, ![512, 512, 512]⟩ ⟨4, ![N, 2, 2, 3]⟩ ⟨3, ![N, 2, 2]⟩ where
  offsetDims := []
  collapsedSliceDims := [0, 1, 2]
  operandBatchingDims := []
  startIndicesBatchingDims := []
  startIndexMap := [0, 1, 2]
  indexVectorDim := 3
  sliceSizes := ![1, 1, 1]
  wf := wf

/-- The start of the slice on operand axis q for result entry (n, a, b): word q of the start index at (n, a, b), read
    signed and clamped by 511. -/
theorem brick_start {N : Nat}
    (wf : GatherDims.WF ⟨3, ![512, 512, 512]⟩ ⟨4, ![N, 2, 2, 3]⟩ ⟨3, ![N, 2, 2]⟩ [] [0, 1, 2] [] [0, 1, 2] [] 3 ![1, 1, 1])
    (idx : IVec ⟨4, ![N, 2, 2, 3]⟩ 32) (n : Fin N) (a b : Fin 2) (q : Fin 3) :
    (brickDims N wf).start (ix3 n a b) idx q = min (idx (ix4 n a b q)).toInt.toNat 511 := by
  have hq : q ∈ (brickDims N wf).startIndexMap := by
    show q ∈ ([0, 1, 2] : List (Fin 3))
    fin_cases q <;> simp
  unfold GatherDims.start
  rw [dif_pos hq]
  have hsi : (brickDims N wf).siIdx (ix3 n a b) ⟨List.idxOf q (brickDims N wf).startIndexMap,
      List.idxOf_lt_length_iff.2 hq⟩ = ix4 n a b q := by
    funext d
    refine Fin.ext ?_
    fin_cases q <;> (match d with
      | ⟨0, _⟩ => rfl
      | ⟨1, _⟩ => rfl
      | ⟨2, _⟩ => rfl
      | ⟨3, _⟩ => rfl)
  rw [hsi]
  fin_cases q <;> rfl

/-- THE BRICK GATHER READ AT (n, a, b): the volume at the three index words of (n, a, b), each read signed and clamped
    into [0, 511]. -/
theorem gather_brick_apply {N : Nat}
    (wf : GatherDims.WF ⟨3, ![512, 512, 512]⟩ ⟨4, ![N, 2, 2, 3]⟩ ⟨3, ![N, 2, 2]⟩ [] [0, 1, 2] [] [0, 1, 2] [] 3 ![1, 1, 1])
    (x : (⟨3, ![512, 512, 512]⟩ : Shape).Idx → α) (idx : IVec ⟨4, ![N, 2, 2, 3]⟩ 32) (n : Fin N) (a b : Fin 2) :
    Host.gather (brickDims N wf) x idx (ix3 n a b)
      = x (ix3 (Cert.Spec.cl (idx (ix4 n a b 0))) (Cert.Spec.cl (idx (ix4 n a b 1))) (Cert.Spec.cl (idx (ix4 n a b 2)))) := by
  unfold Host.gather
  congr 1
  funext ax
  refine Fin.ext ?_
  show (brickDims N wf).start (ix3 n a b) idx ax + (brickDims N wf).batchCoord (ix3 n a b) ax
      + (brickDims N wf).offCoord (ix3 n a b) ax = _
  have hc : ax ∈ (brickDims N wf).collapsedSliceDims := by
    show ax ∈ ([0, 1, 2] : List (Fin 3))
    fin_cases ax <;> simp
  rw [GatherDims.batchCoord_eq_zero _ _ _ List.not_mem_nil,
    GatherDims.offCoord_eq_zero _ _ _ (fun h => ((GatherDims.mem_sKept _ _).mp h).1 hc), Nat.add_zero,
    brick_start]
  match ax with
  | ⟨0, _⟩ => rfl
  | ⟨1, _⟩ => rfl
  | ⟨2, _⟩ => rfl

end Brick

end Cert.KernelHost

end
-- ==== Proof.Wrap.lean ====
/-
  The wrap of an index word, entry by entry.

  Before every gather the host wraps each index word by the axis length: select (v < 0) (v + 512) v, with the constants 0
  and 512 broadcast to the array's shape. Read at one entry this is Cert.Spec.wrap of the word there, which is the same
  three operations on a one-entry array.
-/
import Idealize.ShloMosaic.Lib.ValueIdx
import proofs.«161852_j89034672046121_2_alg».proof.Proof.Spec

noncomputable section

namespace Cert.KernelHost

open Idealize.ShloMosaic Idealize.ShloMosaic.ValueIdx

/-- select (v < z) (v + k) v at an entry where z holds 0 and k holds 512 is the wrap of v's word there. -/
theorem wrap_apply {s : Shape} (v z k : IVec s 32) (i : s.Idx) (hz : z i = 0#32) (hk : k i = 512#32) :
    select (cmpi .slt v z) (addi v k) v i = Cert.Spec.wrap (v i) := by
  show Scalar.select (IntOp.cmpi .slt (v i) (z i)) (IntOp.addi (v i) (k i)) (v i) = _
  rw [hz, hk]
  rfl

end Cert.KernelHost

end
-- ==== Proof.Pairs.lean ====
/-
  The two pair arrays both index bricks are built from, and the concatenations that build them and the bricks.

  The kernel program lays the two candidate y indices of every point side by side, main_v35 [N, 2] = (y0 | y1), and
  likewise the two candidate x indices, main_v38 [N, 2] = (x0 | x1): each is the concatenation along axis 1 of two
  vectors turned into [N, 1] columns. Entry (n, a) of the y pair is y0 n when a = 0 and y1 n when a = 1; the same for
  the x pair. Both index bricks [N, 2, 2, 3] read these two arrays, and are themselves concatenations along the last
  axis of three [N, 2, 2, 1] arrays of z, y and x words.

  First the two concatenations read at an index, for any pieces; then the two pair arrays.
-/
import proofs.«161852_j89034672046121_2_alg».proof.Proof.HostLine
import proofs.«161852_j89034672046121_2_alg».proof.Proof.HostLineAt
import proofs.«161852_j89034672046121_2_alg».proof.Proof.Reads
import Idealize.ShloMosaic.Lib.ValueIdx
import Idealize.ShloMosaic.Lib.Pipeline.Value
import Idealize.ShloMosaic.Lib.StableHlo.Run

noncomputable section

namespace Cert.KernelHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-! ## Concatenations read at an index -/

section Concat
variable {α : Type}

/-- Two [N, 1] columns side by side, read at (n, 0): the first column at (n, 0) (coordinate 0 lies in the first piece's
    span [0, 1) of the joined axis). -/
theorem pair_apply_0 {N : Nat} (c0 c1 : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, c0⟩, ⟨⟨2, ![N, 1]⟩, c1⟩] h (ix2 n (0 : Fin 2)) = c0 (ix2 n (0 : Fin 1)) := by
  refine concatenate_apply_piece (t := ⟨2, ![N, 2]⟩) (1 : Fin 2) [⟨⟨2, ![N, 1]⟩, c0⟩, ⟨⟨2, ![N, 1]⟩, c1⟩] h
    (ix2 n (0 : Fin 2)) 0 (show 0 < 2 by decide) ⟨2, ![N, 1]⟩ c0 rfl rfl 0 rfl (ix2 n (0 : Fin 1)) ?_ rfl
  intro d hd
  match d with
  | ⟨0, _⟩ => rfl
  | ⟨1, _⟩ => exact absurd rfl hd

/-- … read at (n, 1): the second column at (n, 0) (coordinate 1 lies in the second piece's span [1, 2)). -/
theorem pair_apply_1 {N : Nat} (c0 c1 : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, c0⟩, ⟨⟨2, ![N, 1]⟩, c1⟩] h (ix2 n (1 : Fin 2)) = c1 (ix2 n (0 : Fin 1)) := by
  refine concatenate_apply_piece (t := ⟨2, ![N, 2]⟩) (1 : Fin 2) [⟨⟨2, ![N, 1]⟩, c0⟩, ⟨⟨2, ![N, 1]⟩, c1⟩] h
    (ix2 n (1 : Fin 2)) 1 (show 1 < 2 by decide) ⟨2, ![N, 1]⟩ c1 rfl rfl 1 rfl (ix2 n (0 : Fin 1)) ?_ rfl
  intro d hd
  match d with
  | ⟨0, _⟩ => rfl
  | ⟨1, _⟩ => exact absurd rfl hd

/-- Three [N, 2, 2, 1] arrays joined along the last axis, read at (n, a, b, 0): the first array at (n, a, b, 0). -/
theorem concat4_apply_0 {N : Nat} (c0 c1 c2 : (⟨4, ![N, 2, 2, 1]⟩ : Shape).Idx → α)
    (h : Shape.Concatenates [⟨4, ![N, 2, 2, 1]⟩, ⟨4, ![N, 2, 2, 1]⟩, ⟨4, ![N, 2, 2, 1]⟩] ⟨4, ![N, 2, 2, 3]⟩ 3)
    (n : Fin N) (a b : Fin 2) :
    concatenate ⟨4, ![N, 2, 2, 3]⟩ 3 [⟨⟨4, ![N, 2, 2, 1]⟩, c0⟩, ⟨⟨4, ![N, 2, 2, 1]⟩, c1⟩, ⟨⟨4, ![N, 2, 2, 1]⟩, c2⟩] h
      (ix4 n a b (0 : Fin 3)) = c0 (ix4 n a b (0 : Fin 1)) := by
  refine concatenate_apply_piece (t := ⟨4, ![N, 2, 2, 3]⟩) (3 : Fin 4)
    [⟨⟨4, ![N, 2, 2, 1]⟩, c0⟩, ⟨⟨4, ![N, 2, 2, 1]⟩, c1⟩, ⟨⟨4, ![N, 2, 2, 1]⟩, c2⟩] h
    (ix4 n a b (0 : Fin 3)) 0 (show 0 < 3 by decide) ⟨4, ![N, 2, 2, 1]⟩ c0 rfl rfl 0 rfl (ix4 n a b (0 : Fin 1)) ?_ rfl
  intro d hd
  match d with
  | ⟨0, _⟩ => rfl
  | ⟨1, _⟩ => rfl
  | ⟨2, _⟩ => rfl
  | ⟨3, _⟩ => exact absurd rfl hd

/-- … read at (n, a, b, 1): the second array at (n, a, b, 0). -/
theorem concat4_apply_1 {N : Nat} (c0 c1 c2 : (⟨4, ![N, 2, 2, 1]⟩ : Shape).Idx → α)
    (h : Shape.Concatenates [⟨4, ![N, 2, 2, 1]⟩, ⟨4, ![N, 2, 2, 1]⟩, ⟨4, ![N, 2, 2, 1]⟩] ⟨4, ![N, 2, 2, 3]⟩ 3)
    (n : Fin N) (a b : Fin 2) :
    concatenate ⟨4, ![N, 2, 2, 3]⟩ 3 [⟨⟨4, ![N, 2, 2, 1]⟩, c0⟩, ⟨⟨4, ![N, 2, 2, 1]⟩, c1⟩, ⟨⟨4, ![N, 2, 2, 1]⟩, c2⟩] h
      (ix4 n a b (1 : Fin 3)) = c1 (ix4 n a b (0 : Fin 1)) := by
  refine concatenate_apply_piece (t := ⟨4, ![N, 2, 2, 3]⟩) (3 : Fin 4)
    [⟨⟨4, ![N, 2, 2, 1]⟩, c0⟩, ⟨⟨4, ![N, 2, 2, 1]⟩, c1⟩, ⟨⟨4, ![N, 2, 2, 1]⟩, c2⟩] h
    (ix4 n a b (1 : Fin 3)) 1 (show 1 < 3 by decide) ⟨4, ![N, 2, 2, 1]⟩ c1 rfl rfl 1 rfl (ix4 n a b (0 : Fin 1)) ?_ rfl
  intro d hd
  match d with
  | ⟨0, _⟩ => rfl
  | ⟨1, _⟩ => rfl
  | ⟨2, _⟩ => rfl
  | ⟨3, _⟩ => exact absurd rfl hd

/-- … read at (n, a, b, 2): the third array at (n, a, b, 0). -/
theorem concat4_apply_2 {N : Nat} (c0 c1 c2 : (⟨4, ![N, 2, 2, 1]⟩ : Shape).Idx → α)
    (h : Shape.Concatenates [⟨4, ![N, 2, 2, 1]⟩, ⟨4, ![N, 2, 2, 1]⟩, ⟨4, ![N, 2, 2, 1]⟩] ⟨4, ![N, 2, 2, 3]⟩ 3)
    (n : Fin N) (a b : Fin 2) :
    concatenate ⟨4, ![N, 2, 2, 3]⟩ 3 [⟨⟨4, ![N, 2, 2, 1]⟩, c0⟩, ⟨⟨4, ![N, 2, 2, 1]⟩, c1⟩, ⟨⟨4, ![N, 2, 2, 1]⟩, c2⟩] h
      (ix4 n a b (2 : Fin 3)) = c2 (ix4 n a b (0 : Fin 1)) := by
  refine concatenate_apply_piece (t := ⟨4, ![N, 2, 2, 3]⟩) (3 : Fin 4)
    [⟨⟨4, ![N, 2, 2, 1]⟩, c0⟩, ⟨⟨4, ![N, 2, 2, 1]⟩, c1⟩, ⟨⟨4, ![N, 2, 2, 1]⟩, c2⟩] h
    (ix4 n a b (2 : Fin 3)) 2 (show 2 < 3 by decide) ⟨4, ![N, 2, 2, 1]⟩ c2 rfl rfl 2 rfl (ix4 n a b (0 : Fin 1)) ?_ rfl
  intro d hd
  match d with
  | ⟨0, _⟩ => rfl
  | ⟨1, _⟩ => rfl
  | ⟨2, _⟩ => rfl
  | ⟨3, _⟩ => exact absurd rfl hd

end Concat

/-! ## The two pair arrays -/

variable (m : (ℓ : Loc nD τ sig) → Buf (Elt Ideal) ℓ) (c : Dev nD)

/-- THE Y PAIR: entry (n, a) of main_v35 is y0 n (main_v11) when a = 0 and y1 n (main_v22) when a = 1. -/
theorem ypair_apply (n : Fin 4194304) (a : Fin 2) :
    (V m c main_v35 : S4194304x2.Idx → BitVec 32) (ix2 n a)
      = (if a.val = 0 then (V m c main_v11 : S4194304.Idx → BitVec 32) else (V m c main_v22 : S4194304.Idx → BitVec 32)) (ix1 n) := by
  rw [at_binary m c 26 rfl (by decide) (by decide) (by decide)]
  show concatenate S4194304x2 1 [⟨S4194304x1, V m c main_v33⟩, ⟨S4194304x1, V m c main_v34⟩]
    concatenates_S4194304x1_S4194304x1_S4194304x2_d1 (ix2 n a) = _
  match a with
  | ⟨0, _⟩ =>
    rw [if_pos rfl]
    refine (pair_apply_0 _ _ _ n).trans ?_
    rw [at_unary m c 24 rfl (by decide) (by decide)]
    exact colIn_apply _ _ n
  | ⟨1, _⟩ =>
    rw [if_neg Nat.one_ne_zero]
    refine (pair_apply_1 _ _ _ n).trans ?_
    rw [at_unary m c 25 rfl (by decide) (by decide)]
    exact colIn_apply _ _ n

/-- THE X PAIR: entry (n, b) of main_v38 is x0 n (main_v14) when b = 0 and x1 n (main_v26) when b = 1. -/
theorem xpair_apply (n : Fin 4194304) (b : Fin 2) :
    (V m c main_v38 : S4194304x2.Idx → BitVec 32) (ix2 n b)
      = (if b.val = 0 then (V m c main_v14 : S4194304.Idx → BitVec 32) else (V m c main_v26 : S4194304.Idx → BitVec 32)) (ix1 n) := by
  rw [at_binary m c 29 rfl (by decide) (by decide) (by decide)]
  show concatenate S4194304x2 1 [⟨S4194304x1, V m c main_v36⟩, ⟨S4194304x1, V m c main_v37⟩]
    concatenates_S4194304x1_S4194304x1_S4194304x2_d1 (ix2 n b) = _
  match b with
  | ⟨0, _⟩ =>
    rw [if_pos rfl]
    refine (pair_apply_0 _ _ _ n).trans ?_
    rw [at_unary m c 27 rfl (by decide) (by decide)]
    exact colIn_apply _ _ n
  | ⟨1, _⟩ =>
    rw [if_neg Nat.one_ne_zero]
    refine (pair_apply_1 _ _ _ n).trans ?_
    rw [at_unary m c 28 rfl (by decide) (by decide)]
    exact colIn_apply _ _ n

end Cert.KernelHost

end
-- ==== Proof.Brick0.lean ====
/-
  The first brick of corner values, entry by entry.

  For every query point n the host gathers four corner values at once: entry (n, a, b) of the brick is the volume at
  (z0 n, a = 0 ? y0 n : y1 n, b = 0 ? x0 n : x1 n), each word wrapped by the axis length and clamped by the gather. The
  index array [N, 2, 2, 3] is a concatenation of three word arrays: word 0 is z0 repeated over the brick, word 1 the
  pair (y0, y1) repeated along the last axis, word 2 the pair (x0, x1) repeated along the middle axis; each is wrapped
  (select (v < 0) (v + 512) v) before it is repeated. The proof follows one entry of the gather back to the index vectors.
-/
import proofs.«161852_j89034672046121_2_alg».proof.Proof.HostLine
import proofs.«161852_j89034672046121_2_alg».proof.Proof.HostLineAt
import proofs.«161852_j89034672046121_2_alg».proof.Proof.Reads
import proofs.«161852_j89034672046121_2_alg».proof.Proof.Gather
import proofs.«161852_j89034672046121_2_alg».proof.Proof.Wrap
import proofs.«161852_j89034672046121_2_alg».proof.Proof.Pairs
import Idealize.ShloMosaic.Lib.ValueIdx
import Idealize.ShloMosaic.Lib.Pipeline.Value
import Idealize.ShloMosaic.Lib.ValueLayout
import Idealize.ShloMosaic.Lib.StableHlo.Run

noncomputable section

namespace Cert.KernelHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ### The three wrapped word arrays -/

/-- The constant 0 broadcast over S4194304x1x1. -/
theorem b0_wrapz_zero (i : S4194304x1x1.Idx) : (V m c main_v42 : S4194304x1x1.Idx → BitVec 32) i = 0#32 := by
  rw [at_unary m c 34 rfl (by decide) (by decide), at_nullary m c 33 rfl (by decide)]
  exact broadcastInDim_scalar_apply _ _ i

/-- The constant 512 broadcast over S4194304x1x1. -/
theorem b0_wrapz_len (i : S4194304x1x1.Idx) : (V m c main_v44 : S4194304x1x1.Idx → BitVec 32) i = 512#32 := by
  rw [at_unary m c 37 rfl (by decide) (by decide), at_nullary m c 36 rfl (by decide)]
  exact broadcastInDim_scalar_apply _ _ i

/-- The z word of the brick, wrapped: over [N, 1, 1]. -/
theorem b0_wrapz (i : S4194304x1x1.Idx) :
    (V m c main_v46 : S4194304x1x1.Idx → BitVec 32) i = Cert.Spec.wrap ((V m c main_v39 : S4194304x1x1.Idx → BitVec 32) i) := by
  rw [at_ternary m c 39 rfl (by decide) (by decide) (by decide) (by decide),
    at_binary m c 35 rfl (by decide) (by decide) (by decide),
    at_binary m c 38 rfl (by decide) (by decide) (by decide)]
  exact wrap_apply (s := S4194304x1x1) (V m c main_v39) (V m c main_v42) (V m c main_v44) i (b0_wrapz_zero m c i) (b0_wrapz_len m c i)

/-- The constant 0 broadcast over S4194304x2x1. -/
theorem b0_wrapy_zero (i : S4194304x2x1.Idx) : (V m c main_v47 : S4194304x2x1.Idx → BitVec 32) i = 0#32 := by
  rw [at_unary m c 41 rfl (by decide) (by decide), at_nullary m c 40 rfl (by decide)]
  exact broadcastInDim_scalar_apply _ _ i

/-- The constant 512 broadcast over S4194304x2x1. -/
theorem b0_wrapy_len (i : S4194304x2x1.Idx) : (V m c main_v49 : S4194304x2x1.Idx → BitVec 32) i = 512#32 := by
  rw [at_unary m c 44 rfl (by decide) (by decide), at_nullary m c 43 rfl (by decide)]
  exact broadcastInDim_scalar_apply _ _ i

/-- The y words of the brick, wrapped: over [N, 2, 1]. -/
theorem b0_wrapy (i : S4194304x2x1.Idx) :
    (V m c main_v51 : S4194304x2x1.Idx → BitVec 32) i = Cert.Spec.wrap ((V m c main_v40 : S4194304x2x1.Idx → BitVec 32) i) := by
  rw [at_ternary m c 46 rfl (by decide) (by decide) (by decide) (by decide),
    at_binary m c 42 rfl (by decide) (by decide) (by decide),
    at_binary m c 45 rfl (by decide) (by decide) (by decide)]
  exact wrap_apply (s := S4194304x2x1) (V m c main_v40) (V m c main_v47) (V m c main_v49) i (b0_wrapy_zero m c i) (b0_wrapy_len m c i)

/-- The constant 0 broadcast over S4194304x1x2. -/
theorem b0_wrapx_zero (i : S4194304x1x2.Idx) : (V m c main_v52 : S4194304x1x2.Idx → BitVec 32) i = 0#32 := by
  rw [at_unary m c 48 rfl (by decide) (by decide), at_nullary m c 47 rfl (by decide)]
  exact broadcastInDim_scalar_apply _ _ i

/-- The constant 512 broadcast over S4194304x1x2. -/
theorem b0_wrapx_len (i : S4194304x1x2.Idx) : (V m c main_v54 : S4194304x1x2.Idx → BitVec 32) i = 512#32 := by
  rw [at_unary m c 51 rfl (by decide) (by decide), at_nullary m c 50 rfl (by decide)]
  exact broadcastInDim_scalar_apply _ _ i

/-- The x words of the brick, wrapped: over [N, 1, 2]. -/
theorem b0_wrapx (i : S4194304x1x2.Idx) :
    (V m c main_v56 : S4194304x1x2.Idx → BitVec 32) i = Cert.Spec.wrap ((V m c main_v41 : S4194304x1x2.Idx → BitVec 32) i) := by
  rw [at_ternary m c 53 rfl (by decide) (by decide) (by decide) (by decide),
    at_binary m c 49 rfl (by decide) (by decide) (by decide),
    at_binary m c 52 rfl (by decide) (by decide) (by decide)]
  exact wrap_apply (s := S4194304x1x2) (V m c main_v41) (V m c main_v52) (V m c main_v54) i (b0_wrapx_zero m c i) (b0_wrapx_len m c i)

/-! ### The three words of the start index at (n, a, b) -/

/-- Word 0 at (n, a, b): the wrap of z0 n. -/
theorem b0_word0 (n : Fin 4194304) (a b : Fin 2) :
    (V m c main_v63 : S4194304x2x2x3.Idx → BitVec 32) (ix4 n a b 0)
      = Cert.Spec.wrap ((V m c main_v8 : S4194304.Idx → BitVec 32) (ix1 n)) := by
  rw [at_nary m c 60 rfl (by decide) (by decide)]
  show concatenate S4194304x2x2x3 3 [⟨S4194304x2x2x1, V m c main_v60⟩, ⟨S4194304x2x2x1, V m c main_v61⟩,
    ⟨S4194304x2x2x1, V m c main_v62⟩] concatenates_S4194304x2x2x1_S4194304x2x2x1_S4194304x2x2x1_S4194304x2x2x3_d3
    (ix4 n a b 0) = _
  refine (concat4_apply_0 _ _ _ _ n a b).trans ?_
  rw [at_unary m c 57 rfl (by decide) (by decide)]
  refine (brickWord_apply _ _ n a b).trans ?_
  rw [at_unary m c 54 rfl (by decide) (by decide)]
  refine (brickZ_apply _ _ n a b).trans ?_
  rw [b0_wrapz m c (ix3 n 0 0), at_unary m c 30 rfl (by decide) (by decide)]
  exact congrArg Cert.Spec.wrap (cellIn_apply _ _ n)

/-- Word 1 at (n, a, b): the wrap of entry (n, a) of the pair (y0, y1). -/
theorem b0_word1 (n : Fin 4194304) (a b : Fin 2) :
    (V m c main_v63 : S4194304x2x2x3.Idx → BitVec 32) (ix4 n a b 1)
      = Cert.Spec.wrap ((V m c main_v35 : S4194304x2.Idx → BitVec 32) (ix2 n a)) := by
  rw [at_nary m c 60 rfl (by decide) (by decide)]
  show concatenate S4194304x2x2x3 3 [⟨S4194304x2x2x1, V m c main_v60⟩, ⟨S4194304x2x2x1, V m c main_v61⟩,
    ⟨S4194304x2x2x1, V m c main_v62⟩] concatenates_S4194304x2x2x1_S4194304x2x2x1_S4194304x2x2x1_S4194304x2x2x3_d3
    (ix4 n a b 1) = _
  refine (concat4_apply_1 _ _ _ _ n a b).trans ?_
  rw [at_unary m c 58 rfl (by decide) (by decide)]
  refine (brickWord_apply _ _ n a b).trans ?_
  rw [at_unary m c 55 rfl (by decide) (by decide)]
  refine (brickY_apply _ _ n a b).trans ?_
  rw [b0_wrapy m c (ix3 n a 0), at_unary m c 31 rfl (by decide) (by decide)]
  exact congrArg Cert.Spec.wrap (pairMid_apply _ _ n a)

/-- Word 2 at (n, a, b): the wrap of entry (n, b) of the pair (x0, x1). -/
theorem b0_word2 (n : Fin 4194304) (a b : Fin 2) :
    (V m c main_v63 : S4194304x2x2x3.Idx → BitVec 32) (ix4 n a b 2)
      = Cert.Spec.wrap ((V m c main_v38 : S4194304x2.Idx → BitVec 32) (ix2 n b)) := by
  rw [at_nary m c 60 rfl (by decide) (by decide)]
  show concatenate S4194304x2x2x3 3 [⟨S4194304x2x2x1, V m c main_v60⟩, ⟨S4194304x2x2x1, V m c main_v61⟩,
    ⟨S4194304x2x2x1, V m c main_v62⟩] concatenates_S4194304x2x2x1_S4194304x2x2x1_S4194304x2x2x1_S4194304x2x2x3_d3
    (ix4 n a b 2) = _
  refine (concat4_apply_2 _ _ _ _ n a b).trans ?_
  rw [at_unary m c 59 rfl (by decide) (by decide)]
  refine (brickWord_apply _ _ n a b).trans ?_
  rw [at_unary m c 56 rfl (by decide) (by decide)]
  refine (brickX_apply _ _ n a b).trans ?_
  rw [b0_wrapx m c (ix3 n 0 b), at_unary m c 32 rfl (by decide) (by decide)]
  exact congrArg Cert.Spec.wrap (pairLast_apply _ _ n b)

/-! ### The brick -/

/-- THE FIRST BRICK AT (n, a, b): the volume at (z0 n, y0 n or y1 n by a, x0 n or x1 n by b), each word wrapped and
    clamped. -/
theorem brick0_apply (n : Fin 4194304) (a b : Fin 2) :
    (V m c main_v64 : S4194304x2x2.Idx → EReal) (ix3 n a b)
      = Cert.Spec.at3 (V m c main_arg1) ((V m c main_v8 : S4194304.Idx → BitVec 32) (ix1 n))
          ((if a.val = 0 then (V m c main_v11 : S4194304.Idx → BitVec 32) else (V m c main_v22 : S4194304.Idx → BitVec 32)) (ix1 n))
          ((if b.val = 0 then (V m c main_v14 : S4194304.Idx → BitVec 32) else (V m c main_v26 : S4194304.Idx → BitVec 32)) (ix1 n)) := by
  rw [at_binary m c 61 rfl (by decide) (by decide) (by decide)]
  show Host.gather (brickDims 4194304 _)
    (V m c main_arg1) (V m c main_v63) (ix3 n a b) = _
  rw [gather_brick_apply, b0_word0 m c n a b, b0_word1 m c n a b, b0_word2 m c n a b, ypair_apply m c n a,
    xpair_apply m c n b]
  unfold Cert.Spec.at3
  rfl

end Cert.KernelHost

end
-- ==== Proof.Brick1.lean ====
/-
  The second index brick and its gather, entry by entry.

  For the upper z plane the kernel program fetches four corner values per query point with ONE gather of the volume at
  an index array main_v89 [N, 2, 2, 3]: entry (n, a, b) holds the three index words (z1 n, y_a n, x_b n), where
  y_0 = y0, y_1 = y1, x_0 = x0, x_1 = x1. The host builds it from z1 [N] laid along the first axis of [N, 1, 1], the y pair
  [N, 2] as [N, 2, 1] and the x pair [N, 2] as [N, 1, 2]; each of the three is wrapped by the axis length (v + 512 where
  v < 0), repeated over the brick [N, 2, 2], given a trailing unit axis, and the three are joined along that axis. The
  gather reads each word signed and clamps it into [0, 511]. So entry (n, a, b) of the gather's result main_v90 is the
  volume entry addressed by the words z1 n, y_a n, x_b n: Spec.at3.

  Each step moves or wraps entries one by one, so the proof follows the three words of entry (n, a, b) back through
  the steps to the index vectors.
-/
import proofs.«161852_j89034672046121_2_alg».proof.Proof.HostLine
import proofs.«161852_j89034672046121_2_alg».proof.Proof.HostLineAt
import proofs.«161852_j89034672046121_2_alg».proof.Proof.Reads
import proofs.«161852_j89034672046121_2_alg».proof.Proof.Gather
import proofs.«161852_j89034672046121_2_alg».proof.Proof.Wrap
import proofs.«161852_j89034672046121_2_alg».proof.Proof.Pairs
import proofs.«161852_j89034672046121_2_alg».proof.Proof.Spec
import Idealize.ShloMosaic.Lib.ValueIdx
import Idealize.ShloMosaic.Lib.Pipeline.Value
import Idealize.ShloMosaic.Lib.StableHlo.Run

noncomputable section

namespace Cert.KernelHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-- A scalar spread over any shape (broadcast_in_dim, dims = []) reads the scalar everywhere. -/
theorem b1_splat_apply {α : Type} {t : Shape} (h : S_.BroadcastsInDim t (![] : Fin 0 → Fin t.rank)) (y : S_.Idx → α)
    (i : t.Idx) : broadcastInDim t ![] h y i = y ix0 :=
  broadcastInDim_apply _ h y i ix0 (fun a => a.elim0)

variable (m : (ℓ : Loc nD τ sig) → Buf (Elt Ideal) ℓ) (c : Dev nD)

/-! ### The three wrapped arrays -/

/-- The wrapped z array main_v72 [N, 1, 1] at (n, 0, 0): the wrap of z1 n. -/
theorem b1_z (n : Fin 4194304) :
    (V m c main_v72 : S4194304x1x1.Idx → BitVec 32) (ix3 n 0 0)
      = Cert.Spec.wrap ((V m c main_v18 : S4194304.Idx → BitVec 32) (ix1 n)) := by
  rw [at_ternary m c 71 rfl (by decide) (by decide) (by decide) (by decide),
    at_binary m c 67 rfl (by decide) (by decide) (by decide),
    at_binary m c 70 rfl (by decide) (by decide) (by decide)]
  refine (wrap_apply (V m c main_v65) (V m c main_v68) (V m c main_v70) (ix3 n 0 0) ?_ ?_).trans ?_
  · rw [at_unary m c 66 rfl (by decide) (by decide), at_nullary m c 65 rfl (by decide)]
    exact b1_splat_apply _ _ _
  · rw [at_unary m c 69 rfl (by decide) (by decide), at_nullary m c 68 rfl (by decide)]
    exact b1_splat_apply _ _ _
  · rw [at_unary m c 62 rfl (by decide) (by decide)]
    exact congrArg Cert.Spec.wrap (cellIn_apply _ _ n)

/-- The wrapped y array main_v77 [N, 2, 1] at (n, a, 0): the wrap of y_a n. -/
theorem b1_y (n : Fin 4194304) (a : Fin 2) :
    (V m c main_v77 : S4194304x2x1.Idx → BitVec 32) (ix3 n a 0)
      = Cert.Spec.wrap ((if a.val = 0 then (V m c main_v11 : S4194304.Idx → BitVec 32)
          else (V m c main_v22 : S4194304.Idx → BitVec 32)) (ix1 n)) := by
  rw [at_ternary m c 78 rfl (by decide) (by decide) (by decide) (by decide),
    at_binary m c 74 rfl (by decide) (by decide) (by decide),
    at_binary m c 77 rfl (by decide) (by decide) (by decide)]
  refine (wrap_apply (V m c main_v66) (V m c main_v73) (V m c main_v75) (ix3 n a 0) ?_ ?_).trans ?_
  · rw [at_unary m c 73 rfl (by decide) (by decide), at_nullary m c 72 rfl (by decide)]
    exact b1_splat_apply _ _ _
  · rw [at_unary m c 76 rfl (by decide) (by decide), at_nullary m c 75 rfl (by decide)]
    exact b1_splat_apply _ _ _
  · rw [at_unary m c 63 rfl (by decide) (by decide)]
    exact congrArg Cert.Spec.wrap ((pairMid_apply _ _ n a).trans (ypair_apply m c n a))

/-- The wrapped x array main_v82 [N, 1, 2] at (n, 0, b): the wrap of x_b n. -/
theorem b1_x (n : Fin 4194304) (b : Fin 2) :
    (V m c main_v82 : S4194304x1x2.Idx → BitVec 32) (ix3 n 0 b)
      = Cert.Spec.wrap ((if b.val = 0 then (V m c main_v14 : S4194304.Idx → BitVec 32)
          else (V m c main_v26 : S4194304.Idx → BitVec 32)) (ix1 n)) := by
  rw [at_ternary m c 85 rfl (by decide) (by decide) (by decide) (by decide),
    at_binary m c 81 rfl (by decide) (by decide) (by decide),
    at_binary m c 84 rfl (by decide) (by decide) (by decide)]
  refine (wrap_apply (V m c main_v67) (V m c main_v78) (V m c main_v80) (ix3 n 0 b) ?_ ?_).trans ?_
  · rw [at_unary m c 80 rfl (by decide) (by decide), at_nullary m c 79 rfl (by decide)]
    exact b1_splat_apply _ _ _
  · rw [at_unary m c 83 rfl (by decide) (by decide), at_nullary m c 82 rfl (by decide)]
    exact b1_splat_apply _ _ _
  · rw [at_unary m c 64 rfl (by decide) (by decide)]
    exact congrArg Cert.Spec.wrap ((pairLast_apply _ _ n b).trans (xpair_apply m c n b))

/-! ### The three words of entry (n, a, b) of the index brick -/

/-- Word 0 of entry (n, a, b) of main_v89: the wrapped z1 n (the z array is repeated over the brick). -/
theorem b1_word0 (n : Fin 4194304) (a b : Fin 2) :
    (V m c main_v89 : S4194304x2x2x3.Idx → BitVec 32) (ix4 n a b 0)
      = Cert.Spec.wrap ((V m c main_v18 : S4194304.Idx → BitVec 32) (ix1 n)) := by
  rw [at_nary m c 92 rfl (by decide) (by decide)]
  show concatenate S4194304x2x2x3 3 [⟨S4194304x2x2x1, V m c main_v86⟩, ⟨S4194304x2x2x1, V m c main_v87⟩,
    ⟨S4194304x2x2x1, V m c main_v88⟩] concatenates_S4194304x2x2x1_S4194304x2x2x1_S4194304x2x2x1_S4194304x2x2x3_d3
    (ix4 n a b 0) = _
  refine (concat4_apply_0 _ _ _ _ n a b).trans ?_
  rw [at_unary m c 89 rfl (by decide) (by decide)]
  refine (brickWord_apply _ _ n a b).trans ?_
  rw [at_unary m c 86 rfl (by decide) (by decide)]
  exact (brickZ_apply _ _ n a b).trans (b1_z m c n)

/-- Word 1 of entry (n, a, b) of main_v89: the wrapped y_a n (the y array is repeated along the last brick axis). -/
theorem b1_word1 (n : Fin 4194304) (a b : Fin 2) :
    (V m c main_v89 : S4194304x2x2x3.Idx → BitVec 32) (ix4 n a b 1)
      = Cert.Spec.wrap ((if a.val = 0 then (V m c main_v11 : S4194304.Idx → BitVec 32)
          else (V m c main_v22 : S4194304.Idx → BitVec 32)) (ix1 n)) := by
  rw [at_nary m c 92 rfl (by decide) (by decide)]
  show concatenate S4194304x2x2x3 3 [⟨S4194304x2x2x1, V m c main_v86⟩, ⟨S4194304x2x2x1, V m c main_v87⟩,
    ⟨S4194304x2x2x1, V m c main_v88⟩] concatenates_S4194304x2x2x1_S4194304x2x2x1_S4194304x2x2x1_S4194304x2x2x3_d3
    (ix4 n a b 1) = _
  refine (concat4_apply_1 _ _ _ _ n a b).trans ?_
  rw [at_unary m c 90 rfl (by decide) (by decide)]
  refine (brickWord_apply _ _ n a b).trans ?_
  rw [at_unary m c 87 rfl (by decide) (by decide)]
  exact (brickY_apply _ _ n a b).trans (b1_y m c n a)

/-- Word 2 of entry (n, a, b) of main_v89: the wrapped x_b n (the x array is repeated along the middle brick axis). -/
theorem b1_word2 (n : Fin 4194304) (a b : Fin 2) :
    (V m c main_v89 : S4194304x2x2x3.Idx → BitVec 32) (ix4 n a b 2)
      = Cert.Spec.wrap ((if b.val = 0 then (V m c main_v14 : S4194304.Idx → BitVec 32)
          else (V m c main_v26 : S4194304.Idx → BitVec 32)) (ix1 n)) := by
  rw [at_nary m c 92 rfl (by decide) (by decide)]
  show concatenate S4194304x2x2x3 3 [⟨S4194304x2x2x1, V m c main_v86⟩, ⟨S4194304x2x2x1, V m c main_v87⟩,
    ⟨S4194304x2x2x1, V m c main_v88⟩] concatenates_S4194304x2x2x1_S4194304x2x2x1_S4194304x2x2x1_S4194304x2x2x3_d3
    (ix4 n a b 2) = _
  refine (concat4_apply_2 _ _ _ _ n a b).trans ?_
  rw [at_unary m c 91 rfl (by decide) (by decide)]
  refine (brickWord_apply _ _ n a b).trans ?_
  rw [at_unary m c 88 rfl (by decide) (by decide)]
  exact (brickX_apply _ _ n a b).trans (b1_x m c n b)

/-! ### The gather -/

/-- THE SECOND BRICK GATHER, ENTRY (n, a, b): the volume entry addressed by the index words z1 n, y_a n, x_b n. The gather
    reads the three words of entry (n, a, b) of the index brick signed and clamped into [0, 511]; they are the wraps of
    z1 n, y_a n, x_b n. -/
theorem brick1_apply (n : Fin 4194304) (a b : Fin 2) :
    (V m c main_v90 : S4194304x2x2.Idx → EReal) (ix3 n a b)
      = Cert.Spec.at3 (V m c main_arg1) ((V m c main_v18 : S4194304.Idx → BitVec 32) (ix1 n))
          ((if a.val = 0 then (V m c main_v11 : S4194304.Idx → BitVec 32) else (V m c main_v22 : S4194304.Idx → BitVec 32)) (ix1 n))
          ((if b.val = 0 then (V m c main_v14 : S4194304.Idx → BitVec 32) else (V m c main_v26 : S4194304.Idx → BitVec 32)) (ix1 n)) := by
  rw [at_binary m c 93 rfl (by decide) (by decide) (by decide)]
  refine (gather_brick_apply gather_S512x512x512_S4194304x2x2x3_S4194304x2x2_n_012_n_n_012_3_111_wf
    (V m c main_arg1) (V m c main_v89) n a b).trans ?_
  rw [b1_word0 m c n a b, b1_word1 m c n a b, b1_word2 m c n a b]
  rfl

end Cert.KernelHost

end
-- ==== Proof.Corners.lean ====
/-
  The packed corner values, entry by entry.

  The kernel is launched on the array C [8, 32768, 128] whose plane k holds corner k of every query point, k = 4 (z bit)
  + 2 (y bit) + (x bit), with point 128 r + l at row r, lane l. The host builds it from the two bricks [N, 2, 2] (the first
  at z0, the second at z1; entry (n, a, b) of a brick is the corner with y bit a and x bit b): each of the eight cells
  (a, b) of the two bricks is cut out as [N, 1, 1], reshaped to a vector [N] and laid as a row [1, N]; the eight rows are
  stacked in the order 000, 001, 010, 011, 100, 101, 110, 111 to [8, N]; the stack is reshaped to [8, 32768, 128]. Each step
  moves entries and changes none, so the proof follows one entry back through the steps to the brick.
-/
import proofs.«161852_j89034672046121_2_alg».proof.Proof.HostLine
import proofs.«161852_j89034672046121_2_alg».proof.Proof.HostLineAt
import proofs.«161852_j89034672046121_2_alg».proof.Proof.Reads
import proofs.«161852_j89034672046121_2_alg».proof.Proof.Rows
import proofs.«161852_j89034672046121_2_alg».proof.Proof.Spec
import proofs.«161852_j89034672046121_2_alg».proof.Proof.Brick0
import proofs.«161852_j89034672046121_2_alg».proof.Proof.Brick1
import Idealize.ShloMosaic.Lib.ValueIdx
import Idealize.ShloMosaic.Lib.Pipeline.Value
import Idealize.ShloMosaic.Lib.ValueLayout
import Idealize.ShloMosaic.Lib.StableHlo.Run

noncomputable section

namespace Cert.KernelHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ### The eight corner rows -/

/-- Corner 000 as a row: cell (0, 0) of the first brick. -/
theorem crow_0 (n : Fin 4194304) :
    (V m c main_v107 : S1x4194304.Idx → EReal) (ix2 0 n)
      = Cert.Spec.at3 (V m c main_arg1) ((V m c main_v8 : S4194304.Idx → BitVec 32) (ix1 n)) ((V m c main_v11 : S4194304.Idx → BitVec 32) (ix1 n)) ((V m c main_v14 : S4194304.Idx → BitVec 32) (ix1 n)) := by
  rw [at_unary m c 110 rfl (by decide) (by decide)]
  refine (rowIn_apply _ _ n).trans ?_
  rw [at_reshape m c 95 rfl (by decide) (by decide)]
  refine (cellOut_apply _ _ n).trans ?_
  rw [at_unary m c 94 rfl (by decide) (by decide)]
  refine (brickCell_apply 0 0 _ _ n).trans ?_
  rw [brick0_apply m c n 0 0, if_pos (show (0 : Fin 2).val = 0 from rfl), if_pos (show (0 : Fin 2).val = 0 from rfl)]

/-- Corner 001 as a row: cell (0, 1) of the first brick. -/
theorem crow_1 (n : Fin 4194304) :
    (V m c main_v108 : S1x4194304.Idx → EReal) (ix2 0 n)
      = Cert.Spec.at3 (V m c main_arg1) ((V m c main_v8 : S4194304.Idx → BitVec 32) (ix1 n)) ((V m c main_v11 : S4194304.Idx → BitVec 32) (ix1 n)) ((V m c main_v26 : S4194304.Idx → BitVec 32) (ix1 n)) := by
  rw [at_unary m c 111 rfl (by decide) (by decide)]
  refine (rowIn_apply _ _ n).trans ?_
  rw [at_reshape m c 97 rfl (by decide) (by decide)]
  refine (cellOut_apply _ _ n).trans ?_
  rw [at_unary m c 96 rfl (by decide) (by decide)]
  refine (brickCell_apply 0 1 _ _ n).trans ?_
  rw [brick0_apply m c n 0 1, if_pos (show (0 : Fin 2).val = 0 from rfl), if_neg (show ¬ (1 : Fin 2).val = 0 by decide)]

/-- Corner 010 as a row: cell (1, 0) of the first brick. -/
theorem crow_2 (n : Fin 4194304) :
    (V m c main_v109 : S1x4194304.Idx → EReal) (ix2 0 n)
      = Cert.Spec.at3 (V m c main_arg1) ((V m c main_v8 : S4194304.Idx → BitVec 32) (ix1 n)) ((V m c main_v22 : S4194304.Idx → BitVec 32) (ix1 n)) ((V m c main_v14 : S4194304.Idx → BitVec 32) (ix1 n)) := by
  rw [at_unary m c 112 rfl (by decide) (by decide)]
  refine (rowIn_apply _ _ n).trans ?_
  rw [at_reshape m c 99 rfl (by decide) (by decide)]
  refine (cellOut_apply _ _ n).trans ?_
  rw [at_unary m c 98 rfl (by decide) (by decide)]
  refine (brickCell_apply 1 0 _ _ n).trans ?_
  rw [brick0_apply m c n 1 0, if_neg (show ¬ (1 : Fin 2).val = 0 by decide), if_pos (show (0 : Fin 2).val = 0 from rfl)]

/-- Corner 011 as a row: cell (1, 1) of the first brick. -/
theorem crow_3 (n : Fin 4194304) :
    (V m c main_v110 : S1x4194304.Idx → EReal) (ix2 0 n)
      = Cert.Spec.at3 (V m c main_arg1) ((V m c main_v8 : S4194304.Idx → BitVec 32) (ix1 n)) ((V m c main_v22 : S4194304.Idx → BitVec 32) (ix1 n)) ((V m c main_v26 : S4194304.Idx → BitVec 32) (ix1 n)) := by
  rw [at_unary m c 113 rfl (by decide) (by decide)]
  refine (rowIn_apply _ _ n).trans ?_
  rw [at_reshape m c 101 rfl (by decide) (by decide)]
  refine (cellOut_apply _ _ n).trans ?_
  rw [at_unary m c 100 rfl (by decide) (by decide)]
  refine (brickCell_apply 1 1 _ _ n).trans ?_
  rw [brick0_apply m c n 1 1, if_neg (show ¬ (1 : Fin 2).val = 0 by decide), if_neg (show ¬ (1 : Fin 2).val = 0 by decide)]

/-- Corner 100 as a row: cell (0, 0) of the second brick. -/
theorem crow_4 (n : Fin 4194304) :
    (V m c main_v111 : S1x4194304.Idx → EReal) (ix2 0 n)
      = Cert.Spec.at3 (V m c main_arg1) ((V m c main_v18 : S4194304.Idx → BitVec 32) (ix1 n)) ((V m c main_v11 : S4194304.Idx → BitVec 32) (ix1 n)) ((V m c main_v14 : S4194304.Idx → BitVec 32) (ix1 n)) := by
  rw [at_unary m c 114 rfl (by decide) (by decide)]
  refine (rowIn_apply _ _ n).trans ?_
  rw [at_reshape m c 103 rfl (by decide) (by decide)]
  refine (cellOut_apply _ _ n).trans ?_
  rw [at_unary m c 102 rfl (by decide) (by decide)]
  refine (brickCell_apply 0 0 _ _ n).trans ?_
  rw [brick1_apply m c n 0 0, if_pos (show (0 : Fin 2).val = 0 from rfl), if_pos (show (0 : Fin 2).val = 0 from rfl)]

/-- Corner 101 as a row: cell (0, 1) of the second brick. -/
theorem crow_5 (n : Fin 4194304) :
    (V m c main_v112 : S1x4194304.Idx → EReal) (ix2 0 n)
      = Cert.Spec.at3 (V m c main_arg1) ((V m c main_v18 : S4194304.Idx → BitVec 32) (ix1 n)) ((V m c main_v11 : S4194304.Idx → BitVec 32) (ix1 n)) ((V m c main_v26 : S4194304.Idx → BitVec 32) (ix1 n)) := by
  rw [at_unary m c 115 rfl (by decide) (by decide)]
  refine (rowIn_apply _ _ n).trans ?_
  rw [at_reshape m c 105 rfl (by decide) (by decide)]
  refine (cellOut_apply _ _ n).trans ?_
  rw [at_unary m c 104 rfl (by decide) (by decide)]
  refine (brickCell_apply 0 1 _ _ n).trans ?_
  rw [brick1_apply m c n 0 1, if_pos (show (0 : Fin 2).val = 0 from rfl), if_neg (show ¬ (1 : Fin 2).val = 0 by decide)]

/-- Corner 110 as a row: cell (1, 0) of the second brick. -/
theorem crow_6 (n : Fin 4194304) :
    (V m c main_v113 : S1x4194304.Idx → EReal) (ix2 0 n)
      = Cert.Spec.at3 (V m c main_arg1) ((V m c main_v18 : S4194304.Idx → BitVec 32) (ix1 n)) ((V m c main_v22 : S4194304.Idx → BitVec 32) (ix1 n)) ((V m c main_v14 : S4194304.Idx → BitVec 32) (ix1 n)) := by
  rw [at_unary m c 116 rfl (by decide) (by decide)]
  refine (rowIn_apply _ _ n).trans ?_
  rw [at_reshape m c 107 rfl (by decide) (by decide)]
  refine (cellOut_apply _ _ n).trans ?_
  rw [at_unary m c 106 rfl (by decide) (by decide)]
  refine (brickCell_apply 1 0 _ _ n).trans ?_
  rw [brick1_apply m c n 1 0, if_neg (show ¬ (1 : Fin 2).val = 0 by decide), if_pos (show (0 : Fin 2).val = 0 from rfl)]

/-- Corner 111 as a row: cell (1, 1) of the second brick. -/
theorem crow_7 (n : Fin 4194304) :
    (V m c main_v114 : S1x4194304.Idx → EReal) (ix2 0 n)
      = Cert.Spec.at3 (V m c main_arg1) ((V m c main_v18 : S4194304.Idx → BitVec 32) (ix1 n)) ((V m c main_v22 : S4194304.Idx → BitVec 32) (ix1 n)) ((V m c main_v26 : S4194304.Idx → BitVec 32) (ix1 n)) := by
  rw [at_unary m c 117 rfl (by decide) (by decide)]
  refine (rowIn_apply _ _ n).trans ?_
  rw [at_reshape m c 109 rfl (by decide) (by decide)]
  refine (cellOut_apply _ _ n).trans ?_
  rw [at_unary m c 108 rfl (by decide) (by decide)]
  refine (brickCell_apply 1 1 _ _ n).trans ?_
  rw [brick1_apply m c n 1 1, if_neg (show ¬ (1 : Fin 2).val = 0 by decide), if_neg (show ¬ (1 : Fin 2).val = 0 by decide)]

/-! ### The stack of the eight rows, and its reshape -/

/-- Row k of the stack [8, N] is corner k of every point. -/
theorem cstack_apply (k : Fin 8) (n : Fin 4194304) :
    (V m c main_v115 : S8x4194304.Idx → EReal) (ix2 k n)
      = Cert.Spec.corner (V m c main_arg1) (V m c main_v8) (V m c main_v11) (V m c main_v14) (V m c main_v18) (V m c main_v22) (V m c main_v26) k n := by
  rw [at_nary m c 118 rfl (by decide) (by decide)]
  show concatenate S8x4194304 0 [⟨S1x4194304, V m c main_v107⟩, ⟨S1x4194304, V m c main_v108⟩, ⟨S1x4194304, V m c main_v109⟩, ⟨S1x4194304, V m c main_v110⟩, ⟨S1x4194304, V m c main_v111⟩, ⟨S1x4194304, V m c main_v112⟩, ⟨S1x4194304, V m c main_v113⟩, ⟨S1x4194304, V m c main_v114⟩]
    concatenates_S1x4194304_S1x4194304_S1x4194304_S1x4194304_S1x4194304_S1x4194304_S1x4194304_S1x4194304_S8x4194304_d0 (ix2 k n) = _
  rw [rows8_apply]
  match k with
  | ⟨0, _⟩ => exact crow_0 m c n
  | ⟨1, _⟩ => exact crow_1 m c n
  | ⟨2, _⟩ => exact crow_2 m c n
  | ⟨3, _⟩ => exact crow_3 m c n
  | ⟨4, _⟩ => exact crow_4 m c n
  | ⟨5, _⟩ => exact crow_5 m c n
  | ⟨6, _⟩ => exact crow_6 m c n
  | ⟨7, _⟩ => exact crow_7 m c n

/-- THE PACKED CORNERS: plane k, row r, lane l holds corner k of point 128 r + l. -/
theorem corners_apply (k : Fin 8) (r : Fin 32768) (l : Fin 128) :
    (V m c main_v120 : S8x32768x128.Idx → EReal) (ix3 k r l)
      = Cert.Spec.corner (V m c main_arg1) (V m c main_v8) (V m c main_v11) (V m c main_v14) (V m c main_v18) (V m c main_v22) (V m c main_v26) k (ptOf r l) := by
  rw [at_reshape m c 123 rfl (by decide) (by decide)]
  exact (pack_apply _ _ k r l).trans (cstack_apply m c k (ptOf r l))

end Cert.KernelHost

end
-- ==== Proof.KernelHost.lean ====
/-
  The kernel program's host side at the extended reals: what the two packed arrays the region is launched on hold.

  Entry (k, r, l) of the corner array C [8, 32768, 128] is corner k of query point 128 r + l (corners_apply, module
  Corners), and entry (j, r, l) of the weight array W [3, 32768, 128] is column 2 - j of that point's fractional parts
  (weights_apply, module Weights): both stated over the buffers as the region finds them, the index vectors z0, y0, x0, z1,
  y1, x1, the fractions and the volume kept as those buffers' contents. The point stored at row r, lane l is ptOf r l
  (module Reads). The modules below do the work; this one gathers them under one name.

  How the host side is read: module HostLine (a line of operations in static single assignment, one operation at a time),
  HostLineAt (the same with the operation named by its position), Reads, Rows, Pairs, Wrap, Gather (single layout
  operations, the index wrap and the brick gather at one entry), WeightRows, Brick0, Brick1 (the three weight rows, the two
  bricks of corner values).
-/
import proofs.«161852_j89034672046121_2_alg».proof.Proof.Weights
import proofs.«161852_j89034672046121_2_alg».proof.Proof.Corners
-- ==== Proof.Prefix.lean ====
/-
  The kernel program's host prefix against the reference's. Both programs begin with the same operations on the
  coordinate array: scale by 511, take the integer part, subtract it to get the fractional weights, slice the three
  integer columns, clamp each to [0, 511] (the lower corner indices z0, y0, x0), and add one and clamp above by 511 (the
  upper corner indices z1, y1, x1). So the buffers in which the kernel program's region finds these seven arrays hold the
  reference's stages of the same names, as functions of the coordinate array.

  The kernel program runs these operations as seven stretches. The proof follows a buffer stretch by stretch: a stretch
  that computes it is read operation by operation against the same operations of the reference; a stretch that does not
  write it leaves it alone. Every buffer is written by exactly one operation, so once computed a value is only carried.
-/
import proofs.«161852_j89034672046121_2_alg».proof.Proof.Entry
import proofs.«161852_j89034672046121_2_alg».proof.Proof.FrameHostIdeal
import proofs.«161852_j89034672046121_2_alg».proof.Proof.Gen.KernelIdeal.Launch
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.KernelHost

open Idealize.ShloMosaic Idealize.ShloMosaic.TcCoe Idealize.SL.Sem
open Idealize.ShloMosaic.StableHlo
open Cert.KernelIdeal Cert.KernelIdeal.Gen Cert.KernelIdeal.Hand
open Cert.ReferenceIdeal.Read

/-- A valuation of the kernel program's buffers at the ideal instance. -/
abbrev Val := Valuation τ sig (Elt Ideal)
/-- The contents of a coordinate array. -/
abbrev Coords := (⟨S4194304x3, .f32⟩ : BufTy).Contents (Elt Ideal)

/-! ## Cutting a sequence of operations -/

/-- Running a sequence is running its first n operations and then the rest. -/
theorem after_cut (n : Nat) (l : List (HloOp τ sig (Elt Ideal))) (W : Val) :
    StableHlo.after l W = StableHlo.after (l.drop n) (StableHlo.after (l.take n) W) := by
  rw [← StableHlo.after_append, List.take_append_drop]

/-- Running the seven stretches laid end to end is running them one after the other. -/
theorem after_seven (l0 l1 l2 l3 l4 l5 l6 : List (HloOp τ sig (Elt Ideal))) (W : Val) :
    StableHlo.after (List.flatten [l0, l1, l2, l3, l4, l5, l6]) W
      = StableHlo.after l6 (StableHlo.after l5 (StableHlo.after l4 (StableHlo.after l3 (StableHlo.after l2 (StableHlo.after l1 (StableHlo.after l0 W)))))) := by
  simp only [List.flatten_cons, List.flatten_nil, List.append_nil, StableHlo.after_append]

/-! ## What each stretch leaves alone

Each operation writes one buffer, its result. The facts below say, stretch by stretch, that none of the results of the
stretch is one of the buffers carried across it: a conjunction of inequalities between buffer names, each decided. -/

theorem keep1 : ∀ op ∈ (hostOps0_1 : List (HloOp τ sig (Elt Ideal))),
    Proc.devRef .tc main_v3 ∉ op.writes ∧ Proc.devRef .tc main_v5 ∉ op.writes :=
  List.forall_iff_forall_mem.mp (by
    simp only [hostOps0_1, List.Forall, nullary_writes, unary_writes, binary_writes, ternary_writes, reshape_writes, nary_writes, Finset.mem_singleton]
    repeat' apply And.intro
    all_goals exact devRef_ne_of_ne (by decide))
theorem keep2 : ∀ op ∈ (hostOps0_2 : List (HloOp τ sig (Elt Ideal))),
    Proc.devRef .tc main_v3 ∉ op.writes ∧ Proc.devRef .tc main_v5 ∉ op.writes ∧ Proc.devRef .tc main_v8 ∉ op.writes :=
  List.forall_iff_forall_mem.mp (by
    simp only [hostOps0_2, List.Forall, nullary_writes, unary_writes, binary_writes, ternary_writes, reshape_writes, nary_writes, Finset.mem_singleton]
    repeat' apply And.intro
    all_goals exact devRef_ne_of_ne (by decide))
theorem keep3 : ∀ op ∈ (hostOps0_3 : List (HloOp τ sig (Elt Ideal))),
    Proc.devRef .tc main_v3 ∉ op.writes ∧ Proc.devRef .tc main_v5 ∉ op.writes ∧ Proc.devRef .tc main_v8 ∉ op.writes :=
  List.forall_iff_forall_mem.mp (by
    simp only [hostOps0_3, List.Forall, nullary_writes, unary_writes, binary_writes, ternary_writes, reshape_writes, nary_writes, Finset.mem_singleton]
    repeat' apply And.intro
    all_goals exact devRef_ne_of_ne (by decide))
theorem keep4 : ∀ op ∈ (hostOps0_4 : List (HloOp τ sig (Elt Ideal))),
    Proc.devRef .tc main_v5 ∉ op.writes ∧ Proc.devRef .tc main_v8 ∉ op.writes ∧ Proc.devRef .tc main_v11 ∉ op.writes :=
  List.forall_iff_forall_mem.mp (by
    simp only [hostOps0_4, List.Forall, nullary_writes, unary_writes, binary_writes, ternary_writes, reshape_writes, nary_writes, Finset.mem_singleton]
    repeat' apply And.intro
    all_goals exact devRef_ne_of_ne (by decide))
theorem keep5 : ∀ op ∈ (hostOps0_5 : List (HloOp τ sig (Elt Ideal))),
    Proc.devRef .tc main_v5 ∉ op.writes ∧ Proc.devRef .tc main_v8 ∉ op.writes ∧ Proc.devRef .tc main_v11 ∉ op.writes :=
  List.forall_iff_forall_mem.mp (by
    simp only [hostOps0_5, List.Forall, nullary_writes, unary_writes, binary_writes, ternary_writes, reshape_writes, nary_writes, Finset.mem_singleton]
    repeat' apply And.intro
    all_goals exact devRef_ne_of_ne (by decide))
set_option maxHeartbeats 8000000 in
theorem keep6 : ∀ op ∈ (hostOps0_6 : List (HloOp τ sig (Elt Ideal))),
    Proc.devRef .tc main_v5 ∉ op.writes ∧ Proc.devRef .tc main_v8 ∉ op.writes ∧ Proc.devRef .tc main_v11 ∉ op.writes
      ∧ Proc.devRef .tc main_v14 ∉ op.writes :=
  List.forall_iff_forall_mem.mp (by
    simp only [hostOps0_6, List.Forall, nullary_writes, unary_writes, binary_writes, ternary_writes, reshape_writes, nary_writes, Finset.mem_singleton]
    repeat' apply And.intro
    all_goals exact devRef_ne_of_ne (by decide))
set_option maxHeartbeats 8000000 in
/-- The last stretch computes the three upper corner indices in its first eighteen operations; the remaining 107 write
    none of them. -/
theorem keep6t : ∀ op ∈ List.drop 18 (hostOps0_6 : List (HloOp τ sig (Elt Ideal))),
    Proc.devRef .tc main_v18 ∉ op.writes ∧ Proc.devRef .tc main_v22 ∉ op.writes ∧ Proc.devRef .tc main_v26 ∉ op.writes :=
  List.forall_iff_forall_mem.mp (by
    dsimp only [hostOps0_6, List.drop]
    simp only [List.Forall, nullary_writes, unary_writes, binary_writes, ternary_writes, reshape_writes, nary_writes, Finset.mem_singleton]
    repeat' apply And.intro
    all_goals exact devRef_ne_of_ne (by decide))

/-! ## The stages

At i W x says: the valuation W, reached after the first i stretches from coordinates x, holds the reference's stages of x
in the buffers that later stretches still read or that the region reads. -/

/-- After the first stretch: the integer parts, the fractional weights, the first integer column and the two clamp
    bounds. -/
structure At1 (W : Val) (x : Coords) : Prop where
  v3 : (W (Proc.devRef .tc main_v3) : S4194304x3.Idx → BitVec 32) = val_main_v3 (F := Ideal) x
  v5 : (W (Proc.devRef .tc main_v5) : S4194304x3.Idx → EReal) = val_main_v5 (F := Ideal) x
  v7 : (W (Proc.devRef .tc main_v7) : S4194304.Idx → BitVec 32) = val_main_v7 (F := Ideal) x
  c : (W (Proc.devRef .tc main_c) : S_.Idx → BitVec 32) = val_main_c (F := Ideal)
  c_0 : (W (Proc.devRef .tc main_c_0) : S_.Idx → BitVec 32) = val_main_c_0 (F := Ideal)

/-- After the first clamp: z0. -/
structure At2 (W : Val) (x : Coords) : Prop where
  v3 : (W (Proc.devRef .tc main_v3) : S4194304x3.Idx → BitVec 32) = val_main_v3 (F := Ideal) x
  v5 : (W (Proc.devRef .tc main_v5) : S4194304x3.Idx → EReal) = val_main_v5 (F := Ideal) x
  v8 : (W (Proc.devRef .tc main_v8) : S4194304.Idx → BitVec 32) = val_main_v8 (F := Ideal) x

/-- After the third stretch: the second integer column and its clamp bounds. -/
structure At3 (W : Val) (x : Coords) : Prop where
  v3 : (W (Proc.devRef .tc main_v3) : S4194304x3.Idx → BitVec 32) = val_main_v3 (F := Ideal) x
  v5 : (W (Proc.devRef .tc main_v5) : S4194304x3.Idx → EReal) = val_main_v5 (F := Ideal) x
  v8 : (W (Proc.devRef .tc main_v8) : S4194304.Idx → BitVec 32) = val_main_v8 (F := Ideal) x
  v10 : (W (Proc.devRef .tc main_v10) : S4194304.Idx → BitVec 32) = val_main_v10 (F := Ideal) x
  c_1 : (W (Proc.devRef .tc main_c_1) : S_.Idx → BitVec 32) = val_main_c_1 (F := Ideal)
  c_2 : (W (Proc.devRef .tc main_c_2) : S_.Idx → BitVec 32) = val_main_c_2 (F := Ideal)

/-- After the second clamp: y0. -/
structure At4 (W : Val) (x : Coords) : Prop where
  v3 : (W (Proc.devRef .tc main_v3) : S4194304x3.Idx → BitVec 32) = val_main_v3 (F := Ideal) x
  v5 : (W (Proc.devRef .tc main_v5) : S4194304x3.Idx → EReal) = val_main_v5 (F := Ideal) x
  v8 : (W (Proc.devRef .tc main_v8) : S4194304.Idx → BitVec 32) = val_main_v8 (F := Ideal) x
  v11 : (W (Proc.devRef .tc main_v11) : S4194304.Idx → BitVec 32) = val_main_v11 (F := Ideal) x

/-- After the fifth stretch: the third integer column and its clamp bounds. -/
structure At5 (W : Val) (x : Coords) : Prop where
  v5 : (W (Proc.devRef .tc main_v5) : S4194304x3.Idx → EReal) = val_main_v5 (F := Ideal) x
  v8 : (W (Proc.devRef .tc main_v8) : S4194304.Idx → BitVec 32) = val_main_v8 (F := Ideal) x
  v11 : (W (Proc.devRef .tc main_v11) : S4194304.Idx → BitVec 32) = val_main_v11 (F := Ideal) x
  v13 : (W (Proc.devRef .tc main_v13) : S4194304.Idx → BitVec 32) = val_main_v13 (F := Ideal) x
  c_3 : (W (Proc.devRef .tc main_c_3) : S_.Idx → BitVec 32) = val_main_c_3 (F := Ideal)
  c_4 : (W (Proc.devRef .tc main_c_4) : S_.Idx → BitVec 32) = val_main_c_4 (F := Ideal)

/-- After the third clamp: x0. -/
structure At6 (W : Val) (x : Coords) : Prop where
  v5 : (W (Proc.devRef .tc main_v5) : S4194304x3.Idx → EReal) = val_main_v5 (F := Ideal) x
  v8 : (W (Proc.devRef .tc main_v8) : S4194304.Idx → BitVec 32) = val_main_v8 (F := Ideal) x
  v11 : (W (Proc.devRef .tc main_v11) : S4194304.Idx → BitVec 32) = val_main_v11 (F := Ideal) x
  v14 : (W (Proc.devRef .tc main_v14) : S4194304.Idx → BitVec 32) = val_main_v14 (F := Ideal) x

/-- When the region is entered: the weights and the six corner index vectors. -/
structure At7 (W : Val) (x : Coords) : Prop where
  v5 : (W (Proc.devRef .tc main_v5) : S4194304x3.Idx → EReal) = val_main_v5 (F := Ideal) x
  v8 : (W (Proc.devRef .tc main_v8) : S4194304.Idx → BitVec 32) = val_main_v8 (F := Ideal) x
  v11 : (W (Proc.devRef .tc main_v11) : S4194304.Idx → BitVec 32) = val_main_v11 (F := Ideal) x
  v14 : (W (Proc.devRef .tc main_v14) : S4194304.Idx → BitVec 32) = val_main_v14 (F := Ideal) x
  v18 : (W (Proc.devRef .tc main_v18) : S4194304.Idx → BitVec 32) = val_main_v18 (F := Ideal) x
  v22 : (W (Proc.devRef .tc main_v22) : S4194304.Idx → BitVec 32) = val_main_v22 (F := Ideal) x
  v26 : (W (Proc.devRef .tc main_v26) : S4194304.Idx → BitVec 32) = val_main_v26 (F := Ideal) x

/-! ## One step per stretch -/

/-- The first stretch, from any valuation: its operations are the reference's first eleven, applied to the coordinate
    array the valuation holds. -/
theorem step0 (W : Val) : At1 (StableHlo.after hostOps0 W) (W (Proc.devRef .tc main_arg0)) where
  v3 := by dsimp only [hostOps0]; after_results; rfl
  v5 := by dsimp only [hostOps0]; after_results; rfl
  v7 := by dsimp only [hostOps0]; after_results; rfl
  c := by dsimp only [hostOps0]; after_results; rfl
  c_0 := by dsimp only [hostOps0]; after_results; rfl

/-- The first clamp: the minimum with 511 of the maximum with 0 of the first integer column. -/
theorem step1 (W : Val) (x : Coords) (h : At1 W x) : At2 (StableHlo.after hostOps0_1 W) x where
  v3 := (after_of_forall_not_mem (b := Proc.devRef .tc main_v3) _ _ (fun op hop => (keep1 op hop).1)).trans h.v3
  v5 := (after_of_forall_not_mem (b := Proc.devRef .tc main_v5) _ _ (fun op hop => (keep1 op hop).2)).trans h.v5
  v8 := by dsimp only [hostOps0_1]; after_results; rw [h.v7, h.c, h.c_0]; rfl

/-- The second integer column, sliced off the integer parts and flattened, and two fresh clamp bounds. -/
theorem step2 (W : Val) (x : Coords) (h : At2 W x) : At3 (StableHlo.after hostOps0_2 W) x where
  v3 := (after_of_forall_not_mem (b := Proc.devRef .tc main_v3) _ _ (fun op hop => (keep2 op hop).1)).trans h.v3
  v5 := (after_of_forall_not_mem (b := Proc.devRef .tc main_v5) _ _ (fun op hop => (keep2 op hop).2.1)).trans h.v5
  v8 := (after_of_forall_not_mem (b := Proc.devRef .tc main_v8) _ _ (fun op hop => (keep2 op hop).2.2)).trans h.v8
  v10 := by dsimp only [hostOps0_2]; after_results; rw [h.v3]; rfl
  c_1 := by dsimp only [hostOps0_2]; after_results; rfl
  c_2 := by dsimp only [hostOps0_2]; after_results; rfl

/-- The second clamp. -/
theorem step3 (W : Val) (x : Coords) (h : At3 W x) : At4 (StableHlo.after hostOps0_3 W) x where
  v3 := (after_of_forall_not_mem (b := Proc.devRef .tc main_v3) _ _ (fun op hop => (keep3 op hop).1)).trans h.v3
  v5 := (after_of_forall_not_mem (b := Proc.devRef .tc main_v5) _ _ (fun op hop => (keep3 op hop).2.1)).trans h.v5
  v8 := (after_of_forall_not_mem (b := Proc.devRef .tc main_v8) _ _ (fun op hop => (keep3 op hop).2.2)).trans h.v8
  v11 := by dsimp only [hostOps0_3]; after_results; rw [h.v10, h.c_1, h.c_2]; rfl

/-- The third integer column and its clamp bounds. -/
theorem step4 (W : Val) (x : Coords) (h : At4 W x) : At5 (StableHlo.after hostOps0_4 W) x where
  v5 := (after_of_forall_not_mem (b := Proc.devRef .tc main_v5) _ _ (fun op hop => (keep4 op hop).1)).trans h.v5
  v8 := (after_of_forall_not_mem (b := Proc.devRef .tc main_v8) _ _ (fun op hop => (keep4 op hop).2.1)).trans h.v8
  v11 := (after_of_forall_not_mem (b := Proc.devRef .tc main_v11) _ _ (fun op hop => (keep4 op hop).2.2)).trans h.v11
  v13 := by dsimp only [hostOps0_4]; after_results; rw [h.v3]; rfl
  c_3 := by dsimp only [hostOps0_4]; after_results; rfl
  c_4 := by dsimp only [hostOps0_4]; after_results; rfl

/-- The third clamp. -/
theorem step5 (W : Val) (x : Coords) (h : At5 W x) : At6 (StableHlo.after hostOps0_5 W) x where
  v5 := (after_of_forall_not_mem (b := Proc.devRef .tc main_v5) _ _ (fun op hop => (keep5 op hop).1)).trans h.v5
  v8 := (after_of_forall_not_mem (b := Proc.devRef .tc main_v8) _ _ (fun op hop => (keep5 op hop).2.1)).trans h.v8
  v11 := (after_of_forall_not_mem (b := Proc.devRef .tc main_v11) _ _ (fun op hop => (keep5 op hop).2.2)).trans h.v11
  v14 := by dsimp only [hostOps0_5]; after_results; rw [h.v13, h.c_3, h.c_4]; rfl

set_option maxHeartbeats 4000000 in
/-- The last stretch. It writes none of the four arrays carried into it. Its first eighteen operations add one to each
    lower corner index and clamp above by 511; the other 107 write none of the three results, so each result is read off
    the first eighteen alone. -/
theorem step6 (W : Val) (x : Coords) (h : At6 W x) : At7 (StableHlo.after hostOps0_6 W) x where
  v5 := (after_of_forall_not_mem (b := Proc.devRef .tc main_v5) _ _ (fun op hop => (keep6 op hop).1)).trans h.v5
  v8 := (after_of_forall_not_mem (b := Proc.devRef .tc main_v8) _ _ (fun op hop => (keep6 op hop).2.1)).trans h.v8
  v11 := (after_of_forall_not_mem (b := Proc.devRef .tc main_v11) _ _ (fun op hop => (keep6 op hop).2.2.1)).trans h.v11
  v14 := (after_of_forall_not_mem (b := Proc.devRef .tc main_v14) _ _ (fun op hop => (keep6 op hop).2.2.2)).trans h.v14
  v18 := by
    rw [after_cut 18 hostOps0_6, after_of_forall_not_mem (b := Proc.devRef .tc main_v18) _ _ (fun op hop => (keep6t op hop).1)]
    dsimp only [hostOps0_6, List.take]; after_results; rw [h.v8]; rfl
  v22 := by
    rw [after_cut 18 hostOps0_6, after_of_forall_not_mem (b := Proc.devRef .tc main_v22) _ _ (fun op hop => (keep6t op hop).2.1)]
    dsimp only [hostOps0_6, List.take]; after_results; rw [h.v11]; rfl
  v26 := by
    rw [after_cut 18 hostOps0_6, after_of_forall_not_mem (b := Proc.devRef .tc main_v26) _ _ (fun op hop => (keep6t op hop).2.2)]
    dsimp only [hostOps0_6, List.take]; after_results; rw [h.v14]; rfl

/-! ## The region-entry contents -/

variable (m : (ℓ : Loc Cert.KernelIdeal.nD Cert.KernelIdeal.τ Cert.KernelIdeal.sig) → Buf (Elt Ideal) ℓ) (c : Dev Cert.KernelIdeal.nD)

/-- The seven steps composed, from the launch memory: the region-entry valuation holds the reference's seven stages of
    the launched coordinate array. -/
theorem entry_stages : At7 (V0 m c) (m (c, Proc.devRef .tc main_arg0)) := by
  show At7 (StableHlo.after (List.flatten [hostOps0, hostOps0_1, hostOps0_2, hostOps0_3, hostOps0_4, hostOps0_5, hostOps0_6]) (fun b => m (c, b))) _
  rw [after_seven]
  exact step6 _ _ (step5 _ _ (step4 _ _ (step3 _ _ (step2 _ _ (step1 _ _ (step0 (fun b => m (c, b))))))))

/-- The coordinate array itself is found as launched, so the stages are those of the array the region-entry valuation
    holds. -/
theorem entry_coords : (V m c main_arg0 : Coords) = m (c, Proc.devRef .tc main_arg0) := V_main_arg0 m c

theorem prefix_wt : (V m c main_v5 : S4194304x3.Idx → EReal) = val_main_v5 (F := Ideal) (V m c main_arg0) :=
  (entry_stages m c).v5.trans (congrArg (val_main_v5 (F := Ideal)) (entry_coords m c).symm)
theorem prefix_z0 : (V m c main_v8 : S4194304.Idx → BitVec 32) = val_main_v8 (F := Ideal) (V m c main_arg0) :=
  (entry_stages m c).v8.trans (congrArg (val_main_v8 (F := Ideal)) (entry_coords m c).symm)
theorem prefix_y0 : (V m c main_v11 : S4194304.Idx → BitVec 32) = val_main_v11 (F := Ideal) (V m c main_arg0) :=
  (entry_stages m c).v11.trans (congrArg (val_main_v11 (F := Ideal)) (entry_coords m c).symm)
theorem prefix_x0 : (V m c main_v14 : S4194304.Idx → BitVec 32) = val_main_v14 (F := Ideal) (V m c main_arg0) :=
  (entry_stages m c).v14.trans (congrArg (val_main_v14 (F := Ideal)) (entry_coords m c).symm)
theorem prefix_z1 : (V m c main_v18 : S4194304.Idx → BitVec 32) = val_main_v18 (F := Ideal) (V m c main_arg0) :=
  (entry_stages m c).v18.trans (congrArg (val_main_v18 (F := Ideal)) (entry_coords m c).symm)
theorem prefix_y1 : (V m c main_v22 : S4194304.Idx → BitVec 32) = val_main_v22 (F := Ideal) (V m c main_arg0) :=
  (entry_stages m c).v22.trans (congrArg (val_main_v22 (F := Ideal)) (entry_coords m c).symm)
theorem prefix_x1 : (V m c main_v26 : S4194304.Idx → BitVec 32) = val_main_v26 (F := Ideal) (V m c main_arg0) :=
  (entry_stages m c).v26.trans (congrArg (val_main_v26 (F := Ideal)) (entry_coords m c).symm)

end Cert.KernelHost

end
-- ==== Proof.KernelResult.lean ====
/-
  The kernel program's result, as one function of its two arguments.

  The region's output array is the entrywise blend of the packed corner and weight arrays; entry (k, R, l) of the packed
  corner array is corner number k of query point 128 R + l, and entry (j, R, l) of the packed weight array is the weight
  of that point along x, y, z for j = 0, 1, 2.  So entry (R, l) of the output array is the trilinear value at point
  128 R + l, and the two reshapes after the region turn the [32768, 128] array into the column whose entry (n, 0) is
  its entry (n / 128, n mod 128): the trilinear value at point n.
-/
import proofs.«161852_j89034672046121_2_alg».proof.Proof.ArrayValue
import proofs.«161852_j89034672046121_2_alg».proof.Proof.TailIdeal
import proofs.«161852_j89034672046121_2_alg».proof.Proof.KernelHost
import proofs.«161852_j89034672046121_2_alg».proof.Proof.Prefix

noncomputable section

namespace Cert.KernelIdeal.Hand

open Idealize.ShloMosaic Idealize.ShloMosaic.TcCoe Idealize.ShloMosaic.ValueIdx Idealize.SL.Sem
open Cert.KernelIdeal Cert.KernelIdeal.Gen Cert.KernelHost
open Cert.ReferenceIdeal.Read (val_main_v5 val_main_v8 val_main_v11 val_main_v14 val_main_v18 val_main_v22 val_main_v26)

variable (m : (ℓ : Loc nD τ sig) → Buf (Elt Ideal) ℓ) (ρ : Dev nD → PrngReg)

/-- For ANY valuation W of the buffers, its value at the corner window's array reference is its value at the packed corner
    array's buffer: one reference, two spellings. Stated over a variable valuation so that nothing is computed. -/
theorem val_arr0 (W : Valuation τ sig (Elt Ideal)) :
    W (Proc.devRef .tc (Pipeline.arrRef spec0 (0 : Fin 3))) = W (Proc.devRef .tc main_v120) := rfl
/-- The same for the weight window's array reference and the packed weight array's buffer. -/
theorem val_arr1 (W : Valuation τ sig (Elt Ideal)) :
    W (Proc.devRef .tc (Pipeline.arrRef spec0 (1 : Fin 3))) = W (Proc.devRef .tc main_v121) := rfl

/-- The corner window's array as the region finds it is the packed corner array. -/
theorem V_arr0 (c : Dev nD) : V m c (Pipeline.arrRef spec0 0) = V m c main_v120 := val_arr0 (V0 m c)
/-- The weight window's array as the region finds it is the packed weight array. -/
theorem V_arr1 (c : Dev nD) : V m c (Pipeline.arrRef spec0 1) = V m c main_v121 := val_arr1 (V0 m c)

/-- ENTRY (R, l) OF THE OUTPUT ARRAY is the trilinear value at query point 128 R + l: the eight corner rows at
    (R, l) are that point's eight corners, the three weight rows its weights along x, y, z. -/
theorem arrValue_apply (c : Dev nD) (R : Fin 32768) (l : Fin 128) :
    arrValue (V m c (Pipeline.arrRef spec0 0)) (V m c (Pipeline.arrRef spec0 1)) (ix2 R l)
      = Cert.Spec.point (V m c main_arg1) (V m c main_v8) (V m c main_v11) (V m c main_v14) (V m c main_v18)
          (V m c main_v22) (V m c main_v26) (V m c main_v5) (ptOf R l) := by
  rw [V_arr0, V_arr1]
  unfold arrValue Cert.Spec.point
  show Cert.Spec.blend ((V m c main_v120 : S8x32768x128.Idx → EReal) (ix3 (⟨0, by decide⟩ : Fin 8) R l)) ((V m c main_v120 : S8x32768x128.Idx → EReal) (ix3 (⟨1, by decide⟩ : Fin 8) R l))
      ((V m c main_v120 : S8x32768x128.Idx → EReal) (ix3 (⟨2, by decide⟩ : Fin 8) R l)) ((V m c main_v120 : S8x32768x128.Idx → EReal) (ix3 (⟨3, by decide⟩ : Fin 8) R l))
      ((V m c main_v120 : S8x32768x128.Idx → EReal) (ix3 (⟨4, by decide⟩ : Fin 8) R l)) ((V m c main_v120 : S8x32768x128.Idx → EReal) (ix3 (⟨5, by decide⟩ : Fin 8) R l))
      ((V m c main_v120 : S8x32768x128.Idx → EReal) (ix3 (⟨6, by decide⟩ : Fin 8) R l)) ((V m c main_v120 : S8x32768x128.Idx → EReal) (ix3 (⟨7, by decide⟩ : Fin 8) R l))
      ((V m c main_v121 : S3x32768x128.Idx → EReal) (ix3 (⟨0, by decide⟩ : Fin 3) R l)) ((V m c main_v121 : S3x32768x128.Idx → EReal) (ix3 (⟨1, by decide⟩ : Fin 3) R l))
      ((V m c main_v121 : S3x32768x128.Idx → EReal) (ix3 (⟨2, by decide⟩ : Fin 3) R l)) = _
  rw [corners_apply m c (⟨0, by decide⟩ : Fin 8) R l, corners_apply m c (⟨1, by decide⟩ : Fin 8) R l, corners_apply m c (⟨2, by decide⟩ : Fin 8) R l, corners_apply m c (⟨3, by decide⟩ : Fin 8) R l, corners_apply m c (⟨4, by decide⟩ : Fin 8) R l, corners_apply m c (⟨5, by decide⟩ : Fin 8) R l, corners_apply m c (⟨6, by decide⟩ : Fin 8) R l, corners_apply m c (⟨7, by decide⟩ : Fin 8) R l,
    weights_apply m c (⟨0, by decide⟩ : Fin 3) R l, weights_apply m c (⟨1, by decide⟩ : Fin 3) R l, weights_apply m c (⟨2, by decide⟩ : Fin 3) R l]
  rfl

/-- THE KERNEL PROGRAM'S RESULT after the two reshapes that follow the region: the trilinear value of every query point,
    as the column Cert.Spec.G of the volume and of the index vectors and weights as the region finds them. -/
theorem kernel_result (c : Dev nD) :
    Pipeline.afterTail₀ cfgs (dats m) 0 (V0 m) [hostOps1] c main_v124
      = Cert.Spec.G (V m c main_arg1) (V m c main_v8) (V m c main_v11) (V m c main_v14) (V m c main_v18)
          (V m c main_v22) (V m c main_v26) (V m c main_v5) := by
  funext i
  obtain ⟨n, u, rfl⟩ : ∃ (n : Fin 4194304) (u : Fin 1), i = ix2 n u := ⟨i 0, i 1, eq_ix2 i⟩
  obtain rfl : u = 0 := Subsingleton.elim _ _
  refine (tail_apply m c n).trans ?_
  rw [final m c, arrValue_apply m c]
  unfold Cert.Spec.G
  have hn : ptOf (⟨n.val / 128, by omega⟩ : Fin 32768) (⟨n.val % 128, by omega⟩ : Fin 128) = n :=
    Fin.ext (by show 128 * (n.val / 128) + n.val % 128 = n.val; omega)
  rw [hn]

/-- THE KERNEL PROGRAM'S RUN, READ: every weakly fair execution terminates with the result buffer at Cert.Spec.G of the
    volume argument and of the shared prefix stages of the coordinates argument, the two arguments unchanged. -/
theorem kernel_run :
    θ_run defs (onTc (τ := τ) (main (F := Ideal))) ⟨m, fun _ => 0, ρ⟩ fun r => ∀ c : Dev nD,
      r.2.mem ((c : Thread nD τ).loc main_v124)
        = Cert.Spec.G (m ((c : Thread nD τ).loc main_arg1))
            (val_main_v8 (F := Ideal) (m ((c : Thread nD τ).loc main_arg0))) (val_main_v11 (F := Ideal) (m ((c : Thread nD τ).loc main_arg0)))
            (val_main_v14 (F := Ideal) (m ((c : Thread nD τ).loc main_arg0))) (val_main_v18 (F := Ideal) (m ((c : Thread nD τ).loc main_arg0)))
            (val_main_v22 (F := Ideal) (m ((c : Thread nD τ).loc main_arg0))) (val_main_v26 (F := Ideal) (m ((c : Thread nD τ).loc main_arg0)))
            (val_main_v5 (F := Ideal) (m ((c : Thread nD τ).loc main_arg0)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by
      rw [post_result m r h c, kernel_result m c, prefix_z0 m c, prefix_y0 m c, prefix_x0 m c, prefix_z1 m c, prefix_y1 m c,
        prefix_x1 m c, prefix_wt m c, V_main_arg0 m c, V_main_arg1 m c],
      kept_main_arg0 m r h c, kept_main_arg1 m r h c⟩)
    (run_main m ρ)

end Cert.KernelIdeal.Hand

end
-- ==== Proof.RefStages.lean ====
/-
  The reference program's run, cut into stages. The reference is a straight line of 316 host operations: 58 that turn
  the coordinate array into six corner index vectors and three weight columns; eight blocks of 27, one per corner of the
  cell, each wrapping three index vectors, stacking them into an index array, gathering the volume there and giving the
  gathered values a trailing unit axis; and 42 that blend the eight corner columns along x, then y, then z. This module
  names the stretches of operations between the cuts, says that running all the operations is running the stretches one
  after the other, and states, for each cut, which buffers are still read later and that each holds the stage of the
  same name of the reference's operation-by-operation reading, as a function of the two argument arrays. The step from
  one cut to the next is proved elsewhere, one module per stretch, for an arbitrary valuation satisfying the earlier
  statement; the shape of such a step is

    theorem stepC1 (W : Val) (x0 : Coords) (x1 : Volume) (h : Kept W x0 x1) : AtC1 (StableHlo.after cC1 W) x0 x1

  with the buffers the stretch does not write carried by carry (below) from a decided Untouched fact.
-/
import proofs.«161852_j89034672046121_2_alg».proof.Proof.RefOps
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- A valuation of the reference program's buffers at the ideal instance. -/
abbrev Val := Valuation τ sig (Elt Ideal)
/-- The contents of a coordinate array: 4194304 points, three coordinates each. -/
abbrev Coords := (⟨S4194304x3, .f32⟩ : BufTy).Contents (Elt Ideal)
/-- The contents of a volume: 512 x 512 x 512 values. -/
abbrev Volume := (⟨S512x512x512, .f32⟩ : BufTy).Contents (Elt Ideal)

/-! ## The stretches -/

/-- The reference's 316 operations at the ideal instance. -/
abbrev allOps : List (HloOp τ sig (Elt Ideal)) := ops (F := Ideal)

/-- Operations a + 1 to a + n of the reference. -/
abbrev chunk (a n : Nat) : List (HloOp τ sig (Elt Ideal)) := (allOps.drop a).take n

/-- The seven stretches of the first 58 operations: scaling, integer parts and weights, first column (11); first clamp
    (6); second column (4); second clamp (6); third column (4); third clamp (6); the three upper indices and the three
    weight columns (21). -/
abbrev cP1 := chunk 0 11
abbrev cP2 := chunk 11 6
abbrev cP3 := chunk 17 4
abbrev cP4 := chunk 21 6
abbrev cP5 := chunk 27 4
abbrev cP6 := chunk 31 6
abbrev cP7 := chunk 37 21
/-- The eight corner blocks, 27 operations each, ending at the corner columns main_v50, v71, v92, v113, v134, v155, v176,
    v197. -/
abbrev cC1 := chunk 58 27
abbrev cC2 := chunk 85 27
abbrev cC3 := chunk 112 27
abbrev cC4 := chunk 139 27
abbrev cC5 := chunk 166 27
abbrev cC6 := chunk 193 27
abbrev cC7 := chunk 220 27
abbrev cC8 := chunk 247 27
/-- The blend: the last 42 operations. -/
abbrev cB := chunk 274 42

/-- The operations are the sixteen stretches laid end to end: both sides are the same literal list. -/
theorem ops_chunks : allOps = cP1 ++ (cP2 ++ (cP3 ++ (cP4 ++ (cP5 ++ (cP6 ++ (cP7 ++ (cC1 ++ (cC2 ++ (cC3 ++ (cC4 ++ (cC5 ++
    (cC6 ++ (cC7 ++ (cC8 ++ cB)))))))))))))) := rfl

/-- So running all of them is running the stretches one after the other. -/
theorem after_chunks (W : Val) : StableHlo.after allOps W =
    StableHlo.after cB (StableHlo.after cC8 (StableHlo.after cC7 (StableHlo.after cC6 (StableHlo.after cC5 (StableHlo.after cC4
      (StableHlo.after cC3 (StableHlo.after cC2 (StableHlo.after cC1 (StableHlo.after cP7 (StableHlo.after cP6 (StableHlo.after cP5
        (StableHlo.after cP4 (StableHlo.after cP3 (StableHlo.after cP2 (StableHlo.after cP1 W))))))))))))))) := by
  rw [ops_chunks]
  simp only [StableHlo.after_append]

/-! ## Buffers a stretch leaves alone -/

/-- No operation of l writes any buffer of rs. For a stretch and literal buffers this is a finite check. -/
abbrev Untouched (l : List (HloOp τ sig (Elt Ideal))) (rs : List (Ref sig .tc)) : Prop :=
  ∀ op ∈ l, ∀ r ∈ rs, Proc.devRef .tc r ∉ op.writes

/-- A buffer no operation of a stretch writes holds after the stretch what it held before. -/
theorem carry {l : List (HloOp τ sig (Elt Ideal))} {rs : List (Ref sig .tc)} (h : Untouched l rs) (W : Val)
    {r : Ref sig .tc} (hr : r ∈ rs) : StableHlo.after l W (Proc.devRef .tc r) = W (Proc.devRef .tc r) :=
  after_of_forall_not_mem (b := Proc.devRef .tc r) l W (fun op hop => h op hop r hr)

/-! ## Reading one buffer after a stretch

A stretch's result at one buffer is read operation by operation: at the operation that writes the buffer, its function of
the contents of its operands before it; at every other operation, what was there before. A corner block stacks three
index columns by one operation with three operands; its result is read with each operand's contents at its own buffer,
so that the reading goes on through the operands. -/

/-- The result of an operation over a literal family of three buffers, with each operand's contents at its own
    buffer. -/
theorem nary3_result {x a b y : Ref sig .tc}
    (f : ((k : Fin 3) → ((![x, a, b] : Fin 3 → Ref sig .tc) k).ty.Contents (Elt Ideal)) → y.ty.Contents (Elt Ideal)) (hxs hy)
    (G : Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Reads a goal  StableHlo.after ops W (Proc.devRef .tc r) = …  for a literal list ops: the fold is opened, then each
    operation's result at its own buffer is rewritten to its function's value and at any other buffer to what was there
    (the buffers told apart by decision), outermost first, until nothing applies. -/
macro "ref_results" : tactic =>
  `(tactic| (simp only [after_cons, after_nil]
             repeat (first
               | rw [nullary_result] | rw [unary_result] | rw [binary_result] | rw [ternary_result] | rw [reshape_result]
               | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## The stages -/

/-- After operations 1 to 11: the integer parts, the fractional weights, the first integer column, two clamp bounds. -/
structure AtP1 (W : Val) (x0 : Coords) (x1 : Volume) : Prop where
  a0 : (W (Proc.devRef .tc main_arg0) : Coords) = x0
  a1 : (W (Proc.devRef .tc main_arg1) : Volume) = x1
  v3 : (W (Proc.devRef .tc main_v3) : S4194304x3.Idx → BitVec 32) = val_main_v3 (F := Ideal) x0
  v5 : (W (Proc.devRef .tc main_v5) : S4194304x3.Idx → EReal) = val_main_v5 (F := Ideal) x0
  v7 : (W (Proc.devRef .tc main_v7) : S4194304.Idx → BitVec 32) = val_main_v7 (F := Ideal) x0
  c : (W (Proc.devRef .tc main_c) : S_.Idx → BitVec 32) = val_main_c (F := Ideal)
  c_0 : (W (Proc.devRef .tc main_c_0) : S_.Idx → BitVec 32) = val_main_c_0 (F := Ideal)

/-- After operation 17 (the first clamp): z0. -/
structure AtP2 (W : Val) (x0 : Coords) (x1 : Volume) : Prop where
  a0 : (W (Proc.devRef .tc main_arg0) : Coords) = x0
  a1 : (W (Proc.devRef .tc main_arg1) : Volume) = x1
  v3 : (W (Proc.devRef .tc main_v3) : S4194304x3.Idx → BitVec 32) = val_main_v3 (F := Ideal) x0
  v5 : (W (Proc.devRef .tc main_v5) : S4194304x3.Idx → EReal) = val_main_v5 (F := Ideal) x0
  v8 : (W (Proc.devRef .tc main_v8) : S4194304.Idx → BitVec 32) = val_main_v8 (F := Ideal) x0

/-- After operation 21: the second integer column and its clamp bounds. -/
structure AtP3 (W : Val) (x0 : Coords) (x1 : Volume) : Prop where
  a0 : (W (Proc.devRef .tc main_arg0) : Coords) = x0
  a1 : (W (Proc.devRef .tc main_arg1) : Volume) = x1
  v3 : (W (Proc.devRef .tc main_v3) : S4194304x3.Idx → BitVec 32) = val_main_v3 (F := Ideal) x0
  v5 : (W (Proc.devRef .tc main_v5) : S4194304x3.Idx → EReal) = val_main_v5 (F := Ideal) x0
  v8 : (W (Proc.devRef .tc main_v8) : S4194304.Idx → BitVec 32) = val_main_v8 (F := Ideal) x0
  v10 : (W (Proc.devRef .tc main_v10) : S4194304.Idx → BitVec 32) = val_main_v10 (F := Ideal) x0
  c_1 : (W (Proc.devRef .tc main_c_1) : S_.Idx → BitVec 32) = val_main_c_1 (F := Ideal)
  c_2 : (W (Proc.devRef .tc main_c_2) : S_.Idx → BitVec 32) = val_main_c_2 (F := Ideal)

/-- After operation 27 (the second clamp): y0. -/
structure AtP4 (W : Val) (x0 : Coords) (x1 : Volume) : Prop where
  a0 : (W (Proc.devRef .tc main_arg0) : Coords) = x0
  a1 : (W (Proc.devRef .tc main_arg1) : Volume) = x1
  v3 : (W (Proc.devRef .tc main_v3) : S4194304x3.Idx → BitVec 32) = val_main_v3 (F := Ideal) x0
  v5 : (W (Proc.devRef .tc main_v5) : S4194304x3.Idx → EReal) = val_main_v5 (F := Ideal) x0
  v8 : (W (Proc.devRef .tc main_v8) : S4194304.Idx → BitVec 32) = val_main_v8 (F := Ideal) x0
  v11 : (W (Proc.devRef .tc main_v11) : S4194304.Idx → BitVec 32) = val_main_v11 (F := Ideal) x0

/-- After operation 31: the third integer column and its clamp bounds. -/
structure AtP5 (W : Val) (x0 : Coords) (x1 : Volume) : Prop where
  a0 : (W (Proc.devRef .tc main_arg0) : Coords) = x0
  a1 : (W (Proc.devRef .tc main_arg1) : Volume) = x1
  v5 : (W (Proc.devRef .tc main_v5) : S4194304x3.Idx → EReal) = val_main_v5 (F := Ideal) x0
  v8 : (W (Proc.devRef .tc main_v8) : S4194304.Idx → BitVec 32) = val_main_v8 (F := Ideal) x0
  v11 : (W (Proc.devRef .tc main_v11) : S4194304.Idx → BitVec 32) = val_main_v11 (F := Ideal) x0
  v13 : (W (Proc.devRef .tc main_v13) : S4194304.Idx → BitVec 32) = val_main_v13 (F := Ideal) x0
  c_3 : (W (Proc.devRef .tc main_c_3) : S_.Idx → BitVec 32) = val_main_c_3 (F := Ideal)
  c_4 : (W (Proc.devRef .tc main_c_4) : S_.Idx → BitVec 32) = val_main_c_4 (F := Ideal)

/-- After operation 37 (the third clamp): x0. -/
structure AtP6 (W : Val) (x0 : Coords) (x1 : Volume) : Prop where
  a0 : (W (Proc.devRef .tc main_arg0) : Coords) = x0
  a1 : (W (Proc.devRef .tc main_arg1) : Volume) = x1
  v5 : (W (Proc.devRef .tc main_v5) : S4194304x3.Idx → EReal) = val_main_v5 (F := Ideal) x0
  v8 : (W (Proc.devRef .tc main_v8) : S4194304.Idx → BitVec 32) = val_main_v8 (F := Ideal) x0
  v11 : (W (Proc.devRef .tc main_v11) : S4194304.Idx → BitVec 32) = val_main_v11 (F := Ideal) x0
  v14 : (W (Proc.devRef .tc main_v14) : S4194304.Idx → BitVec 32) = val_main_v14 (F := Ideal) x0

/-- After operation 58, and kept by every later stage: the two arguments, the six corner index vectors z0 y0 x0 z1 y1 x1 and
    the three weight columns (along z, y, x). No operation after the 58th writes any of these eleven buffers. -/
structure Kept (W : Val) (x0 : Coords) (x1 : Volume) : Prop where
  a0 : (W (Proc.devRef .tc main_arg0) : Coords) = x0
  a1 : (W (Proc.devRef .tc main_arg1) : Volume) = x1
  v8 : (W (Proc.devRef .tc main_v8) : S4194304.Idx → BitVec 32) = val_main_v8 (F := Ideal) x0
  v11 : (W (Proc.devRef .tc main_v11) : S4194304.Idx → BitVec 32) = val_main_v11 (F := Ideal) x0
  v14 : (W (Proc.devRef .tc main_v14) : S4194304.Idx → BitVec 32) = val_main_v14 (F := Ideal) x0
  v18 : (W (Proc.devRef .tc main_v18) : S4194304.Idx → BitVec 32) = val_main_v18 (F := Ideal) x0
  v22 : (W (Proc.devRef .tc main_v22) : S4194304.Idx → BitVec 32) = val_main_v22 (F := Ideal) x0
  v26 : (W (Proc.devRef .tc main_v26) : S4194304.Idx → BitVec 32) = val_main_v26 (F := Ideal) x0
  v27 : (W (Proc.devRef .tc main_v27) : S4194304x1.Idx → EReal) = val_main_v27 (F := Ideal) x0
  v28 : (W (Proc.devRef .tc main_v28) : S4194304x1.Idx → EReal) = val_main_v28 (F := Ideal) x0
  v29 : (W (Proc.devRef .tc main_v29) : S4194304x1.Idx → EReal) = val_main_v29 (F := Ideal) x0

/-- After corner block 1 (operation 85): what is kept, and the first 1 corner column. -/
structure AtC1 (W : Val) (x0 : Coords) (x1 : Volume) : Prop where
  kept : Kept W x0 x1
  v50 : (W (Proc.devRef .tc main_v50) : S4194304x1.Idx → EReal) = val_main_v50 (F := Ideal) x0 x1

/-- After corner block 2 (operation 112): what is kept, and the first 2 corner columns. -/
structure AtC2 (W : Val) (x0 : Coords) (x1 : Volume) : Prop where
  kept : Kept W x0 x1
  v50 : (W (Proc.devRef .tc main_v50) : S4194304x1.Idx → EReal) = val_main_v50 (F := Ideal) x0 x1
  v71 : (W (Proc.devRef .tc main_v71) : S4194304x1.Idx → EReal) = val_main_v71 (F := Ideal) x0 x1

/-- After corner block 3 (operation 139): what is kept, and the first 3 corner columns. -/
structure AtC3 (W : Val) (x0 : Coords) (x1 : Volume) : Prop where
  kept : Kept W x0 x1
  v50 : (W (Proc.devRef .tc main_v50) : S4194304x1.Idx → EReal) = val_main_v50 (F := Ideal) x0 x1
  v71 : (W (Proc.devRef .tc main_v71) : S4194304x1.Idx → EReal) = val_main_v71 (F := Ideal) x0 x1
  v92 : (W (Proc.devRef .tc main_v92) : S4194304x1.Idx → EReal) = val_main_v92 (F := Ideal) x0 x1

/-- After corner block 4 (operation 166): what is kept, and the first 4 corner columns. -/
structure AtC4 (W : Val) (x0 : Coords) (x1 : Volume) : Prop where
  kept : Kept W x0 x1
  v50 : (W (Proc.devRef .tc main_v50) : S4194304x1.Idx → EReal) = val_main_v50 (F := Ideal) x0 x1
  v71 : (W (Proc.devRef .tc main_v71) : S4194304x1.Idx → EReal) = val_main_v71 (F := Ideal) x0 x1
  v92 : (W (Proc.devRef .tc main_v92) : S4194304x1.Idx → EReal) = val_main_v92 (F := Ideal) x0 x1
  v113 : (W (Proc.devRef .tc main_v113) : S4194304x1.Idx → EReal) = val_main_v113 (F := Ideal) x0 x1

/-- After corner block 5 (operation 193): what is kept, and the first 5 corner columns. -/
structure AtC5 (W : Val) (x0 : Coords) (x1 : Volume) : Prop where
  kept : Kept W x0 x1
  v50 : (W (Proc.devRef .tc main_v50) : S4194304x1.Idx → EReal) = val_main_v50 (F := Ideal) x0 x1
  v71 : (W (Proc.devRef .tc main_v71) : S4194304x1.Idx → EReal) = val_main_v71 (F := Ideal) x0 x1
  v92 : (W (Proc.devRef .tc main_v92) : S4194304x1.Idx → EReal) = val_main_v92 (F := Ideal) x0 x1
  v113 : (W (Proc.devRef .tc main_v113) : S4194304x1.Idx → EReal) = val_main_v113 (F := Ideal) x0 x1
  v134 : (W (Proc.devRef .tc main_v134) : S4194304x1.Idx → EReal) = val_main_v134 (F := Ideal) x0 x1

/-- After corner block 6 (operation 220): what is kept, and the first 6 corner columns. -/
structure AtC6 (W : Val) (x0 : Coords) (x1 : Volume) : Prop where
  kept : Kept W x0 x1
  v50 : (W (Proc.devRef .tc main_v50) : S4194304x1.Idx → EReal) = val_main_v50 (F := Ideal) x0 x1
  v71 : (W (Proc.devRef .tc main_v71) : S4194304x1.Idx → EReal) = val_main_v71 (F := Ideal) x0 x1
  v92 : (W (Proc.devRef .tc main_v92) : S4194304x1.Idx → EReal) = val_main_v92 (F := Ideal) x0 x1
  v113 : (W (Proc.devRef .tc main_v113) : S4194304x1.Idx → EReal) = val_main_v113 (F := Ideal) x0 x1
  v134 : (W (Proc.devRef .tc main_v134) : S4194304x1.Idx → EReal) = val_main_v134 (F := Ideal) x0 x1
  v155 : (W (Proc.devRef .tc main_v155) : S4194304x1.Idx → EReal) = val_main_v155 (F := Ideal) x0 x1

/-- After corner block 7 (operation 247): what is kept, and the first 7 corner columns. -/
structure AtC7 (W : Val) (x0 : Coords) (x1 : Volume) : Prop where
  kept : Kept W x0 x1
  v50 : (W (Proc.devRef .tc main_v50) : S4194304x1.Idx → EReal) = val_main_v50 (F := Ideal) x0 x1
  v71 : (W (Proc.devRef .tc main_v71) : S4194304x1.Idx → EReal) = val_main_v71 (F := Ideal) x0 x1
  v92 : (W (Proc.devRef .tc main_v92) : S4194304x1.Idx → EReal) = val_main_v92 (F := Ideal) x0 x1
  v113 : (W (Proc.devRef .tc main_v113) : S4194304x1.Idx → EReal) = val_main_v113 (F := Ideal) x0 x1
  v134 : (W (Proc.devRef .tc main_v134) : S4194304x1.Idx → EReal) = val_main_v134 (F := Ideal) x0 x1
  v155 : (W (Proc.devRef .tc main_v155) : S4194304x1.Idx → EReal) = val_main_v155 (F := Ideal) x0 x1
  v176 : (W (Proc.devRef .tc main_v176) : S4194304x1.Idx → EReal) = val_main_v176 (F := Ideal) x0 x1

/-- After corner block 8 (operation 274): what is kept, and the first 8 corner columns. -/
structure AtC8 (W : Val) (x0 : Coords) (x1 : Volume) : Prop where
  kept : Kept W x0 x1
  v50 : (W (Proc.devRef .tc main_v50) : S4194304x1.Idx → EReal) = val_main_v50 (F := Ideal) x0 x1
  v71 : (W (Proc.devRef .tc main_v71) : S4194304x1.Idx → EReal) = val_main_v71 (F := Ideal) x0 x1
  v92 : (W (Proc.devRef .tc main_v92) : S4194304x1.Idx → EReal) = val_main_v92 (F := Ideal) x0 x1
  v113 : (W (Proc.devRef .tc main_v113) : S4194304x1.Idx → EReal) = val_main_v113 (F := Ideal) x0 x1
  v134 : (W (Proc.devRef .tc main_v134) : S4194304x1.Idx → EReal) = val_main_v134 (F := Ideal) x0 x1
  v155 : (W (Proc.devRef .tc main_v155) : S4194304x1.Idx → EReal) = val_main_v155 (F := Ideal) x0 x1
  v176 : (W (Proc.devRef .tc main_v176) : S4194304x1.Idx → EReal) = val_main_v176 (F := Ideal) x0 x1
  v197 : (W (Proc.devRef .tc main_v197) : S4194304x1.Idx → EReal) = val_main_v197 (F := Ideal) x0 x1

/-- After the last operation: the two arguments and the result. -/
structure AtEnd (W : Val) (x0 : Coords) (x1 : Volume) : Prop where
  a0 : (W (Proc.devRef .tc main_arg0) : Coords) = x0
  a1 : (W (Proc.devRef .tc main_arg1) : Volume) = x1
  v232 : (W (Proc.devRef .tc main_v232) : S4194304x1.Idx → EReal) = val_main_v232 (F := Ideal) x0 x1

/-! ## Carrying what is kept -/

/-- The eleven buffers of Kept. -/
abbrev keptRefs : List (Ref sig .tc) :=
  [main_arg0, main_arg1, main_v8, main_v11, main_v14, main_v18, main_v22, main_v26, main_v27, main_v28, main_v29]

/-- A stretch that writes none of the eleven kept buffers keeps Kept. -/
theorem Kept.carry {W : Val} {x0 : Coords} {x1 : Volume} (h : Kept W x0 x1) {l : List (HloOp τ sig (Elt Ideal))}
    (hl : Untouched l keptRefs) : Kept (StableHlo.after l W) x0 x1 where
  a0 := (Cert.RefRunHand.carry hl W (r := main_arg0) (by decide)).trans h.a0
  a1 := (Cert.RefRunHand.carry hl W (r := main_arg1) (by decide)).trans h.a1
  v8 := (Cert.RefRunHand.carry hl W (r := main_v8) (by decide)).trans h.v8
  v11 := (Cert.RefRunHand.carry hl W (r := main_v11) (by decide)).trans h.v11
  v14 := (Cert.RefRunHand.carry hl W (r := main_v14) (by decide)).trans h.v14
  v18 := (Cert.RefRunHand.carry hl W (r := main_v18) (by decide)).trans h.v18
  v22 := (Cert.RefRunHand.carry hl W (r := main_v22) (by decide)).trans h.v22
  v26 := (Cert.RefRunHand.carry hl W (r := main_v26) (by decide)).trans h.v26
  v27 := (Cert.RefRunHand.carry hl W (r := main_v27) (by decide)).trans h.v27
  v28 := (Cert.RefRunHand.carry hl W (r := main_v28) (by decide)).trans h.v28
  v29 := (Cert.RefRunHand.carry hl W (r := main_v29) (by decide)).trans h.v29

end Cert.RefRunHand

end
-- ==== Proof.RefStepPrefix.lean ====
/-
  The first 58 operations of the reference, stage by stage: from the coordinate array to the six corner index vectors
  and the three weight columns. Each stage is a short stretch of operations read one by one against the reference's own
  definitions of the same operations; the buffers a stretch does not write are carried across it.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-! ## Operations 1 to 11 -/

theorem untouchedP1 : Untouched cP1 [main_arg0, main_arg1] := by decide +kernel

/-- From any valuation: the stretch scales the coordinates it finds by 511, takes integer parts, subtracts them for the
    weights, slices and flattens the first integer column, and writes the clamp bounds 0 and 511. The arguments are the
    ones it found. -/
theorem stepP1 (W : Val) : AtP1 (StableHlo.after cP1 W) (W (Proc.devRef .tc main_arg0)) (W (Proc.devRef .tc main_arg1)) := by
  have hu := untouchedP1
  refine ⟨carry hu W (by decide), carry hu W (by decide), ?_, ?_, ?_, ?_, ?_⟩
  all_goals (dsimp only [cP1, chunk, allOps, ops, List.drop, List.take]; ref_results; rfl)

/-! ## Operations 12 to 17: the first clamp -/

theorem untouchedP2 : Untouched cP2 [main_arg0, main_arg1, main_v3, main_v5] := by decide +kernel

/-- z0 is the minimum with 511 of the maximum with 0 of the first integer column. -/
theorem stepP2 (W : Val) (x0 : Coords) (x1 : Volume) (h : AtP1 W x0 x1) : AtP2 (StableHlo.after cP2 W) x0 x1 := by
  have hu := untouchedP2
  refine ⟨(carry hu W (by decide)).trans h.a0, (carry hu W (by decide)).trans h.a1, (carry hu W (by decide)).trans h.v3, (carry hu W (by decide)).trans h.v5, ?_⟩
  dsimp only [cP2, chunk, allOps, ops, List.drop, List.take]; ref_results; rw [h.v7, h.c, h.c_0]; rfl

/-! ## Operations 18 to 21: the second integer column -/

theorem untouchedP3 : Untouched cP3 [main_arg0, main_arg1, main_v3, main_v5, main_v8] := by decide +kernel

theorem stepP3 (W : Val) (x0 : Coords) (x1 : Volume) (h : AtP2 W x0 x1) : AtP3 (StableHlo.after cP3 W) x0 x1 := by
  have hu := untouchedP3
  refine ⟨(carry hu W (by decide)).trans h.a0, (carry hu W (by decide)).trans h.a1, (carry hu W (by decide)).trans h.v3, (carry hu W (by decide)).trans h.v5, (carry hu W (by decide)).trans h.v8, ?_, ?_, ?_⟩
  · dsimp only [cP3, chunk, allOps, ops, List.drop, List.take]; ref_results; rw [h.v3]; rfl
  · dsimp only [cP3, chunk, allOps, ops, List.drop, List.take]; ref_results; rfl
  · dsimp only [cP3, chunk, allOps, ops, List.drop, List.take]; ref_results; rfl

/-! ## Operations 22 to 27: the second clamp -/

theorem untouchedP4 : Untouched cP4 [main_arg0, main_arg1, main_v3, main_v5, main_v8] := by decide +kernel

theorem stepP4 (W : Val) (x0 : Coords) (x1 : Volume) (h : AtP3 W x0 x1) : AtP4 (StableHlo.after cP4 W) x0 x1 := by
  have hu := untouchedP4
  refine ⟨(carry hu W (by decide)).trans h.a0, (carry hu W (by decide)).trans h.a1, (carry hu W (by decide)).trans h.v3, (carry hu W (by decide)).trans h.v5, (carry hu W (by decide)).trans h.v8, ?_⟩
  dsimp only [cP4, chunk, allOps, ops, List.drop, List.take]; ref_results; rw [h.v10, h.c_1, h.c_2]; rfl

/-! ## Operations 28 to 31: the third integer column -/

theorem untouchedP5 : Untouched cP5 [main_arg0, main_arg1, main_v5, main_v8, main_v11] := by decide +kernel

theorem stepP5 (W : Val) (x0 : Coords) (x1 : Volume) (h : AtP4 W x0 x1) : AtP5 (StableHlo.after cP5 W) x0 x1 := by
  have hu := untouchedP5
  refine ⟨(carry hu W (by decide)).trans h.a0, (carry hu W (by decide)).trans h.a1, (carry hu W (by decide)).trans h.v5, (carry hu W (by decide)).trans h.v8, (carry hu W (by decide)).trans h.v11, ?_, ?_, ?_⟩
  · dsimp only [cP5, chunk, allOps, ops, List.drop, List.take]; ref_results; rw [h.v3]; rfl
  · dsimp only [cP5, chunk, allOps, ops, List.drop, List.take]; ref_results; rfl
  · dsimp only [cP5, chunk, allOps, ops, List.drop, List.take]; ref_results; rfl

/-! ## Operations 32 to 37: the third clamp -/

theorem untouchedP6 : Untouched cP6 [main_arg0, main_arg1, main_v5, main_v8, main_v11] := by decide +kernel

theorem stepP6 (W : Val) (x0 : Coords) (x1 : Volume) (h : AtP5 W x0 x1) : AtP6 (StableHlo.after cP6 W) x0 x1 := by
  have hu := untouchedP6
  refine ⟨(carry hu W (by decide)).trans h.a0, (carry hu W (by decide)).trans h.a1, (carry hu W (by decide)).trans h.v5, (carry hu W (by decide)).trans h.v8, (carry hu W (by decide)).trans h.v11, ?_⟩
  dsimp only [cP6, chunk, allOps, ops, List.drop, List.take]; ref_results; rw [h.v13, h.c_3, h.c_4]; rfl

/-! ## Operations 38 to 58: the upper indices and the weight columns -/

theorem untouchedP7 : Untouched cP7 [main_arg0, main_arg1, main_v8, main_v11, main_v14] := by decide +kernel

set_option maxHeartbeats 4000000 in
/-- Each upper index is the lower one plus one, clamped above by 511; each weight column is a column of the weights. -/
theorem stepP7 (W : Val) (x0 : Coords) (x1 : Volume) (h : AtP6 W x0 x1) : Kept (StableHlo.after cP7 W) x0 x1 := by
  have hu := untouchedP7
  refine ⟨(carry hu W (by decide)).trans h.a0, (carry hu W (by decide)).trans h.a1, (carry hu W (by decide)).trans h.v8, (carry hu W (by decide)).trans h.v11, (carry hu W (by decide)).trans h.v14, ?_, ?_, ?_, ?_, ?_, ?_⟩
  · dsimp only [cP7, chunk, allOps, ops, List.drop, List.take]; ref_results; rw [h.v8]; rfl
  · dsimp only [cP7, chunk, allOps, ops, List.drop, List.take]; ref_results; rw [h.v11]; rfl
  · dsimp only [cP7, chunk, allOps, ops, List.drop, List.take]; ref_results; rw [h.v14]; rfl
  · dsimp only [cP7, chunk, allOps, ops, List.drop, List.take]; ref_results; rw [h.v5]; rfl
  · dsimp only [cP7, chunk, allOps, ops, List.drop, List.take]; ref_results; rw [h.v5]; rfl
  · dsimp only [cP7, chunk, allOps, ops, List.drop, List.take]; ref_results; rw [h.v5]; rfl

/-! ## The seven stages composed -/

/-- After the first 58 operations, from any valuation, the kept buffers hold the reference's stages of the two argument
    arrays the valuation held. -/
theorem stepPrefix (W : Val) :
    Kept (StableHlo.after cP7 (StableHlo.after cP6 (StableHlo.after cP5 (StableHlo.after cP4 (StableHlo.after cP3 (StableHlo.after cP2 (StableHlo.after cP1 W)))))))
      (W (Proc.devRef .tc main_arg0)) (W (Proc.devRef .tc main_arg1)) :=
  stepP7 _ _ _ (stepP6 _ _ _ (stepP5 _ _ _ (stepP4 _ _ _ (stepP3 _ _ _ (stepP2 _ _ _ (stepP1 W))))))

end Cert.RefRunHand

end
-- ==== Proof.RefStepC1.lean ====
/-
  The first corner block of the reference: operations 59 to 85. It wraps the three lower corner index vectors z0, y0, x0
  (an index below zero has 512 added: signed comparison with 0, addition of 512, selection), gives each a trailing unit axis, stacks the three
  columns into a 4194304 x 3 index array, gathers the volume at those indices, and gives the gathered vector a trailing
  unit axis: the corner column main_v50, corner (z0, y0, x0) of every point.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- None of the 27 operations writes a kept buffer: each writes its own result, a buffer first written in this block. -/
theorem untouchedC1 : Untouched cC1 keptRefs := by decide +kernel

set_option maxHeartbeats 4000000 in
/-- From any valuation holding the kept stages, the block leaves them in place and leaves in main_v50 the reference's
    stage of that name. The 27 operations are read one by one against the reference's definitions of the same
    operations; the three index vectors and the volume they start from are the kept ones. -/
theorem stepC1 (W : Val) (x0 : Coords) (x1 : Volume) (h : Kept W x0 x1) : AtC1 (StableHlo.after cC1 W) x0 x1 where
  kept := h.carry untouchedC1
  v50 := by
    dsimp only [cC1, chunk, allOps, ops, List.drop, List.take]
    ref_results
    rw [h.v8, h.v11, h.v14, h.a1]
    rfl

end Cert.RefRunHand

end
-- ==== Proof.RefStepC2.lean ====
/-
  The second corner block of the reference: operations 86 to 112. It wraps the three corner index vectors z0, y0, x1
  (an index below zero has 512 added: signed comparison with 0, addition of 512, selection), gives each a trailing unit
  axis, stacks the three columns into a 4194304 x 3 index array, gathers the volume at those indices, and gives the
  gathered vector a trailing unit axis: the corner column main_v71, corner (z0, y0, x1) of every point (the lower z
  index, the lower y index, the upper x index). The corner columns of the earlier blocks are only carried.

  The block is read in two parts: its first 24 operations build the three wrapped columns main_v66, main_v67, main_v68, each
  read on its own; its last three stack them, gather, and add the trailing axis. Every operation's result at its own
  buffer is its function's value and at any other buffer what was there.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- None of the 27 operations writes a kept buffer: each writes its own result, a buffer first written in this block. -/
theorem untouchedC2 : Untouched cC2 keptRefs := by decide +kernel

/-- Nor does any of them write a corner column of an earlier block. -/
theorem untouchedC2' : Untouched cC2 [main_v50] := by decide +kernel

/-! ### The first 24 operations: the three wrapped columns -/

/-- The first 24 operations leave in main_v66 the wrapped z index vector z0 as a column: the reference's stage of that name. -/
theorem colC2_66 (W : Val) (x0 : Coords) (x1 : Volume) (h : AtC1 W x0 x1) :
    (StableHlo.after (List.take 24 cC2) W (Proc.devRef .tc main_v66) : S4194304x1.Idx → BitVec 32) = val_main_v66 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v8]
  rfl

/-- The first 24 operations leave in main_v67 the wrapped y index vector y0 as a column: the reference's stage of that name. -/
theorem colC2_67 (W : Val) (x0 : Coords) (x1 : Volume) (h : AtC1 W x0 x1) :
    (StableHlo.after (List.take 24 cC2) W (Proc.devRef .tc main_v67) : S4194304x1.Idx → BitVec 32) = val_main_v67 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v11]
  rfl

/-- The first 24 operations leave in main_v68 the wrapped x index vector x1 as a column: the reference's stage of that name. -/
theorem colC2_68 (W : Val) (x0 : Coords) (x1 : Volume) (h : AtC1 W x0 x1) :
    (StableHlo.after (List.take 24 cC2) W (Proc.devRef .tc main_v68) : S4194304x1.Idx → BitVec 32) = val_main_v68 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v26]
  rfl

/-- The first 24 operations do not write the volume. -/
theorem volC2 (W : Val) (x0 : Coords) (x1 : Volume) (h : AtC1 W x0 x1) :
    (StableHlo.after (List.take 24 cC2) W (Proc.devRef .tc main_arg1) : Volume) = x1 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  exact h.kept.a1

/-! ### The last three operations, and the step -/

/-- The stacking operation leaves in main_v69 the three columns main_v66, main_v67, main_v68, as the valuation holds them, side
    by side. -/
theorem stackC2 (hxs hy) (G : Val) :
    (nary (τ := τ) ![main_v66, main_v67, main_v68] main_v69
        (fun u => concatenate S4194304x3 1 [⟨S4194304x1, u 0⟩, ⟨S4194304x1, u 1⟩, ⟨S4194304x1, u 2⟩]
          concatenates_S4194304x1_S4194304x1_S4194304x1_S4194304x3_d1) hxs hy).result G (no_index (Proc.devRef .tc main_v69))
      = concatenate S4194304x3 1 [⟨S4194304x1, G (Proc.devRef .tc main_v66)⟩, ⟨S4194304x1, G (Proc.devRef .tc main_v67)⟩,
          ⟨S4194304x1, G (Proc.devRef .tc main_v68)⟩] concatenates_S4194304x1_S4194304x1_S4194304x1_S4194304x3_d1 := by
  rw [nary_result]
  rfl

set_option maxHeartbeats 4000000 in
/-- From any valuation holding the kept stages and the earlier corner columns, the block leaves them in place and leaves
    in main_v71 the reference's stage of that name: the gather of the volume at the three wrapped columns of z0, y0, x1
    side by side, with a trailing unit axis. -/
theorem stepC2 (W : Val) (x0 : Coords) (x1 : Volume) (h : AtC1 W x0 x1) : AtC2 (StableHlo.after cC2 W) x0 x1 where
  kept := h.kept.carry untouchedC2
  v50 := (carry untouchedC2' W (by decide)).trans h.v50
  v71 := by
    -- the block is its first 24 operations, then its last three
    rw [← List.take_append_drop 24 cC2, StableHlo.after_append]
    show StableHlo.after [_, _, _] (StableHlo.after (List.take 24 cC2) W) _ = _
    simp (disch := decide) only [after_cons, after_nil, unary_result', binary_result', stackC2,
      unary_result_ne', binary_result_ne', nary_result_ne']
    rw [colC2_66 W x0 x1 h, colC2_67 W x0 x1 h, colC2_68 W x0 x1 h, volC2 W x0 x1 h]
    rfl

end Cert.RefRunHand

end
-- ==== Proof.RefStepC3.lean ====
/-
  The third corner block of the reference: operations 113 to 139. It wraps the three corner index vectors z0, y1, x0
  (an index below zero has 512 added: signed comparison with 0, addition of 512, selection), gives each a trailing unit
  axis, stacks the three columns into a 4194304 x 3 index array, gathers the volume at those indices, and gives the
  gathered vector a trailing unit axis: the corner column main_v92, corner (z0, y1, x0) of every point (the lower z
  index, the upper y index, the lower x index). The corner columns of the earlier blocks are only carried.

  The block is read in two parts: its first 24 operations build the three wrapped columns main_v87, main_v88, main_v89, each
  read on its own; its last three stack them, gather, and add the trailing axis. Every operation's result at its own
  buffer is its function's value and at any other buffer what was there.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- None of the 27 operations writes a kept buffer: each writes its own result, a buffer first written in this block. -/
theorem untouchedC3 : Untouched cC3 keptRefs := by decide +kernel

/-- Nor does any of them write a corner column of an earlier block. -/
theorem untouchedC3' : Untouched cC3 [main_v50, main_v71] := by decide +kernel

/-! ### The first 24 operations: the three wrapped columns -/

/-- The first 24 operations leave in main_v87 the wrapped z index vector z0 as a column: the reference's stage of that name. -/
theorem colC3_87 (W : Val) (x0 : Coords) (x1 : Volume) (h : AtC2 W x0 x1) :
    (StableHlo.after (List.take 24 cC3) W (Proc.devRef .tc main_v87) : S4194304x1.Idx → BitVec 32) = val_main_v87 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v8]
  rfl

/-- The first 24 operations leave in main_v88 the wrapped y index vector y1 as a column: the reference's stage of that name. -/
theorem colC3_88 (W : Val) (x0 : Coords) (x1 : Volume) (h : AtC2 W x0 x1) :
    (StableHlo.after (List.take 24 cC3) W (Proc.devRef .tc main_v88) : S4194304x1.Idx → BitVec 32) = val_main_v88 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v22]
  rfl

/-- The first 24 operations leave in main_v89 the wrapped x index vector x0 as a column: the reference's stage of that name. -/
theorem colC3_89 (W : Val) (x0 : Coords) (x1 : Volume) (h : AtC2 W x0 x1) :
    (StableHlo.after (List.take 24 cC3) W (Proc.devRef .tc main_v89) : S4194304x1.Idx → BitVec 32) = val_main_v89 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v14]
  rfl

/-- The first 24 operations do not write the volume. -/
theorem volC3 (W : Val) (x0 : Coords) (x1 : Volume) (h : AtC2 W x0 x1) :
    (StableHlo.after (List.take 24 cC3) W (Proc.devRef .tc main_arg1) : Volume) = x1 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  exact h.kept.a1

/-! ### The last three operations, and the step -/

/-- The stacking operation leaves in main_v90 the three columns main_v87, main_v88, main_v89, as the valuation holds them, side
    by side. -/
theorem stackC3 (hxs hy) (G : Val) :
    (nary (τ := τ) ![main_v87, main_v88, main_v89] main_v90
        (fun u => concatenate S4194304x3 1 [⟨S4194304x1, u 0⟩, ⟨S4194304x1, u 1⟩, ⟨S4194304x1, u 2⟩]
          concatenates_S4194304x1_S4194304x1_S4194304x1_S4194304x3_d1) hxs hy).result G (no_index (Proc.devRef .tc main_v90))
      = concatenate S4194304x3 1 [⟨S4194304x1, G (Proc.devRef .tc main_v87)⟩, ⟨S4194304x1, G (Proc.devRef .tc main_v88)⟩,
          ⟨S4194304x1, G (Proc.devRef .tc main_v89)⟩] concatenates_S4194304x1_S4194304x1_S4194304x1_S4194304x3_d1 := by
  rw [nary_result]
  rfl

set_option maxHeartbeats 4000000 in
/-- From any valuation holding the kept stages and the earlier corner columns, the block leaves them in place and leaves
    in main_v92 the reference's stage of that name: the gather of the volume at the three wrapped columns of z0, y1, x0
    side by side, with a trailing unit axis. -/
theorem stepC3 (W : Val) (x0 : Coords) (x1 : Volume) (h : AtC2 W x0 x1) : AtC3 (StableHlo.after cC3 W) x0 x1 where
  kept := h.kept.carry untouchedC3
  v50 := (carry untouchedC3' W (by decide)).trans h.v50
  v71 := (carry untouchedC3' W (by decide)).trans h.v71
  v92 := by
    -- the block is its first 24 operations, then its last three
    rw [← List.take_append_drop 24 cC3, StableHlo.after_append]
    show StableHlo.after [_, _, _] (StableHlo.after (List.take 24 cC3) W) _ = _
    simp (disch := decide) only [after_cons, after_nil, unary_result', binary_result', stackC3,
      unary_result_ne', binary_result_ne', nary_result_ne']
    rw [colC3_87 W x0 x1 h, colC3_88 W x0 x1 h, colC3_89 W x0 x1 h, volC3 W x0 x1 h]
    rfl

end Cert.RefRunHand

end
-- ==== Proof.RefStepC4.lean ====
/-
  The fourth corner block of the reference: operations 140 to 166. It wraps the three corner index vectors z0, y1, x1
  (an index below zero has 512 added: signed comparison with 0, addition of 512, selection), gives each a trailing unit
  axis, stacks the three columns into a 4194304 x 3 index array, gathers the volume at those indices, and gives the
  gathered vector a trailing unit axis: the corner column main_v113, corner (z0, y1, x1) of every point (the lower z
  index, the upper y index, the upper x index). The corner columns of the earlier blocks are only carried.

  The block is read in two parts: its first 24 operations build the three wrapped columns main_v108, main_v109, main_v110, each
  read on its own; its last three stack them, gather, and add the trailing axis. Every operation's result at its own
  buffer is its function's value and at any other buffer what was there.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- None of the 27 operations writes a kept buffer: each writes its own result, a buffer first written in this block. -/
theorem untouchedC4 : Untouched cC4 keptRefs := by decide +kernel

/-- Nor does any of them write a corner column of an earlier block. -/
theorem untouchedC4' : Untouched cC4 [main_v50, main_v71, main_v92] := by decide +kernel

/-! ### The first 24 operations: the three wrapped columns -/

/-- The first 24 operations leave in main_v108 the wrapped z index vector z0 as a column: the reference's stage of that name. -/
theorem colC4_108 (W : Val) (x0 : Coords) (x1 : Volume) (h : AtC3 W x0 x1) :
    (StableHlo.after (List.take 24 cC4) W (Proc.devRef .tc main_v108) : S4194304x1.Idx → BitVec 32) = val_main_v108 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v8]
  rfl

/-- The first 24 operations leave in main_v109 the wrapped y index vector y1 as a column: the reference's stage of that name. -/
theorem colC4_109 (W : Val) (x0 : Coords) (x1 : Volume) (h : AtC3 W x0 x1) :
    (StableHlo.after (List.take 24 cC4) W (Proc.devRef .tc main_v109) : S4194304x1.Idx → BitVec 32) = val_main_v109 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v22]
  rfl

/-- The first 24 operations leave in main_v110 the wrapped x index vector x1 as a column: the reference's stage of that name. -/
theorem colC4_110 (W : Val) (x0 : Coords) (x1 : Volume) (h : AtC3 W x0 x1) :
    (StableHlo.after (List.take 24 cC4) W (Proc.devRef .tc main_v110) : S4194304x1.Idx → BitVec 32) = val_main_v110 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v26]
  rfl

/-- The first 24 operations do not write the volume. -/
theorem volC4 (W : Val) (x0 : Coords) (x1 : Volume) (h : AtC3 W x0 x1) :
    (StableHlo.after (List.take 24 cC4) W (Proc.devRef .tc main_arg1) : Volume) = x1 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  exact h.kept.a1

/-! ### The last three operations, and the step -/

/-- The stacking operation leaves in main_v111 the three columns main_v108, main_v109, main_v110, as the valuation holds them, side
    by side. -/
theorem stackC4 (hxs hy) (G : Val) :
    (nary (τ := τ) ![main_v108, main_v109, main_v110] main_v111
        (fun u => concatenate S4194304x3 1 [⟨S4194304x1, u 0⟩, ⟨S4194304x1, u 1⟩, ⟨S4194304x1, u 2⟩]
          concatenates_S4194304x1_S4194304x1_S4194304x1_S4194304x3_d1) hxs hy).result G (no_index (Proc.devRef .tc main_v111))
      = concatenate S4194304x3 1 [⟨S4194304x1, G (Proc.devRef .tc main_v108)⟩, ⟨S4194304x1, G (Proc.devRef .tc main_v109)⟩,
          ⟨S4194304x1, G (Proc.devRef .tc main_v110)⟩] concatenates_S4194304x1_S4194304x1_S4194304x1_S4194304x3_d1 := by
  rw [nary_result]
  rfl

set_option maxHeartbeats 4000000 in
/-- From any valuation holding the kept stages and the earlier corner columns, the block leaves them in place and leaves
    in main_v113 the reference's stage of that name: the gather of the volume at the three wrapped columns of z0, y1, x1
    side by side, with a trailing unit axis. -/
theorem stepC4 (W : Val) (x0 : Coords) (x1 : Volume) (h : AtC3 W x0 x1) : AtC4 (StableHlo.after cC4 W) x0 x1 where
  kept := h.kept.carry untouchedC4
  v50 := (carry untouchedC4' W (by decide)).trans h.v50
  v71 := (carry untouchedC4' W (by decide)).trans h.v71
  v92 := (carry untouchedC4' W (by decide)).trans h.v92
  v113 := by
    -- the block is its first 24 operations, then its last three
    rw [← List.take_append_drop 24 cC4, StableHlo.after_append]
    show StableHlo.after [_, _, _] (StableHlo.after (List.take 24 cC4) W) _ = _
    simp (disch := decide) only [after_cons, after_nil, unary_result', binary_result', stackC4,
      unary_result_ne', binary_result_ne', nary_result_ne']
    rw [colC4_108 W x0 x1 h, colC4_109 W x0 x1 h, colC4_110 W x0 x1 h, volC4 W x0 x1 h]
    rfl

end Cert.RefRunHand

end
-- ==== Proof.RefStepC5.lean ====
/-
  The fifth corner block of the reference: operations 167 to 193. It wraps the three corner index vectors z1, y0, x0
  (an index below zero has 512 added: signed comparison with 0, addition of 512, selection), gives each a trailing unit
  axis, stacks the three columns into a 4194304 x 3 index array, gathers the volume at those indices, and gives the
  gathered vector a trailing unit axis: the corner column main_v134, corner (z1, y0, x0) of every point (the upper z
  index, the lower y index, the lower x index). The corner columns of the earlier blocks are only carried.

  The block is read in two parts: its first 24 operations build the three wrapped columns main_v129, main_v130, main_v131, each
  read on its own; its last three stack them, gather, and add the trailing axis. Every operation's result at its own
  buffer is its function's value and at any other buffer what was there.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- None of the 27 operations writes a kept buffer: each writes its own result, a buffer first written in this block. -/
theorem untouchedC5 : Untouched cC5 keptRefs := by decide +kernel

/-- Nor does any of them write a corner column of an earlier block. -/
theorem untouchedC5' : Untouched cC5 [main_v50, main_v71, main_v92, main_v113] := by decide +kernel

/-! ### The first 24 operations: the three wrapped columns -/

/-- The first 24 operations leave in main_v129 the wrapped z index vector z1 as a column: the reference's stage of that name. -/
theorem colC5_129 (W : Val) (x0 : Coords) (x1 : Volume) (h : AtC4 W x0 x1) :
    (StableHlo.after (List.take 24 cC5) W (Proc.devRef .tc main_v129) : S4194304x1.Idx → BitVec 32) = val_main_v129 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v18]
  rfl

/-- The first 24 operations leave in main_v130 the wrapped y index vector y0 as a column: the reference's stage of that name. -/
theorem colC5_130 (W : Val) (x0 : Coords) (x1 : Volume) (h : AtC4 W x0 x1) :
    (StableHlo.after (List.take 24 cC5) W (Proc.devRef .tc main_v130) : S4194304x1.Idx → BitVec 32) = val_main_v130 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v11]
  rfl

/-- The first 24 operations leave in main_v131 the wrapped x index vector x0 as a column: the reference's stage of that name. -/
theorem colC5_131 (W : Val) (x0 : Coords) (x1 : Volume) (h : AtC4 W x0 x1) :
    (StableHlo.after (List.take 24 cC5) W (Proc.devRef .tc main_v131) : S4194304x1.Idx → BitVec 32) = val_main_v131 (F := Ideal) x0 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  rw [h.kept.v14]
  rfl

/-- The first 24 operations do not write the volume. -/
theorem volC5 (W : Val) (x0 : Coords) (x1 : Volume) (h : AtC4 W x0 x1) :
    (StableHlo.after (List.take 24 cC5) W (Proc.devRef .tc main_arg1) : Volume) = x1 := by
  show StableHlo.after [_, _, _, _, _, _, _, _, _, _, _, _, _, _, _, _, _, _, _, _, _, _, _, _] W _ = _
  simp (disch := decide) only [after_cons, after_nil, nullary_result', unary_result', binary_result', ternary_result',
    nullary_result_ne', unary_result_ne', binary_result_ne', ternary_result_ne']
  exact h.kept.a1

/-! ### The last three operations, and the step -/

/-- The stacking operation leaves in main_v132 the three columns main_v129, main_v130, main_v131, as the valuation holds them, side
    by side. -/
theorem stackC5 (hxs hy) (G : Val) :
    (nary (τ := τ) ![main_v129, main_v130, main_v131] main_v132
        (fun u => concatenate S4194304x3 1 [⟨S4194304x1, u 0⟩, ⟨S4194304x1, u 1⟩, ⟨S4194304x1, u 2⟩]
          concatenates_S4194304x1_S4194304x1_S4194304x1_S4194304x3_d1) hxs hy).result G (no_index (Proc.devRef .tc main_v132))
      = concatenate S4194304x3 1 [⟨S4194304x1, G (Proc.devRef .tc main_v129)⟩, ⟨S4194304x1, G (Proc.devRef .tc main_v130)⟩,
          ⟨S4194304x1, G (Proc.devRef .tc main_v131)⟩] concatenates_S4194304x1_S4194304x1_S4194304x1_S4194304x3_d1 := by
  rw [nary_result]
  rfl

set_option maxHeartbeats 4000000 in
/-- From any valuation holding the kept stages and the earlier corner columns, the block leaves them in place and leaves
    in main_v134 the reference's stage of that name: the gather of the volume at the three wrapped columns of z1, y0, x0
    side by side, with a trailing unit axis. -/
theorem stepC5 (W : Val) (x0 : Coords) (x1 : Volume) (h : AtC4 W x0 x1) : AtC5 (StableHlo.after cC5 W) x0 x1 where
  kept := h.kept.carry untouchedC5
  v50 := (carry untouchedC5' W (by decide)).trans h.v50
  v71 := (carry untouchedC5' W (by decide)).trans h.v71
  v92 := (carry untouchedC5' W (by decide)).trans h.v92
  v113 := (carry untouchedC5' W (by decide)).trans h.v113
  v134 := by
    -- the block is its first 24 operations, then its last three
    rw [← List.take_append_drop 24 cC5, StableHlo.after_append]
    show StableHlo.after [_, _, _] (StableHlo.after (List.take 24 cC5) W) _ = _
    simp (disch := decide) only [after_cons, after_nil, unary_result', binary_result', stackC5,
      unary_result_ne', binary_result_ne', nary_result_ne']
    rw [colC5_129 W x0 x1 h, colC5_130 W x0 x1 h, colC5_131 W x0 x1 h, volC5 W x0 x1 h]
    rfl

end Cert.RefRunHand

end
-- ==== Proof.RefStepC6.lean ====
/-
  Corner block 6 of the reference: operations 194 to 220. It wraps the three corner index vectors z1, y0, x1 (an index
  below zero has 512 added: signed comparison with 0, addition of 512, selection), gives each a trailing unit axis,
  stacks the three columns into a 4194304 x 3 index array, gathers the volume at those indices, and gives the gathered
  vector a trailing unit axis: the corner column main_v155, corner (z1, y0, x1) of every point. The block is followed in
  four groups of operations: the wrapping of each of the three vectors (seven operations each) and the six that stack,
  gather and reshape.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-! ## The four groups -/

abbrev g6Z := chunk 193 7
abbrev g6Y := chunk 200 7
abbrev g6X := chunk 207 7
abbrev g6T := chunk 214 6

/-- The block is its four groups laid end to end: both sides are the same literal list. -/
theorem cC6_groups : cC6 = g6Z ++ (g6Y ++ (g6X ++ g6T)) := rfl

theorem after_cC6 (W : Val) : StableHlo.after cC6 W
    = StableHlo.after g6T (StableHlo.after g6X (StableHlo.after g6Y (StableHlo.after g6Z W))) := by
  rw [cC6_groups]; simp only [StableHlo.after_append]

/-! ## What the groups leave alone -/

theorem uZ6 : Untouched g6Z keptRefs := by decide +kernel
theorem uY6 : Untouched g6Y keptRefs := by decide +kernel
theorem uX6 : Untouched g6X keptRefs := by decide +kernel
theorem uT6 : Untouched g6T keptRefs := by decide +kernel
theorem uZ6' : Untouched g6Z [main_v50, main_v71, main_v92, main_v113, main_v134] := by decide +kernel
theorem uY6' : Untouched g6Y [main_v50, main_v71, main_v92, main_v113, main_v134] := by decide +kernel
theorem uX6' : Untouched g6X [main_v50, main_v71, main_v92, main_v113, main_v134] := by decide +kernel
theorem uT6' : Untouched g6T [main_v50, main_v71, main_v92, main_v113, main_v134] := by decide +kernel
theorem uYw6 : Untouched g6Y [main_v139] := by decide +kernel
theorem uXw6 : Untouched g6X [main_v139, main_v144] := by decide +kernel

/-- A stretch that writes no kept buffer and no earlier corner column keeps the entry statement. -/
theorem entry_carry6 {W : Val} {x0 : Coords} {x1 : Volume} (h : AtC5 W x0 x1) {l : List (HloOp τ sig (Elt Ideal))}
    (hl : Untouched l keptRefs) (hc : Untouched l [main_v50, main_v71, main_v92, main_v113, main_v134]) : AtC5 (StableHlo.after l W) x0 x1 where
  kept := h.kept.carry hl
  v50 := (carry hc W (by decide)).trans h.v50
  v71 := (carry hc W (by decide)).trans h.v71
  v92 := (carry hc W (by decide)).trans h.v92
  v113 := (carry hc W (by decide)).trans h.v113
  v134 := (carry hc W (by decide)).trans h.v134

/-! ## Between the groups -/

/-- After the first group: the entry statement and the wrapped z1. -/
structure MidZ6 (W : Val) (x0 : Coords) (x1 : Volume) : Prop where
  ent : AtC5 W x0 x1
  wz : (W (Proc.devRef .tc main_v139) : S4194304.Idx → BitVec 32) = val_main_v139 (F := Ideal) x0
/-- After the second: also the wrapped y0. -/
structure MidY6 (W : Val) (x0 : Coords) (x1 : Volume) : Prop where
  ent : AtC5 W x0 x1
  wz : (W (Proc.devRef .tc main_v139) : S4194304.Idx → BitVec 32) = val_main_v139 (F := Ideal) x0
  wy : (W (Proc.devRef .tc main_v144) : S4194304.Idx → BitVec 32) = val_main_v144 (F := Ideal) x0
/-- After the third: also the wrapped x1. -/
structure MidX6 (W : Val) (x0 : Coords) (x1 : Volume) : Prop where
  ent : AtC5 W x0 x1
  wz : (W (Proc.devRef .tc main_v139) : S4194304.Idx → BitVec 32) = val_main_v139 (F := Ideal) x0
  wy : (W (Proc.devRef .tc main_v144) : S4194304.Idx → BitVec 32) = val_main_v144 (F := Ideal) x0
  wx : (W (Proc.devRef .tc main_v149) : S4194304.Idx → BitVec 32) = val_main_v149 (F := Ideal) x0

/-! ## The four steps -/

theorem stepZ6 (W : Val) (x0 : Coords) (x1 : Volume) (h : AtC5 W x0 x1) : MidZ6 (StableHlo.after g6Z W) x0 x1 where
  ent := entry_carry6 h uZ6 uZ6'
  wz := by
    dsimp only [g6Z, chunk, allOps, ops, List.drop, List.take]; ref_results; rw [h.kept.v18]; rfl

theorem stepY6 (W : Val) (x0 : Coords) (x1 : Volume) (h : MidZ6 W x0 x1) : MidY6 (StableHlo.after g6Y W) x0 x1 where
  ent := entry_carry6 h.ent uY6 uY6'
  wz := (carry uYw6 W (by decide)).trans h.wz
  wy := by
    dsimp only [g6Y, chunk, allOps, ops, List.drop, List.take]; ref_results; rw [h.ent.kept.v11]; rfl

theorem stepX6 (W : Val) (x0 : Coords) (x1 : Volume) (h : MidY6 W x0 x1) : MidX6 (StableHlo.after g6X W) x0 x1 where
  ent := entry_carry6 h.ent uX6 uX6'
  wz := (carry uXw6 W (by decide)).trans h.wz
  wy := (carry uXw6 W (by decide)).trans h.wy
  wx := by
    dsimp only [g6X, chunk, allOps, ops, List.drop, List.take]; ref_results; rw [h.ent.kept.v26]; rfl

/-- The stacking operation leaves in main_v153 the three columns main_v150, main_v151, main_v152, as the valuation holds
    them, side by side. -/
theorem stack6 (hxs hy) (G : Val) :
    (nary (τ := τ) ![main_v150, main_v151, main_v152] main_v153
        (fun u => concatenate S4194304x3 1 [⟨S4194304x1, u 0⟩, ⟨S4194304x1, u 1⟩, ⟨S4194304x1, u 2⟩]
          concatenates_S4194304x1_S4194304x1_S4194304x1_S4194304x3_d1) hxs hy).result G (Proc.devRef .tc main_v153)
      = concatenate S4194304x3 1 [⟨S4194304x1, G (Proc.devRef .tc main_v150)⟩, ⟨S4194304x1, G (Proc.devRef .tc main_v151)⟩,
          ⟨S4194304x1, G (Proc.devRef .tc main_v152)⟩] concatenates_S4194304x1_S4194304x1_S4194304x1_S4194304x3_d1 := by
  rw [nary_result]
  rfl

/-- Reads the six tail operations at one buffer: each operation's result at its own buffer by its function (the stacking
    operation's by the lemma above), at any other buffer what was there. -/
local macro "tail_results6" : tactic =>
  `(tactic| (simp only [after_cons, after_nil]
             repeat (first
               | rw [unary_result] | rw [binary_result] | rw [stack6]
               | (rw [unary_result_ne]; rotate_left; decide)
               | (rw [binary_result_ne]; rotate_left; decide)
               | (rw [nary_result_ne]; rotate_left; decide))))

set_option maxHeartbeats 4000000 in
/-- The last six operations: the three wrapped vectors as columns, stacked; the volume gathered there; the column. -/
theorem stepT6 (W : Val) (x0 : Coords) (x1 : Volume) (h : MidX6 W x0 x1) : AtC6 (StableHlo.after g6T W) x0 x1 where
  kept := h.ent.kept.carry uT6
  v50 := (carry uT6' W (by decide)).trans h.ent.v50
  v71 := (carry uT6' W (by decide)).trans h.ent.v71
  v92 := (carry uT6' W (by decide)).trans h.ent.v92
  v113 := (carry uT6' W (by decide)).trans h.ent.v113
  v134 := (carry uT6' W (by decide)).trans h.ent.v134
  v155 := by
    dsimp only [g6T, chunk, allOps, ops, List.drop, List.take]; tail_results6; rw [h.wz, h.wy, h.wx, h.ent.kept.a1]; rfl

/-! ## The block -/

/-- From any valuation holding the kept stages and the first 5 corner columns, the block leaves them in place and leaves
    in main_v155 the reference's stage of that name. -/
theorem stepC6 (W : Val) (x0 : Coords) (x1 : Volume) (h : AtC5 W x0 x1) : AtC6 (StableHlo.after cC6 W) x0 x1 := by
  rw [after_cC6]
  exact stepT6 _ _ _ (stepX6 _ _ _ (stepY6 _ _ _ (stepZ6 _ _ _ h)))

end Cert.RefRunHand

end
-- ==== Proof.RefStepC7.lean ====
/-
  Corner block 7 of the reference: operations 221 to 247. It wraps the three corner index vectors z1, y1, x0 (an index
  below zero has 512 added: signed comparison with 0, addition of 512, selection), gives each a trailing unit axis,
  stacks the three columns into a 4194304 x 3 index array, gathers the volume at those indices, and gives the gathered
  vector a trailing unit axis: the corner column main_v176, corner (z1, y1, x0) of every point. The block is followed in
  four groups of operations: the wrapping of each of the three vectors (seven operations each) and the six that stack,
  gather and reshape.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-! ## The four groups -/

abbrev g7Z := chunk 220 7
abbrev g7Y := chunk 227 7
abbrev g7X := chunk 234 7
abbrev g7T := chunk 241 6

/-- The block is its four groups laid end to end: both sides are the same literal list. -/
theorem cC7_groups : cC7 = g7Z ++ (g7Y ++ (g7X ++ g7T)) := rfl

theorem after_cC7 (W : Val) : StableHlo.after cC7 W
    = StableHlo.after g7T (StableHlo.after g7X (StableHlo.after g7Y (StableHlo.after g7Z W))) := by
  rw [cC7_groups]; simp only [StableHlo.after_append]

/-! ## What the groups leave alone -/

theorem uZ7 : Untouched g7Z keptRefs := by decide +kernel
theorem uY7 : Untouched g7Y keptRefs := by decide +kernel
theorem uX7 : Untouched g7X keptRefs := by decide +kernel
theorem uT7 : Untouched g7T keptRefs := by decide +kernel
theorem uZ7' : Untouched g7Z [main_v50, main_v71, main_v92, main_v113, main_v134, main_v155] := by decide +kernel
theorem uY7' : Untouched g7Y [main_v50, main_v71, main_v92, main_v113, main_v134, main_v155] := by decide +kernel
theorem uX7' : Untouched g7X [main_v50, main_v71, main_v92, main_v113, main_v134, main_v155] := by decide +kernel
theorem uT7' : Untouched g7T [main_v50, main_v71, main_v92, main_v113, main_v134, main_v155] := by decide +kernel
theorem uYw7 : Untouched g7Y [main_v160] := by decide +kernel
theorem uXw7 : Untouched g7X [main_v160, main_v165] := by decide +kernel

/-- A stretch that writes no kept buffer and no earlier corner column keeps the entry statement. -/
theorem entry_carry7 {W : Val} {x0 : Coords} {x1 : Volume} (h : AtC6 W x0 x1) {l : List (HloOp τ sig (Elt Ideal))}
    (hl : Untouched l keptRefs) (hc : Untouched l [main_v50, main_v71, main_v92, main_v113, main_v134, main_v155]) : AtC6 (StableHlo.after l W) x0 x1 where
  kept := h.kept.carry hl
  v50 := (carry hc W (by decide)).trans h.v50
  v71 := (carry hc W (by decide)).trans h.v71
  v92 := (carry hc W (by decide)).trans h.v92
  v113 := (carry hc W (by decide)).trans h.v113
  v134 := (carry hc W (by decide)).trans h.v134
  v155 := (carry hc W (by decide)).trans h.v155

/-! ## Between the groups -/

/-- After the first group: the entry statement and the wrapped z1. -/
structure MidZ7 (W : Val) (x0 : Coords) (x1 : Volume) : Prop where
  ent : AtC6 W x0 x1
  wz : (W (Proc.devRef .tc main_v160) : S4194304.Idx → BitVec 32) = val_main_v160 (F := Ideal) x0
/-- After the second: also the wrapped y1. -/
structure MidY7 (W : Val) (x0 : Coords) (x1 : Volume) : Prop where
  ent : AtC6 W x0 x1
  wz : (W (Proc.devRef .tc main_v160) : S4194304.Idx → BitVec 32) = val_main_v160 (F := Ideal) x0
  wy : (W (Proc.devRef .tc main_v165) : S4194304.Idx → BitVec 32) = val_main_v165 (F := Ideal) x0
/-- After the third: also the wrapped x0. -/
structure MidX7 (W : Val) (x0 : Coords) (x1 : Volume) : Prop where
  ent : AtC6 W x0 x1
  wz : (W (Proc.devRef .tc main_v160) : S4194304.Idx → BitVec 32) = val_main_v160 (F := Ideal) x0
  wy : (W (Proc.devRef .tc main_v165) : S4194304.Idx → BitVec 32) = val_main_v165 (F := Ideal) x0
  wx : (W (Proc.devRef .tc main_v170) : S4194304.Idx → BitVec 32) = val_main_v170 (F := Ideal) x0

/-! ## The four steps -/

theorem stepZ7 (W : Val) (x0 : Coords) (x1 : Volume) (h : AtC6 W x0 x1) : MidZ7 (StableHlo.after g7Z W) x0 x1 where
  ent := entry_carry7 h uZ7 uZ7'
  wz := by
    dsimp only [g7Z, chunk, allOps, ops, List.drop, List.take]; ref_results; rw [h.kept.v18]; rfl

theorem stepY7 (W : Val) (x0 : Coords) (x1 : Volume) (h : MidZ7 W x0 x1) : MidY7 (StableHlo.after g7Y W) x0 x1 where
  ent := entry_carry7 h.ent uY7 uY7'
  wz := (carry uYw7 W (by decide)).trans h.wz
  wy := by
    dsimp only [g7Y, chunk, allOps, ops, List.drop, List.take]; ref_results; rw [h.ent.kept.v22]; rfl

theorem stepX7 (W : Val) (x0 : Coords) (x1 : Volume) (h : MidY7 W x0 x1) : MidX7 (StableHlo.after g7X W) x0 x1 where
  ent := entry_carry7 h.ent uX7 uX7'
  wz := (carry uXw7 W (by decide)).trans h.wz
  wy := (carry uXw7 W (by decide)).trans h.wy
  wx := by
    dsimp only [g7X, chunk, allOps, ops, List.drop, List.take]; ref_results; rw [h.ent.kept.v14]; rfl

/-- The stacking operation leaves in main_v174 the three columns main_v171, main_v172, main_v173, as the valuation holds
    them, side by side. -/
theorem stack7 (hxs hy) (G : Val) :
    (nary (τ := τ) ![main_v171, main_v172, main_v173] main_v174
        (fun u => concatenate S4194304x3 1 [⟨S4194304x1, u 0⟩, ⟨S4194304x1, u 1⟩, ⟨S4194304x1, u 2⟩]
          concatenates_S4194304x1_S4194304x1_S4194304x1_S4194304x3_d1) hxs hy).result G (Proc.devRef .tc main_v174)
      = concatenate S4194304x3 1 [⟨S4194304x1, G (Proc.devRef .tc main_v171)⟩, ⟨S4194304x1, G (Proc.devRef .tc main_v172)⟩,
          ⟨S4194304x1, G (Proc.devRef .tc main_v173)⟩] concatenates_S4194304x1_S4194304x1_S4194304x1_S4194304x3_d1 := by
  rw [nary_result]
  rfl

/-- Reads the six tail operations at one buffer: each operation's result at its own buffer by its function (the stacking
    operation's by the lemma above), at any other buffer what was there. -/
local macro "tail_results7" : tactic =>
  `(tactic| (simp only [after_cons, after_nil]
             repeat (first
               | rw [unary_result] | rw [binary_result] | rw [stack7]
               | (rw [unary_result_ne]; rotate_left; decide)
               | (rw [binary_result_ne]; rotate_left; decide)
               | (rw [nary_result_ne]; rotate_left; decide))))

set_option maxHeartbeats 4000000 in
/-- The last six operations: the three wrapped vectors as columns, stacked; the volume gathered there; the column. -/
theorem stepT7 (W : Val) (x0 : Coords) (x1 : Volume) (h : MidX7 W x0 x1) : AtC7 (StableHlo.after g7T W) x0 x1 where
  kept := h.ent.kept.carry uT7
  v50 := (carry uT7' W (by decide)).trans h.ent.v50
  v71 := (carry uT7' W (by decide)).trans h.ent.v71
  v92 := (carry uT7' W (by decide)).trans h.ent.v92
  v113 := (carry uT7' W (by decide)).trans h.ent.v113
  v134 := (carry uT7' W (by decide)).trans h.ent.v134
  v155 := (carry uT7' W (by decide)).trans h.ent.v155
  v176 := by
    dsimp only [g7T, chunk, allOps, ops, List.drop, List.take]; tail_results7; rw [h.wz, h.wy, h.wx, h.ent.kept.a1]; rfl

/-! ## The block -/

/-- From any valuation holding the kept stages and the first 6 corner columns, the block leaves them in place and leaves
    in main_v176 the reference's stage of that name. -/
theorem stepC7 (W : Val) (x0 : Coords) (x1 : Volume) (h : AtC6 W x0 x1) : AtC7 (StableHlo.after cC7 W) x0 x1 := by
  rw [after_cC7]
  exact stepT7 _ _ _ (stepX7 _ _ _ (stepY7 _ _ _ (stepZ7 _ _ _ h)))

end Cert.RefRunHand

end
-- ==== Proof.RefStepC8.lean ====
/-
  Corner block 8 of the reference: operations 248 to 274. It wraps the three corner index vectors z1, y1, x1 (an index
  below zero has 512 added: signed comparison with 0, addition of 512, selection), gives each a trailing unit axis,
  stacks the three columns into a 4194304 x 3 index array, gathers the volume at those indices, and gives the gathered
  vector a trailing unit axis: the corner column main_v197, corner (z1, y1, x1) of every point. The block is followed in
  four groups of operations: the wrapping of each of the three vectors (seven operations each) and the six that stack,
  gather and reshape.
-/
import proofs.«161852_j89034672046121_2_alg».proof.Proof.RefOps
import proofs.«161852_j89034672046121_2_alg».proof.Proof.RefStages
import proofs.«161852_j89034672046121_2_alg».proof.Proof.RefRead
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-! ## The four groups -/

abbrev g8Z := chunk 247 7
abbrev g8Y := chunk 254 7
abbrev g8X := chunk 261 7
abbrev g8T := chunk 268 6

/-- The block is its four groups laid end to end: both sides are the same literal list. -/
theorem cC8_groups : cC8 = g8Z ++ (g8Y ++ (g8X ++ g8T)) := rfl

theorem after_cC8 (W : Val) : StableHlo.after cC8 W
    = StableHlo.after g8T (StableHlo.after g8X (StableHlo.after g8Y (StableHlo.after g8Z W))) := by
  rw [cC8_groups]; simp only [StableHlo.after_append]

/-! ## What the groups leave alone -/

theorem uZ8 : Untouched g8Z keptRefs := by decide +kernel
theorem uY8 : Untouched g8Y keptRefs := by decide +kernel
theorem uX8 : Untouched g8X keptRefs := by decide +kernel
theorem uT8 : Untouched g8T keptRefs := by decide +kernel
theorem uZ8' : Untouched g8Z [main_v50, main_v71, main_v92, main_v113, main_v134, main_v155, main_v176] := by decide +kernel
theorem uY8' : Untouched g8Y [main_v50, main_v71, main_v92, main_v113, main_v134, main_v155, main_v176] := by decide +kernel
theorem uX8' : Untouched g8X [main_v50, main_v71, main_v92, main_v113, main_v134, main_v155, main_v176] := by decide +kernel
theorem uT8' : Untouched g8T [main_v50, main_v71, main_v92, main_v113, main_v134, main_v155, main_v176] := by decide +kernel
theorem uYw8 : Untouched g8Y [main_v181] := by decide +kernel
theorem uXw8 : Untouched g8X [main_v181, main_v186] := by decide +kernel

/-- A stretch that writes no kept buffer and no earlier corner column keeps the entry statement. -/
theorem entry_carry8 {W : Val} {x0 : Coords} {x1 : Volume} (h : AtC7 W x0 x1) {l : List (HloOp τ sig (Elt Ideal))}
    (hl : Untouched l keptRefs) (hc : Untouched l [main_v50, main_v71, main_v92, main_v113, main_v134, main_v155, main_v176]) : AtC7 (StableHlo.after l W) x0 x1 where
  kept := h.kept.carry hl
  v50 := (carry hc W (by decide)).trans h.v50
  v71 := (carry hc W (by decide)).trans h.v71
  v92 := (carry hc W (by decide)).trans h.v92
  v113 := (carry hc W (by decide)).trans h.v113
  v134 := (carry hc W (by decide)).trans h.v134
  v155 := (carry hc W (by decide)).trans h.v155
  v176 := (carry hc W (by decide)).trans h.v176

/-! ## Between the groups -/

/-- After the first group: the entry statement and the wrapped z1. -/
structure MidZ8 (W : Val) (x0 : Coords) (x1 : Volume) : Prop where
  ent : AtC7 W x0 x1
  wz : (W (Proc.devRef .tc main_v181) : S4194304.Idx → BitVec 32) = val_main_v181 (F := Ideal) x0
/-- After the second: also the wrapped y1. -/
structure MidY8 (W : Val) (x0 : Coords) (x1 : Volume) : Prop where
  ent : AtC7 W x0 x1
  wz : (W (Proc.devRef .tc main_v181) : S4194304.Idx → BitVec 32) = val_main_v181 (F := Ideal) x0
  wy : (W (Proc.devRef .tc main_v186) : S4194304.Idx → BitVec 32) = val_main_v186 (F := Ideal) x0
/-- After the third: also the wrapped x1. -/
structure MidX8 (W : Val) (x0 : Coords) (x1 : Volume) : Prop where
  ent : AtC7 W x0 x1
  wz : (W (Proc.devRef .tc main_v181) : S4194304.Idx → BitVec 32) = val_main_v181 (F := Ideal) x0
  wy : (W (Proc.devRef .tc main_v186) : S4194304.Idx → BitVec 32) = val_main_v186 (F := Ideal) x0
  wx : (W (Proc.devRef .tc main_v191) : S4194304.Idx → BitVec 32) = val_main_v191 (F := Ideal) x0

/-! ## The four steps -/

theorem stepZ8 (W : Val) (x0 : Coords) (x1 : Volume) (h : AtC7 W x0 x1) : MidZ8 (StableHlo.after g8Z W) x0 x1 where
  ent := entry_carry8 h uZ8 uZ8'
  wz := by
    dsimp only [g8Z, chunk, allOps, ops, List.drop, List.take]; ref_results; rw [h.kept.v18]; rfl

theorem stepY8 (W : Val) (x0 : Coords) (x1 : Volume) (h : MidZ8 W x0 x1) : MidY8 (StableHlo.after g8Y W) x0 x1 where
  ent := entry_carry8 h.ent uY8 uY8'
  wz := (carry uYw8 W (by decide)).trans h.wz
  wy := by
    dsimp only [g8Y, chunk, allOps, ops, List.drop, List.take]; ref_results; rw [h.ent.kept.v22]; rfl

theorem stepX8 (W : Val) (x0 : Coords) (x1 : Volume) (h : MidY8 W x0 x1) : MidX8 (StableHlo.after g8X W) x0 x1 where
  ent := entry_carry8 h.ent uX8 uX8'
  wz := (carry uXw8 W (by decide)).trans h.wz
  wy := (carry uXw8 W (by decide)).trans h.wy
  wx := by
    dsimp only [g8X, chunk, allOps, ops, List.drop, List.take]; ref_results; rw [h.ent.kept.v26]; rfl

/-- The stacking operation leaves in main_v195 the three columns main_v192, main_v193, main_v194, as the valuation holds
    them, side by side. -/
theorem stack8 (hxs hy) (G : Val) :
    (nary (τ := τ) ![main_v192, main_v193, main_v194] main_v195
        (fun u => concatenate S4194304x3 1 [⟨S4194304x1, u 0⟩, ⟨S4194304x1, u 1⟩, ⟨S4194304x1, u 2⟩]
          concatenates_S4194304x1_S4194304x1_S4194304x1_S4194304x3_d1) hxs hy).result G (Proc.devRef .tc main_v195)
      = concatenate S4194304x3 1 [⟨S4194304x1, G (Proc.devRef .tc main_v192)⟩, ⟨S4194304x1, G (Proc.devRef .tc main_v193)⟩,
          ⟨S4194304x1, G (Proc.devRef .tc main_v194)⟩] concatenates_S4194304x1_S4194304x1_S4194304x1_S4194304x3_d1 := by
  rw [nary_result]
  rfl

/-- Reads the six tail operations at one buffer: each operation's result at its own buffer by its function (the stacking
    operation's by the lemma above), at any other buffer what was there. -/
local macro "tail_results8" : tactic =>
  `(tactic| (simp only [after_cons, after_nil]
             repeat (first
               | rw [unary_result] | rw [binary_result] | rw [stack8]
               | (rw [unary_result_ne]; rotate_left; decide)
               | (rw [binary_result_ne]; rotate_left; decide)
               | (rw [nary_result_ne]; rotate_left; decide))))

set_option maxHeartbeats 4000000 in
/-- The last six operations: the three wrapped vectors as columns, stacked; the volume gathered there; the column. -/
theorem stepT8 (W : Val) (x0 : Coords) (x1 : Volume) (h : MidX8 W x0 x1) : AtC8 (StableHlo.after g8T W) x0 x1 where
  kept := h.ent.kept.carry uT8
  v50 := (carry uT8' W (by decide)).trans h.ent.v50
  v71 := (carry uT8' W (by decide)).trans h.ent.v71
  v92 := (carry uT8' W (by decide)).trans h.ent.v92
  v113 := (carry uT8' W (by decide)).trans h.ent.v113
  v134 := (carry uT8' W (by decide)).trans h.ent.v134
  v155 := (carry uT8' W (by decide)).trans h.ent.v155
  v176 := (carry uT8' W (by decide)).trans h.ent.v176
  v197 := by
    dsimp only [g8T, chunk, allOps, ops, List.drop, List.take]; tail_results8; rw [h.wz, h.wy, h.wx, h.ent.kept.a1]; rfl

/-! ## The block -/

/-- From any valuation holding the kept stages and the first 7 corner columns, the block leaves them in place and leaves
    in main_v197 the reference's stage of that name. -/
theorem stepC8 (W : Val) (x0 : Coords) (x1 : Volume) (h : AtC7 W x0 x1) : AtC8 (StableHlo.after cC8 W) x0 x1 := by
  rw [after_cC8]
  exact stepT8 _ _ _ (stepX8 _ _ _ (stepY8 _ _ _ (stepZ8 _ _ _ h)))

end Cert.RefRunHand

end
-- ==== Proof.RefStepBlend.lean ====
/-
  The last stretch of the reference: the blend.  Its 42 operations are seven groups of six, each group one interpolation
  step a * (1 - w) + b * w: a constant 1, its broadcast, 1 - w, a * (1 - w), b * w, and their sum.  Four groups
  interpolate along x (from the eight corner columns, weight column main_v29), two along y (from the four results,
  weight column main_v28), one along z (from the two results, weight column main_v27).  No group writes an argument,
  a corner or weight column, or an earlier group's result.  So if, entering the stretch, each corner column and weight
  column holds its stage of the coordinates and the volume, then group after group each result holds its stage, and
  leaving the stretch the result buffer holds the last stage of all, with the arguments as they were.
-/
import proofs.«161852_j89034672046121_2_alg».proof.Proof.RefStages

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- No operation of the blend writes an argument: each writes its own result buffer, and none of those is an argument. -/
theorem untouchedB : Untouched cB [main_arg0, main_arg1] := by decide +kernel

/-- The valuation after the first k of the seven interpolation groups, from a valuation W. -/
abbrev A1 (W : Val) : Val := StableHlo.after (chunk 274 6) W
abbrev A2 (W : Val) : Val := StableHlo.after (chunk 280 6) (A1 W)
abbrev A3 (W : Val) : Val := StableHlo.after (chunk 286 6) (A2 W)
abbrev A4 (W : Val) : Val := StableHlo.after (chunk 292 6) (A3 W)
abbrev A5 (W : Val) : Val := StableHlo.after (chunk 298 6) (A4 W)
abbrev A6 (W : Val) : Val := StableHlo.after (chunk 304 6) (A5 W)
abbrev A7 (W : Val) : Val := StableHlo.after (chunk 310 6) (A6 W)

/-- The blend is its seven groups of six operations laid end to end. -/
theorem cB_groups : cB = chunk 274 6 ++ (chunk 280 6 ++ (chunk 286 6 ++ (chunk 292 6 ++ (chunk 298 6 ++ (chunk 304 6 ++ chunk 310 6))))) := rfl

/-- The first group: one interpolation along x, a * (1 - w) + b * w of the buffers v50, v71 with the weight column v29, read off its six operations for any valuation that holds the three inputs at their stages. -/
theorem grp1 (W : Val) (x0 : Coords) (x1 : Volume)
    (ha : (W (Proc.devRef .tc main_v50) : S4194304x1.Idx → EReal) = val_main_v50 (F := Ideal) x0 x1)
    (hb : (W (Proc.devRef .tc main_v71) : S4194304x1.Idx → EReal) = val_main_v71 (F := Ideal) x0 x1)
    (hw : (W (Proc.devRef .tc main_v29) : S4194304x1.Idx → EReal) = val_main_v29 (F := Ideal) x0) :
    (StableHlo.after (chunk 274 6) W (Proc.devRef .tc main_v202) : S4194304x1.Idx → EReal) = val_main_v202 (F := Ideal) x0 x1 := by
  dsimp only [chunk, allOps, ops, List.drop, List.take]
  ref_results
  rw [ha, hb, hw]
  rfl

/-- The first group writes none of the buffers that hold a stage already and are still to be read after it. -/
theorem keepG1 : Untouched (chunk 274 6) [main_v92, main_v113, main_v29, main_v134, main_v155, main_v176, main_v197, main_v28, main_v27] := by decide +kernel

/-- The second group: one interpolation along x, a * (1 - w) + b * w of the buffers v92, v113 with the weight column v29, read off its six operations for any valuation that holds the three inputs at their stages. -/
theorem grp2 (W : Val) (x0 : Coords) (x1 : Volume)
    (ha : (W (Proc.devRef .tc main_v92) : S4194304x1.Idx → EReal) = val_main_v92 (F := Ideal) x0 x1)
    (hb : (W (Proc.devRef .tc main_v113) : S4194304x1.Idx → EReal) = val_main_v113 (F := Ideal) x0 x1)
    (hw : (W (Proc.devRef .tc main_v29) : S4194304x1.Idx → EReal) = val_main_v29 (F := Ideal) x0) :
    (StableHlo.after (chunk 280 6) W (Proc.devRef .tc main_v207) : S4194304x1.Idx → EReal) = val_main_v207 (F := Ideal) x0 x1 := by
  dsimp only [chunk, allOps, ops, List.drop, List.take]
  ref_results
  rw [ha, hb, hw]
  rfl

/-- The second group writes none of the buffers that hold a stage already and are still to be read after it. -/
theorem keepG2 : Untouched (chunk 280 6) [main_v134, main_v155, main_v29, main_v176, main_v197, main_v202, main_v28, main_v27] := by decide +kernel

/-- The third group: one interpolation along x, a * (1 - w) + b * w of the buffers v134, v155 with the weight column v29, read off its six operations for any valuation that holds the three inputs at their stages. -/
theorem grp3 (W : Val) (x0 : Coords) (x1 : Volume)
    (ha : (W (Proc.devRef .tc main_v134) : S4194304x1.Idx → EReal) = val_main_v134 (F := Ideal) x0 x1)
    (hb : (W (Proc.devRef .tc main_v155) : S4194304x1.Idx → EReal) = val_main_v155 (F := Ideal) x0 x1)
    (hw : (W (Proc.devRef .tc main_v29) : S4194304x1.Idx → EReal) = val_main_v29 (F := Ideal) x0) :
    (StableHlo.after (chunk 286 6) W (Proc.devRef .tc main_v212) : S4194304x1.Idx → EReal) = val_main_v212 (F := Ideal) x0 x1 := by
  dsimp only [chunk, allOps, ops, List.drop, List.take]
  ref_results
  rw [ha, hb, hw]
  rfl

/-- The third group writes none of the buffers that hold a stage already and are still to be read after it. -/
theorem keepG3 : Untouched (chunk 286 6) [main_v176, main_v197, main_v29, main_v202, main_v207, main_v28, main_v27] := by decide +kernel

/-- The fourth group: one interpolation along x, a * (1 - w) + b * w of the buffers v176, v197 with the weight column v29, read off its six operations for any valuation that holds the three inputs at their stages. -/
theorem grp4 (W : Val) (x0 : Coords) (x1 : Volume)
    (ha : (W (Proc.devRef .tc main_v176) : S4194304x1.Idx → EReal) = val_main_v176 (F := Ideal) x0 x1)
    (hb : (W (Proc.devRef .tc main_v197) : S4194304x1.Idx → EReal) = val_main_v197 (F := Ideal) x0 x1)
    (hw : (W (Proc.devRef .tc main_v29) : S4194304x1.Idx → EReal) = val_main_v29 (F := Ideal) x0) :
    (StableHlo.after (chunk 292 6) W (Proc.devRef .tc main_v217) : S4194304x1.Idx → EReal) = val_main_v217 (F := Ideal) x0 x1 := by
  dsimp only [chunk, allOps, ops, List.drop, List.take]
  ref_results
  rw [ha, hb, hw]
  rfl

/-- The fourth group writes none of the buffers that hold a stage already and are still to be read after it. -/
theorem keepG4 : Untouched (chunk 292 6) [main_v202, main_v207, main_v28, main_v212, main_v27] := by decide +kernel

/-- The fifth group: one interpolation along y, a * (1 - w) + b * w of the buffers v202, v207 with the weight column v28, read off its six operations for any valuation that holds the three inputs at their stages. -/
theorem grp5 (W : Val) (x0 : Coords) (x1 : Volume)
    (ha : (W (Proc.devRef .tc main_v202) : S4194304x1.Idx → EReal) = val_main_v202 (F := Ideal) x0 x1)
    (hb : (W (Proc.devRef .tc main_v207) : S4194304x1.Idx → EReal) = val_main_v207 (F := Ideal) x0 x1)
    (hw : (W (Proc.devRef .tc main_v28) : S4194304x1.Idx → EReal) = val_main_v28 (F := Ideal) x0) :
    (StableHlo.after (chunk 298 6) W (Proc.devRef .tc main_v222) : S4194304x1.Idx → EReal) = val_main_v222 (F := Ideal) x0 x1 := by
  dsimp only [chunk, allOps, ops, List.drop, List.take]
  ref_results
  rw [ha, hb, hw]
  rfl

/-- The fifth group writes none of the buffers that hold a stage already and are still to be read after it. -/
theorem keepG5 : Untouched (chunk 298 6) [main_v212, main_v217, main_v28, main_v27] := by decide +kernel

/-- The sixth group: one interpolation along y, a * (1 - w) + b * w of the buffers v212, v217 with the weight column v28, read off its six operations for any valuation that holds the three inputs at their stages. -/
theorem grp6 (W : Val) (x0 : Coords) (x1 : Volume)
    (ha : (W (Proc.devRef .tc main_v212) : S4194304x1.Idx → EReal) = val_main_v212 (F := Ideal) x0 x1)
    (hb : (W (Proc.devRef .tc main_v217) : S4194304x1.Idx → EReal) = val_main_v217 (F := Ideal) x0 x1)
    (hw : (W (Proc.devRef .tc main_v28) : S4194304x1.Idx → EReal) = val_main_v28 (F := Ideal) x0) :
    (StableHlo.after (chunk 304 6) W (Proc.devRef .tc main_v227) : S4194304x1.Idx → EReal) = val_main_v227 (F := Ideal) x0 x1 := by
  dsimp only [chunk, allOps, ops, List.drop, List.take]
  ref_results
  rw [ha, hb, hw]
  rfl

/-- The sixth group writes none of the buffers that hold a stage already and are still to be read after it. -/
theorem keepG6 : Untouched (chunk 304 6) [main_v222, main_v27] := by decide +kernel

/-- The seventh group: one interpolation along z, a * (1 - w) + b * w of the buffers v222, v227 with the weight column v27, read off its six operations for any valuation that holds the three inputs at their stages. -/
theorem grp7 (W : Val) (x0 : Coords) (x1 : Volume)
    (ha : (W (Proc.devRef .tc main_v222) : S4194304x1.Idx → EReal) = val_main_v222 (F := Ideal) x0 x1)
    (hb : (W (Proc.devRef .tc main_v227) : S4194304x1.Idx → EReal) = val_main_v227 (F := Ideal) x0 x1)
    (hw : (W (Proc.devRef .tc main_v27) : S4194304x1.Idx → EReal) = val_main_v27 (F := Ideal) x0) :
    (StableHlo.after (chunk 310 6) W (Proc.devRef .tc main_v232) : S4194304x1.Idx → EReal) = val_main_v232 (F := Ideal) x0 x1 := by
  dsimp only [chunk, allOps, ops, List.drop, List.take]
  ref_results
  rw [ha, hb, hw]
  rfl

/-! ## The buffers the later groups read, after each group

Each fact below says that, starting from a valuation W that holds the corner and weight columns at their stages, a buffer
still to be read holds its stage after the first k groups: either the k-th group just wrote it (its read above), or the
k-th group left it alone and it held its stage before. -/

theorem a1_v202 (W : Val) (x0 : Coords) (x1 : Volume) (h : AtC8 W x0 x1) :
    (A1 W (Proc.devRef .tc main_v202) : S4194304x1.Idx → EReal) = val_main_v202 (F := Ideal) x0 x1 :=
  grp1 W x0 x1 (h.v50) (h.v71) (h.kept.v29)
theorem a1_v92 (W : Val) (x0 : Coords) (x1 : Volume) (h : AtC8 W x0 x1) :
    (A1 W (Proc.devRef .tc main_v92) : S4194304x1.Idx → EReal) = val_main_v92 (F := Ideal) x0 x1 :=
  (carry keepG1 W (by decide)).trans (h.v92)
theorem a1_v113 (W : Val) (x0 : Coords) (x1 : Volume) (h : AtC8 W x0 x1) :
    (A1 W (Proc.devRef .tc main_v113) : S4194304x1.Idx → EReal) = val_main_v113 (F := Ideal) x0 x1 :=
  (carry keepG1 W (by decide)).trans (h.v113)
theorem a1_v29 (W : Val) (x0 : Coords) (x1 : Volume) (h : AtC8 W x0 x1) :
    (A1 W (Proc.devRef .tc main_v29) : S4194304x1.Idx → EReal) = val_main_v29 (F := Ideal) x0 :=
  (carry keepG1 W (by decide)).trans (h.kept.v29)
theorem a1_v134 (W : Val) (x0 : Coords) (x1 : Volume) (h : AtC8 W x0 x1) :
    (A1 W (Proc.devRef .tc main_v134) : S4194304x1.Idx → EReal) = val_main_v134 (F := Ideal) x0 x1 :=
  (carry keepG1 W (by decide)).trans (h.v134)
theorem a1_v155 (W : Val) (x0 : Coords) (x1 : Volume) (h : AtC8 W x0 x1) :
    (A1 W (Proc.devRef .tc main_v155) : S4194304x1.Idx → EReal) = val_main_v155 (F := Ideal) x0 x1 :=
  (carry keepG1 W (by decide)).trans (h.v155)
theorem a1_v176 (W : Val) (x0 : Coords) (x1 : Volume) (h : AtC8 W x0 x1) :
    (A1 W (Proc.devRef .tc main_v176) : S4194304x1.Idx → EReal) = val_main_v176 (F := Ideal) x0 x1 :=
  (carry keepG1 W (by decide)).trans (h.v176)
theorem a1_v197 (W : Val) (x0 : Coords) (x1 : Volume) (h : AtC8 W x0 x1) :
    (A1 W (Proc.devRef .tc main_v197) : S4194304x1.Idx → EReal) = val_main_v197 (F := Ideal) x0 x1 :=
  (carry keepG1 W (by decide)).trans (h.v197)
theorem a1_v28 (W : Val) (x0 : Coords) (x1 : Volume) (h : AtC8 W x0 x1) :
    (A1 W (Proc.devRef .tc main_v28) : S4194304x1.Idx → EReal) = val_main_v28 (F := Ideal) x0 :=
  (carry keepG1 W (by decide)).trans (h.kept.v28)
theorem a1_v27 (W : Val) (x0 : Coords) (x1 : Volume) (h : AtC8 W x0 x1) :
    (A1 W (Proc.devRef .tc main_v27) : S4194304x1.Idx → EReal) = val_main_v27 (F := Ideal) x0 :=
  (carry keepG1 W (by decide)).trans (h.kept.v27)

theorem a2_v207 (W : Val) (x0 : Coords) (x1 : Volume) (h : AtC8 W x0 x1) :
    (A2 W (Proc.devRef .tc main_v207) : S4194304x1.Idx → EReal) = val_main_v207 (F := Ideal) x0 x1 :=
  grp2 (A1 W) x0 x1 (a1_v92 W x0 x1 h) (a1_v113 W x0 x1 h) (a1_v29 W x0 x1 h)
theorem a2_v134 (W : Val) (x0 : Coords) (x1 : Volume) (h : AtC8 W x0 x1) :
    (A2 W (Proc.devRef .tc main_v134) : S4194304x1.Idx → EReal) = val_main_v134 (F := Ideal) x0 x1 :=
  (carry keepG2 (A1 W) (by decide)).trans (a1_v134 W x0 x1 h)
theorem a2_v155 (W : Val) (x0 : Coords) (x1 : Volume) (h : AtC8 W x0 x1) :
    (A2 W (Proc.devRef .tc main_v155) : S4194304x1.Idx → EReal) = val_main_v155 (F := Ideal) x0 x1 :=
  (carry keepG2 (A1 W) (by decide)).trans (a1_v155 W x0 x1 h)
theorem a2_v29 (W : Val) (x0 : Coords) (x1 : Volume) (h : AtC8 W x0 x1) :
    (A2 W (Proc.devRef .tc main_v29) : S4194304x1.Idx → EReal) = val_main_v29 (F := Ideal) x0 :=
  (carry keepG2 (A1 W) (by decide)).trans (a1_v29 W x0 x1 h)
theorem a2_v176 (W : Val) (x0 : Coords) (x1 : Volume) (h : AtC8 W x0 x1) :
    (A2 W (Proc.devRef .tc main_v176) : S4194304x1.Idx → EReal) = val_main_v176 (F := Ideal) x0 x1 :=
  (carry keepG2 (A1 W) (by decide)).trans (a1_v176 W x0 x1 h)
theorem a2_v197 (W : Val) (x0 : Coords) (x1 : Volume) (h : AtC8 W x0 x1) :
    (A2 W (Proc.devRef .tc main_v197) : S4194304x1.Idx → EReal) = val_main_v197 (F := Ideal) x0 x1 :=
  (carry keepG2 (A1 W) (by decide)).trans (a1_v197 W x0 x1 h)
theorem a2_v202 (W : Val) (x0 : Coords) (x1 : Volume) (h : AtC8 W x0 x1) :
    (A2 W (Proc.devRef .tc main_v202) : S4194304x1.Idx → EReal) = val_main_v202 (F := Ideal) x0 x1 :=
  (carry keepG2 (A1 W) (by decide)).trans (a1_v202 W x0 x1 h)
theorem a2_v28 (W : Val) (x0 : Coords) (x1 : Volume) (h : AtC8 W x0 x1) :
    (A2 W (Proc.devRef .tc main_v28) : S4194304x1.Idx → EReal) = val_main_v28 (F := Ideal) x0 :=
  (carry keepG2 (A1 W) (by decide)).trans (a1_v28 W x0 x1 h)
theorem a2_v27 (W : Val) (x0 : Coords) (x1 : Volume) (h : AtC8 W x0 x1) :
    (A2 W (Proc.devRef .tc main_v27) : S4194304x1.Idx → EReal) = val_main_v27 (F := Ideal) x0 :=
  (carry keepG2 (A1 W) (by decide)).trans (a1_v27 W x0 x1 h)

theorem a3_v212 (W : Val) (x0 : Coords) (x1 : Volume) (h : AtC8 W x0 x1) :
    (A3 W (Proc.devRef .tc main_v212) : S4194304x1.Idx → EReal) = val_main_v212 (F := Ideal) x0 x1 :=
  grp3 (A2 W) x0 x1 (a2_v134 W x0 x1 h) (a2_v155 W x0 x1 h) (a2_v29 W x0 x1 h)
theorem a3_v176 (W : Val) (x0 : Coords) (x1 : Volume) (h : AtC8 W x0 x1) :
    (A3 W (Proc.devRef .tc main_v176) : S4194304x1.Idx → EReal) = val_main_v176 (F := Ideal) x0 x1 :=
  (carry keepG3 (A2 W) (by decide)).trans (a2_v176 W x0 x1 h)
theorem a3_v197 (W : Val) (x0 : Coords) (x1 : Volume) (h : AtC8 W x0 x1) :
    (A3 W (Proc.devRef .tc main_v197) : S4194304x1.Idx → EReal) = val_main_v197 (F := Ideal) x0 x1 :=
  (carry keepG3 (A2 W) (by decide)).trans (a2_v197 W x0 x1 h)
theorem a3_v29 (W : Val) (x0 : Coords) (x1 : Volume) (h : AtC8 W x0 x1) :
    (A3 W (Proc.devRef .tc main_v29) : S4194304x1.Idx → EReal) = val_main_v29 (F := Ideal) x0 :=
  (carry keepG3 (A2 W) (by decide)).trans (a2_v29 W x0 x1 h)
theorem a3_v202 (W : Val) (x0 : Coords) (x1 : Volume) (h : AtC8 W x0 x1) :
    (A3 W (Proc.devRef .tc main_v202) : S4194304x1.Idx → EReal) = val_main_v202 (F := Ideal) x0 x1 :=
  (carry keepG3 (A2 W) (by decide)).trans (a2_v202 W x0 x1 h)
theorem a3_v207 (W : Val) (x0 : Coords) (x1 : Volume) (h : AtC8 W x0 x1) :
    (A3 W (Proc.devRef .tc main_v207) : S4194304x1.Idx → EReal) = val_main_v207 (F := Ideal) x0 x1 :=
  (carry keepG3 (A2 W) (by decide)).trans (a2_v207 W x0 x1 h)
theorem a3_v28 (W : Val) (x0 : Coords) (x1 : Volume) (h : AtC8 W x0 x1) :
    (A3 W (Proc.devRef .tc main_v28) : S4194304x1.Idx → EReal) = val_main_v28 (F := Ideal) x0 :=
  (carry keepG3 (A2 W) (by decide)).trans (a2_v28 W x0 x1 h)
theorem a3_v27 (W : Val) (x0 : Coords) (x1 : Volume) (h : AtC8 W x0 x1) :
    (A3 W (Proc.devRef .tc main_v27) : S4194304x1.Idx → EReal) = val_main_v27 (F := Ideal) x0 :=
  (carry keepG3 (A2 W) (by decide)).trans (a2_v27 W x0 x1 h)

theorem a4_v217 (W : Val) (x0 : Coords) (x1 : Volume) (h : AtC8 W x0 x1) :
    (A4 W (Proc.devRef .tc main_v217) : S4194304x1.Idx → EReal) = val_main_v217 (F := Ideal) x0 x1 :=
  grp4 (A3 W) x0 x1 (a3_v176 W x0 x1 h) (a3_v197 W x0 x1 h) (a3_v29 W x0 x1 h)
theorem a4_v202 (W : Val) (x0 : Coords) (x1 : Volume) (h : AtC8 W x0 x1) :
    (A4 W (Proc.devRef .tc main_v202) : S4194304x1.Idx → EReal) = val_main_v202 (F := Ideal) x0 x1 :=
  (carry keepG4 (A3 W) (by decide)).trans (a3_v202 W x0 x1 h)
theorem a4_v207 (W : Val) (x0 : Coords) (x1 : Volume) (h : AtC8 W x0 x1) :
    (A4 W (Proc.devRef .tc main_v207) : S4194304x1.Idx → EReal) = val_main_v207 (F := Ideal) x0 x1 :=
  (carry keepG4 (A3 W) (by decide)).trans (a3_v207 W x0 x1 h)
theorem a4_v28 (W : Val) (x0 : Coords) (x1 : Volume) (h : AtC8 W x0 x1) :
    (A4 W (Proc.devRef .tc main_v28) : S4194304x1.Idx → EReal) = val_main_v28 (F := Ideal) x0 :=
  (carry keepG4 (A3 W) (by decide)).trans (a3_v28 W x0 x1 h)
theorem a4_v212 (W : Val) (x0 : Coords) (x1 : Volume) (h : AtC8 W x0 x1) :
    (A4 W (Proc.devRef .tc main_v212) : S4194304x1.Idx → EReal) = val_main_v212 (F := Ideal) x0 x1 :=
  (carry keepG4 (A3 W) (by decide)).trans (a3_v212 W x0 x1 h)
theorem a4_v27 (W : Val) (x0 : Coords) (x1 : Volume) (h : AtC8 W x0 x1) :
    (A4 W (Proc.devRef .tc main_v27) : S4194304x1.Idx → EReal) = val_main_v27 (F := Ideal) x0 :=
  (carry keepG4 (A3 W) (by decide)).trans (a3_v27 W x0 x1 h)

theorem a5_v222 (W : Val) (x0 : Coords) (x1 : Volume) (h : AtC8 W x0 x1) :
    (A5 W (Proc.devRef .tc main_v222) : S4194304x1.Idx → EReal) = val_main_v222 (F := Ideal) x0 x1 :=
  grp5 (A4 W) x0 x1 (a4_v202 W x0 x1 h) (a4_v207 W x0 x1 h) (a4_v28 W x0 x1 h)
theorem a5_v212 (W : Val) (x0 : Coords) (x1 : Volume) (h : AtC8 W x0 x1) :
    (A5 W (Proc.devRef .tc main_v212) : S4194304x1.Idx → EReal) = val_main_v212 (F := Ideal) x0 x1 :=
  (carry keepG5 (A4 W) (by decide)).trans (a4_v212 W x0 x1 h)
theorem a5_v217 (W : Val) (x0 : Coords) (x1 : Volume) (h : AtC8 W x0 x1) :
    (A5 W (Proc.devRef .tc main_v217) : S4194304x1.Idx → EReal) = val_main_v217 (F := Ideal) x0 x1 :=
  (carry keepG5 (A4 W) (by decide)).trans (a4_v217 W x0 x1 h)
theorem a5_v28 (W : Val) (x0 : Coords) (x1 : Volume) (h : AtC8 W x0 x1) :
    (A5 W (Proc.devRef .tc main_v28) : S4194304x1.Idx → EReal) = val_main_v28 (F := Ideal) x0 :=
  (carry keepG5 (A4 W) (by decide)).trans (a4_v28 W x0 x1 h)
theorem a5_v27 (W : Val) (x0 : Coords) (x1 : Volume) (h : AtC8 W x0 x1) :
    (A5 W (Proc.devRef .tc main_v27) : S4194304x1.Idx → EReal) = val_main_v27 (F := Ideal) x0 :=
  (carry keepG5 (A4 W) (by decide)).trans (a4_v27 W x0 x1 h)

theorem a6_v227 (W : Val) (x0 : Coords) (x1 : Volume) (h : AtC8 W x0 x1) :
    (A6 W (Proc.devRef .tc main_v227) : S4194304x1.Idx → EReal) = val_main_v227 (F := Ideal) x0 x1 :=
  grp6 (A5 W) x0 x1 (a5_v212 W x0 x1 h) (a5_v217 W x0 x1 h) (a5_v28 W x0 x1 h)
theorem a6_v222 (W : Val) (x0 : Coords) (x1 : Volume) (h : AtC8 W x0 x1) :
    (A6 W (Proc.devRef .tc main_v222) : S4194304x1.Idx → EReal) = val_main_v222 (F := Ideal) x0 x1 :=
  (carry keepG6 (A5 W) (by decide)).trans (a5_v222 W x0 x1 h)
theorem a6_v27 (W : Val) (x0 : Coords) (x1 : Volume) (h : AtC8 W x0 x1) :
    (A6 W (Proc.devRef .tc main_v27) : S4194304x1.Idx → EReal) = val_main_v27 (F := Ideal) x0 :=
  (carry keepG6 (A5 W) (by decide)).trans (a5_v27 W x0 x1 h)

theorem a7_v232 (W : Val) (x0 : Coords) (x1 : Volume) (h : AtC8 W x0 x1) :
    (A7 W (Proc.devRef .tc main_v232) : S4194304x1.Idx → EReal) = val_main_v232 (F := Ideal) x0 x1 :=
  grp7 (A6 W) x0 x1 (a6_v222 W x0 x1 h) (a6_v227 W x0 x1 h) (a6_v27 W x0 x1 h)

/-- THE BLEND STEP: from the eight corner columns and the three weight columns at their stages, the result buffer ends at
    the reference's last stage, the arguments unchanged. -/
theorem stepB (W : Val) (x0 : Coords) (x1 : Volume) (h : AtC8 W x0 x1) : AtEnd (StableHlo.after cB W) x0 x1 where
  a0 := (carry untouchedB W (by decide)).trans h.kept.a0
  a1 := (carry untouchedB W (by decide)).trans h.kept.a1
  v232 := by
    rw [cB_groups]
    simp only [StableHlo.after_append]
    exact a7_v232 W x0 x1 h

end Cert.RefRunHand

end
-- ==== Proof.RefRunHand.lean ====
/-
  The reference program's run. The reference is a straight line of 316 host operations on buffers that exist from the
  launch on, so it terminates, and its final memory is the launch memory with the operations' results folded in, in
  order. Cutting the operations into sixteen stretches and following the live buffers from cut to cut (the stage
  statements and the step from each to the next are in the modules imported here) gives: the result buffer holds the
  reference's last stage, trilinear interpolation of the volume at the coordinates as the reference's operations spell
  it, as a function of the two argument arrays at launch; and the two argument arrays are unchanged.
-/
import proofs.«161852_j89034672046121_2_alg».proof.Proof.RefOps
import proofs.«161852_j89034672046121_2_alg».proof.Proof.RefStages
import proofs.«161852_j89034672046121_2_alg».proof.Proof.RefRead
import proofs.«161852_j89034672046121_2_alg».proof.Proof.RefStepPrefix
import proofs.«161852_j89034672046121_2_alg».proof.Proof.RefStepC1
import proofs.«161852_j89034672046121_2_alg».proof.Proof.RefStepC2
import proofs.«161852_j89034672046121_2_alg».proof.Proof.RefStepC3
import proofs.«161852_j89034672046121_2_alg».proof.Proof.RefStepC4
import proofs.«161852_j89034672046121_2_alg».proof.Proof.RefStepC5
import proofs.«161852_j89034672046121_2_alg».proof.Proof.RefStepC6
import proofs.«161852_j89034672046121_2_alg».proof.Proof.RefStepC7
import proofs.«161852_j89034672046121_2_alg».proof.Proof.RefStepC8
import proofs.«161852_j89034672046121_2_alg».proof.Proof.RefStepBlend
import Idealize.ShloMosaic.Lib.StableHlo.Run
import Idealize.ShloMosaic.Lib.Pipeline.Frame
import Idealize.ShloMosaic.PureOps.Ideal

set_option maxRecDepth 16384

noncomputable section

namespace Cert.RefRunHand

open Idealize.ShloMosaic Idealize.ShloMosaic.TcCoe Idealize.SL.Sem
open Idealize.ShloMosaic.StableHlo
open Cert.ReferenceIdeal Cert.ReferenceIdeal.Gen Cert.ReferenceIdeal.Value Cert.ReferenceIdeal.Read

/-- The sixteen steps composed: from any valuation, after all 316 operations the result buffer holds the reference's last
    stage of the two argument arrays the valuation held, and the argument arrays are as they were. -/
theorem stages (W : Val) :
    AtEnd (StableHlo.after allOps W) (W (Proc.devRef .tc main_arg0)) (W (Proc.devRef .tc main_arg1)) := by
  rw [after_chunks]
  exact stepB _ _ _ (stepC8 _ _ _ (stepC7 _ _ _ (stepC6 _ _ _ (stepC5 _ _ _ (stepC4 _ _ _ (stepC3 _ _ _ (stepC2 _ _ _
    (stepC1 _ _ _ (stepPrefix W)))))))))

/-- No operation allocates: every one computes into a buffer that exists from the launch on. -/
theorem ops_fresh : ∀ op ∈ allOps, op.fresh = ∅ := by decide +kernel

/-- On every device, from any memory with all counters at zero: every weakly fair execution of the reference terminates,
    with the result buffer at the reference's last stage of the launched arguments and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v232)
            = Cert.ReferenceIdeal.Read.val_main_v232 (F := Ideal) (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1) :=
  (θ_run defs _ _).mono
    (fun _ h c =>
      have s := stages (launchContents m c)
      ⟨(h c main_v232).trans s.v232, (h c main_arg0).trans s.a0, (h c main_arg1).trans s.a1⟩)
    (run_seq scopedRefs_eq scopedSems_eq defs main (fun _ => ops) main_eq (fun _ => ops_sub) m ρ (fun _ => ops_fresh))

end Cert.RefRunHand

end
-- ==== Proof.LibGatherPoint.lean ====
/-
  Two shape operations read at an index, for a point lookup in a rank-3 array.

  (1) stablehlo.gather of an operand [A, B, C] at start indices [N, 3] with index_vector_dim 1, every operand axis
      collapsed, start_index_map [0, 1, 2] and slice sizes [1, 1, 1] (what vol[z, y, x] with three index vectors of
      length N lowers to once the three vectors are laid side by side as the columns of one [N, 3] array):
      result element n is the operand at (z, y, x), where z, y, x are the three words of row n of the start indices,
      each read as a signed integer and clamped into the axis: min (toNat (toInt word)) (extent - 1).

  (2) stablehlo.concatenate of three [N, 1] columns along axis 1, read at (n, j), j = 0, 1, 2: column j at (n, 0).
-/
import Idealize.ShloMosaic.Lib.ValueIdx
import Idealize.ShloMosaic.Lib.Pipeline.Value

noncomputable section

namespace Cert.LibGatherPoint

open Idealize.ShloMosaic Idealize.ShloMosaic.ValueIdx

variable {α : Type}

/-! ## The point gather -/

/-- The dimension numbers of a point lookup: operand [A, B, C], start indices [N, 3] (row n holds the three
    coordinates of point n), result [N]. Their conditions wf are decided on a program's literal shapes. -/
abbrev pointDims (A B C N : Nat)
    (wf : GatherDims.WF ⟨3, ![A, B, C]⟩ ⟨2, ![N, 3]⟩ ⟨1, ![N]⟩ [] [0, 1, 2] [] [0, 1, 2] [] 1 ![1, 1, 1]) :
    GatherDims ⟨3, ![A, B, C]⟩ ⟨2, ![N, 3]⟩ ⟨1, ![N]⟩ where
  offsetDims := []
  collapsedSliceDims := [0, 1, 2]
  operandBatchingDims := []
  startIndicesBatchingDims := []
  startIndexMap := [0, 1, 2]
  indexVectorDim := 1
  sliceSizes := ![1, 1, 1]
  wf := wf

/-- THE POINT GATHER READ AT n: the operand at the three words of row n of the start indices, each read signed and
    clamped into its axis. On every operand axis a the operand index is start + batching coordinate + offset
    coordinate; there is no batching axis and every axis is collapsed, so the last two are 0, and the start is the
    clamped word idx (n, a) because axis a is entry a of the start index map and the index vector lies along axis 1
    of the start indices. -/
theorem gather_point_apply {A B C N w : Nat} (hA : 0 < A) (hB : 0 < B) (hC : 0 < C)
    (wf : GatherDims.WF ⟨3, ![A, B, C]⟩ ⟨2, ![N, 3]⟩ ⟨1, ![N]⟩ [] [0, 1, 2] [] [0, 1, 2] [] 1 ![1, 1, 1])
    (x : (⟨3, ![A, B, C]⟩ : Shape).Idx → α) (idx : IVec ⟨2, ![N, 3]⟩ w) (n : Fin N) :
    Host.gather (pointDims A B C N wf) x idx (ix1 n)
      = x (ix3 (⟨min (idx (ix2 n (0 : Fin 3))).toInt.toNat (A - 1), by omega⟩ : Fin A)
               (⟨min (idx (ix2 n (1 : Fin 3))).toInt.toNat (B - 1), by omega⟩ : Fin B)
               (⟨min (idx (ix2 n (2 : Fin 3))).toInt.toNat (C - 1), by omega⟩ : Fin C)) := by
  unfold Host.gather
  congr 1
  funext a
  refine Fin.ext ?_
  show (pointDims A B C N wf).start (ix1 n) idx a + (pointDims A B C N wf).batchCoord (ix1 n) a
      + (pointDims A B C N wf).offCoord (ix1 n) a = _
  -- no batching axis; every axis collapsed
  have hcol : a ∈ (pointDims A B C N wf).collapsedSliceDims := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos (show a ∈ (pointDims A B C N wf).startIndexMap from hcol)]
  match a with
  | ⟨0, _⟩ =>
    have hsi : (pointDims A B C N wf).siIdx (ix1 n) ⟨List.idxOf (0 : Fin 3) (pointDims A B C N wf).startIndexMap,
        List.idxOf_lt_length_iff.2 hcol⟩ = ix2 n (0 : Fin 3) := by
      funext b; refine Fin.ext ?_
      match b with
      | ⟨0, _⟩ => rfl
      | ⟨1, _⟩ => rfl
    show min (idx ((pointDims A B C N wf).siIdx (ix1 n) ⟨List.idxOf (0 : Fin 3) (pointDims A B C N wf).startIndexMap,
        List.idxOf_lt_length_iff.2 hcol⟩)).toInt.toNat _ = _
    rw [hsi]
    rfl
  | ⟨1, _⟩ =>
    have hsi : (pointDims A B C N wf).siIdx (ix1 n) ⟨List.idxOf (1 : Fin 3) (pointDims A B C N wf).startIndexMap,
        List.idxOf_lt_length_iff.2 hcol⟩ = ix2 n (1 : Fin 3) := by
      funext b; refine Fin.ext ?_
      match b with
      | ⟨0, _⟩ => rfl
      | ⟨1, _⟩ => rfl
    show min (idx ((pointDims A B C N wf).siIdx (ix1 n) ⟨List.idxOf (1 : Fin 3) (pointDims A B C N wf).startIndexMap,
        List.idxOf_lt_length_iff.2 hcol⟩)).toInt.toNat _ = _
    rw [hsi]
    rfl
  | ⟨2, _⟩ =>
    have hsi : (pointDims A B C N wf).siIdx (ix1 n) ⟨List.idxOf (2 : Fin 3) (pointDims A B C N wf).startIndexMap,
        List.idxOf_lt_length_iff.2 hcol⟩ = ix2 n (2 : Fin 3) := by
      funext b; refine Fin.ext ?_
      match b with
      | ⟨0, _⟩ => rfl
      | ⟨1, _⟩ => rfl
    show min (idx ((pointDims A B C N wf).siIdx (ix1 n) ⟨List.idxOf (2 : Fin 3) (pointDims A B C N wf).startIndexMap,
        List.idxOf_lt_length_iff.2 hcol⟩)).toInt.toNat _ = _
    rw [hsi]
    rfl

/-! ## Three columns side by side -/

/-- Three [N, 1] columns concatenated along axis 1, read at (n, 0): the first column at (n, 0). The joined-axis
    coordinate 0 lies in the first piece's span [0, 1). -/
theorem concat3_apply_0 {N : Nat} (c0 c1 c2 : (⟨2, ![N, 1]⟩ : Shape).Idx → α)
    (h : Shape.Concatenates [⟨2, ![N, 1]⟩, ⟨2, ![N, 1]⟩, ⟨2, ![N, 1]⟩] ⟨2, ![N, 3]⟩ 1) (n : Fin N) :
    concatenate ⟨2, ![N, 3]⟩ 1 [⟨⟨2, ![N, 1]⟩, c0⟩, ⟨⟨2, ![N, 1]⟩, c1⟩, ⟨⟨2, ![N, 1]⟩, c2⟩] h (ix2 n (0 : Fin 3))
      = c0 (ix2 n (0 : Fin 1)) := by
  refine concatenate_apply_piece (t := ⟨2, ![N, 3]⟩) (1 : Fin 2)
    [⟨⟨2, ![N, 1]⟩, c0⟩, ⟨⟨2, ![N, 1]⟩, c1⟩, ⟨⟨2, ![N, 1]⟩, c2⟩] h (ix2 n (0 : Fin 3)) 0 (show 0 < 3 by decide) ⟨2, ![N, 1]⟩ c0 rfl rfl 0 rfl
    (ix2 n (0 : Fin 1)) ?_ rfl
  intro b hb
  match b with
  | ⟨0, _⟩ => rfl
  | ⟨1, _⟩ => exact absurd rfl hb

/-- … read at (n, 1): the second column at (n, 0). The coordinate 1 lies in the second piece's span [1, 2). -/
theorem concat3_apply_1 {N : Nat} (c0 c1 c2 : (⟨2, ![N, 1]⟩ : Shape).Idx → α)
    (h : Shape.Concatenates [⟨2, ![N, 1]⟩, ⟨2, ![N, 1]⟩, ⟨2, ![N, 1]⟩] ⟨2, ![N, 3]⟩ 1) (n : Fin N) :
    concatenate ⟨2, ![N, 3]⟩ 1 [⟨⟨2, ![N, 1]⟩, c0⟩, ⟨⟨2, ![N, 1]⟩, c1⟩, ⟨⟨2, ![N, 1]⟩, c2⟩] h (ix2 n (1 : Fin 3))
      = c1 (ix2 n (0 : Fin 1)) := by
  refine concatenate_apply_piece (t := ⟨2, ![N, 3]⟩) (1 : Fin 2)
    [⟨⟨2, ![N, 1]⟩, c0⟩, ⟨⟨2, ![N, 1]⟩, c1⟩, ⟨⟨2, ![N, 1]⟩, c2⟩] h (ix2 n (1 : Fin 3)) 1 (show 1 < 3 by decide) ⟨2, ![N, 1]⟩ c1 rfl rfl 1 rfl
    (ix2 n (0 : Fin 1)) ?_ rfl
  intro b hb
  match b with
  | ⟨0, _⟩ => rfl
  | ⟨1, _⟩ => exact absurd rfl hb

/-- … read at (n, 2): the third column at (n, 0). The coordinate 2 lies in the third piece's span [2, 3). -/
theorem concat3_apply_2 {N : Nat} (c0 c1 c2 : (⟨2, ![N, 1]⟩ : Shape).Idx → α)
    (h : Shape.Concatenates [⟨2, ![N, 1]⟩, ⟨2, ![N, 1]⟩, ⟨2, ![N, 1]⟩] ⟨2, ![N, 3]⟩ 1) (n : Fin N) :
    concatenate ⟨2, ![N, 3]⟩ 1 [⟨⟨2, ![N, 1]⟩, c0⟩, ⟨⟨2, ![N, 1]⟩, c1⟩, ⟨⟨2, ![N, 1]⟩, c2⟩] h (ix2 n (2 : Fin 3))
      = c2 (ix2 n (0 : Fin 1)) := by
  refine concatenate_apply_piece (t := ⟨2, ![N, 3]⟩) (1 : Fin 2)
    [⟨⟨2, ![N, 1]⟩, c0⟩, ⟨⟨2, ![N, 1]⟩, c1⟩, ⟨⟨2, ![N, 1]⟩, c2⟩] h (ix2 n (2 : Fin 3)) 2 (show 2 < 3 by decide) ⟨2, ![N, 1]⟩ c2 rfl rfl 2 rfl
    (ix2 n (0 : Fin 1)) ?_ rfl
  intro b hb
  match b with
  | ⟨0, _⟩ => rfl
  | ⟨1, _⟩ => exact absurd rfl hb

end Cert.LibGatherPoint

end
-- ==== Proof.RefValue.lean ====
/-
  The reference program's result is the trilinear interpolation G of the shared prefix stages.

  The reference computes, for every query point n: three clamped base index vectors Z0, Y0, X0 and their successors
  Z1, Y1, X1 (the shared prefix, left opaque here), the fractional weights wt, eight point lookups
  volume[z, y, x] for z in {Z0, Z1}, y in {Y0, Y1}, x in {X0, X1}, and the blend of the eight values along x, then y,
  then z, each step a * (1 - w) + b * w. Each lookup is printed as: wrap each of the three index vectors by the axis
  length (v + 512 where v < 0), turn each into an [N, 1] column, lay the three columns side by side into an [N, 3]
  array of start indices, and gather the volume at it; the gather reads each start word signed and clamps it into
  [0, 511]. Read at point n this is Spec.at3 of the three index words at n, which is Spec.corner; the blend's
  multiplications, additions and subtractions read at (n, 0) are those of Spec.blend on the extended reals.
-/
import proofs.«161852_j89034672046121_2_alg».proof.Proof.Spec
import proofs.«161852_j89034672046121_2_alg».proof.Proof.RefRead
import proofs.«161852_j89034672046121_2_alg».proof.Proof.LibGatherPoint
import Idealize.ShloMosaic.Lib.ValueIdx
import Idealize.ShloMosaic.Lib.Pipeline.Value

noncomputable section

namespace Cert.RefValue

open Cert.ReferenceIdeal Cert.ReferenceIdeal.Gen Cert.ReferenceIdeal.Read Idealize.ShloMosaic Idealize.ShloMosaic.ValueIdx Cert.Spec

/-! ## The reference's layout operations read at explicit coordinates

Each of the four layout operations the lookups and the blend use, read at (n, 0) or at n, for ANY operand: which
operand element the result element is. -/

section Layout
variable {α : Type}

/-- A vector [N] turned into a column [N, 1] (broadcast_in_dim, dims = [0]), read at (n, 0): the vector at n. -/
theorem col_apply (y : S4194304.Idx → α) (n : Fin 4194304) :
    broadcastInDim S4194304x1 ![0] bcast_S4194304_S4194304x1_0 y (ix2 n (0 : Fin 1)) = y (ix1 n) :=
  broadcastInDim_apply _ bcast_S4194304_S4194304x1_0 y (ix2 n (0 : Fin 1)) (ix1 n) (fun a => match a with
    | ⟨0, _⟩ => by show n.val = if (4194304 : Nat) = 1 then 0 else n.val; rw [if_neg (by decide)])

/-- A scalar spread over [N] (broadcast_in_dim, dims = []), read anywhere: the scalar. -/
theorem splat_apply (y : S_.Idx → α) (i : S4194304.Idx) :
    broadcastInDim S4194304 ![] bcast_S_S4194304 y i = y ix0 :=
  broadcastInDim_apply _ bcast_S_S4194304 y i ix0 (fun a => a.elim0)

/-- A scalar spread over [N, 1], read anywhere: the scalar. -/
theorem splat2_apply (y : S_.Idx → α) (i : S4194304x1.Idx) :
    broadcastInDim S4194304x1 ![] bcast_S_S4194304x1 y i = y ix0 :=
  broadcastInDim_apply _ bcast_S_S4194304x1 y i ix0 (fun a => a.elim0)

/-- Column 0 of an [N, 3] array (slice [0:N, 0:1]), read at (n, 0): the array at (n, 0). -/
theorem slice0_apply (y : S4194304x3.Idx → α) (n : Fin 4194304) :
    extractStridedSlice S4194304x1 ![0, 0] y slices_S4194304x3_S4194304x1_0_0 (ix2 n (0 : Fin 1)) = y (ix2 n (0 : Fin 3)) :=
  extractStridedSlice_apply ![0, 0] y slices_S4194304x3_S4194304x1_0_0 (ix2 n (0 : Fin 1)) (ix2 n (0 : Fin 3)) (fun a => match a with
    | ⟨0, _⟩ => by show n.val = 0 + n.val; omega
    | ⟨1, _⟩ => rfl)

/-- Column 1 of an [N, 3] array (slice [0:N, 1:2]), read at (n, 0): the array at (n, 1). -/
theorem slice1_apply (y : S4194304x3.Idx → α) (n : Fin 4194304) :
    extractStridedSlice S4194304x1 ![0, 1] y slices_S4194304x3_S4194304x1_0_1 (ix2 n (0 : Fin 1)) = y (ix2 n (1 : Fin 3)) :=
  extractStridedSlice_apply ![0, 1] y slices_S4194304x3_S4194304x1_0_1 (ix2 n (0 : Fin 1)) (ix2 n (1 : Fin 3)) (fun a => match a with
    | ⟨0, _⟩ => by show n.val = 0 + n.val; omega
    | ⟨1, _⟩ => rfl)

/-- Column 2 of an [N, 3] array (slice [0:N, 2:3]), read at (n, 0): the array at (n, 2). -/
theorem slice2_apply (y : S4194304x3.Idx → α) (n : Fin 4194304) :
    extractStridedSlice S4194304x1 ![0, 2] y slices_S4194304x3_S4194304x1_0_2 (ix2 n (0 : Fin 1)) = y (ix2 n (2 : Fin 3)) :=
  extractStridedSlice_apply ![0, 2] y slices_S4194304x3_S4194304x1_0_2 (ix2 n (0 : Fin 1)) (ix2 n (2 : Fin 3)) (fun a => match a with
    | ⟨0, _⟩ => by show n.val = 0 + n.val; omega
    | ⟨1, _⟩ => rfl)

end Layout

/-! ## One point lookup

The text the reference prints for volume[z, y, x] at three index vectors Z, Y, X, as one term of the volume and the
three vectors, and its value at point n. -/

/-- The wrapped column of an index vector: v + 512 where v < 0 (signed), else v, entrywise, as an [N, 1] column. -/
def wrapCol (V : (⟨S4194304, .i32⟩ : BufTy).Contents (Elt Ideal)) : (⟨S4194304x1, .i32⟩ : BufTy).Contents (Elt Ideal) :=
  broadcastInDim S4194304x1 ![0] bcast_S4194304_S4194304x1_0
    (select (cmpi .slt V (broadcastInDim S4194304 ![] bcast_S_S4194304 (constantI S_ 32 0#32)))
      (addi V (broadcastInDim S4194304 ![] bcast_S_S4194304 (constantI S_ 32 512#32))) V)

/-- The wrapped column read at (n, 0) is the wrap of the vector's word at n: the comparison, the addition and the select
    act entrywise, the two constants read 0 and 512 everywhere, and Spec.wrap is the same three operations on one word. -/
theorem wrapCol_apply (V : (⟨S4194304, .i32⟩ : BufTy).Contents (Elt Ideal)) (n : Fin 4194304) :
    wrapCol V (ix2 n (0 : Fin 1)) = wrap (V (ix1 n)) := by
  unfold wrapCol
  rw [col_apply]
  show Scalar.select (IntOp.cmpi .slt (V (ix1 n)) (broadcastInDim S4194304 ![] bcast_S_S4194304 (constantI S_ 32 0#32) (ix1 n)))
      (IntOp.addi (V (ix1 n)) (broadcastInDim S4194304 ![] bcast_S_S4194304 (constantI S_ 32 512#32) (ix1 n))) (V (ix1 n)) = _
  rw [splat_apply, splat_apply]
  rfl

/-- The reference's gather of the volume at an [N, 3] array of start indices, read at n: the volume at the three words
    of row n, each read signed and clamped into [0, 511] (Spec.cl). -/
theorem gather_apply (vol : (⟨S512x512x512, .f32⟩ : BufTy).Contents (Elt Ideal))
    (idx : (⟨S4194304x3, .i32⟩ : BufTy).Contents (Elt Ideal)) (n : Fin 4194304) :
    Host.gather gather_S512x512x512_S4194304x3_S4194304_n_012_n_n_012_1_111 vol idx (ix1 n)
      = vol (ix3 (cl (idx (ix2 n (0 : Fin 3)))) (cl (idx (ix2 n (1 : Fin 3)))) (cl (idx (ix2 n (2 : Fin 3))))) :=
  Cert.LibGatherPoint.gather_point_apply (by decide) (by decide) (by decide)
    gather_S512x512x512_S4194304x3_S4194304_n_012_n_n_012_1_111_wf vol idx n

/-- The lookup volume[Z, Y, X] as the reference prints it: gather of the volume at the three wrapped columns laid side by
    side. -/
def lookup (vol : (⟨S512x512x512, .f32⟩ : BufTy).Contents (Elt Ideal))
    (Z Y X : (⟨S4194304, .i32⟩ : BufTy).Contents (Elt Ideal)) : (⟨S4194304, .f32⟩ : BufTy).Contents (Elt Ideal) :=
  Host.gather gather_S512x512x512_S4194304x3_S4194304_n_012_n_n_012_1_111 vol
    (concatenate S4194304x3 1 [⟨S4194304x1, wrapCol Z⟩, ⟨S4194304x1, wrapCol Y⟩, ⟨S4194304x1, wrapCol X⟩]
      concatenates_S4194304x1_S4194304x1_S4194304x1_S4194304x3_d1)

/-- THE LOOKUP READ AT n: the volume entry addressed by the three index words at n (Spec.at3). Row n of the start indices
    is (wrap Z n, wrap Y n, wrap X n): column j of the concatenation at (n, j) is piece j at (n, 0). -/
theorem lookup_apply (vol : (⟨S512x512x512, .f32⟩ : BufTy).Contents (Elt Ideal))
    (Z Y X : (⟨S4194304, .i32⟩ : BufTy).Contents (Elt Ideal)) (n : Fin 4194304) :
    lookup vol Z Y X (ix1 n) = at3 vol (Z (ix1 n)) (Y (ix1 n)) (X (ix1 n)) := by
  unfold lookup
  rw [gather_apply, Cert.LibGatherPoint.concat3_apply_0, Cert.LibGatherPoint.concat3_apply_1,
    Cert.LibGatherPoint.concat3_apply_2, wrapCol_apply, wrapCol_apply, wrapCol_apply]
  rfl

/-! ## The eight corners

Each corner column of the reference (a gather result turned into an [N, 1] column) read at (n, 0) is Spec.corner of
the prefix stages: the gather stage is, by unfolding the printed stages, the lookup of the corner's three index
vectors (z bit, y bit, x bit choose Z0/Z1, Y0/Y1, X0/X1). -/

/-- Corner 000: volume[Z0, Y0, X0]. -/
theorem corner_0 (x0 : (⟨S4194304x3, .f32⟩ : BufTy).Contents (Elt Ideal)) (x1 : (⟨S512x512x512, .f32⟩ : BufTy).Contents (Elt Ideal)) (n : Fin 4194304) :
    val_main_v50 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 0 n := by
  unfold val_main_v50
  rw [col_apply]
  exact lookup_apply x1 (val_main_v8 (F := Ideal) x0) (val_main_v11 (F := Ideal) x0) (val_main_v14 (F := Ideal) x0) n

/-- Corner 001: volume[Z0, Y0, X1]. -/
theorem corner_1 (x0 : (⟨S4194304x3, .f32⟩ : BufTy).Contents (Elt Ideal)) (x1 : (⟨S512x512x512, .f32⟩ : BufTy).Contents (Elt Ideal)) (n : Fin 4194304) :
    val_main_v71 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 1 n := by
  unfold val_main_v71
  rw [col_apply]
  exact lookup_apply x1 (val_main_v8 (F := Ideal) x0) (val_main_v11 (F := Ideal) x0) (val_main_v26 (F := Ideal) x0) n

/-- Corner 010: volume[Z0, Y1, X0]. -/
theorem corner_2 (x0 : (⟨S4194304x3, .f32⟩ : BufTy).Contents (Elt Ideal)) (x1 : (⟨S512x512x512, .f32⟩ : BufTy).Contents (Elt Ideal)) (n : Fin 4194304) :
    val_main_v92 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 2 n := by
  unfold val_main_v92
  rw [col_apply]
  exact lookup_apply x1 (val_main_v8 (F := Ideal) x0) (val_main_v22 (F := Ideal) x0) (val_main_v14 (F := Ideal) x0) n

/-- Corner 011: volume[Z0, Y1, X1]. -/
theorem corner_3 (x0 : (⟨S4194304x3, .f32⟩ : BufTy).Contents (Elt Ideal)) (x1 : (⟨S512x512x512, .f32⟩ : BufTy).Contents (Elt Ideal)) (n : Fin 4194304) :
    val_main_v113 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 3 n := by
  unfold val_main_v113
  rw [col_apply]
  exact lookup_apply x1 (val_main_v8 (F := Ideal) x0) (val_main_v22 (F := Ideal) x0) (val_main_v26 (F := Ideal) x0) n

/-- Corner 100: volume[Z1, Y0, X0]. -/
theorem corner_4 (x0 : (⟨S4194304x3, .f32⟩ : BufTy).Contents (Elt Ideal)) (x1 : (⟨S512x512x512, .f32⟩ : BufTy).Contents (Elt Ideal)) (n : Fin 4194304) :
    val_main_v134 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 4 n := by
  unfold val_main_v134
  rw [col_apply]
  exact lookup_apply x1 (val_main_v18 (F := Ideal) x0) (val_main_v11 (F := Ideal) x0) (val_main_v14 (F := Ideal) x0) n

/-- Corner 101: volume[Z1, Y0, X1]. -/
theorem corner_5 (x0 : (⟨S4194304x3, .f32⟩ : BufTy).Contents (Elt Ideal)) (x1 : (⟨S512x512x512, .f32⟩ : BufTy).Contents (Elt Ideal)) (n : Fin 4194304) :
    val_main_v155 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 5 n := by
  unfold val_main_v155
  rw [col_apply]
  exact lookup_apply x1 (val_main_v18 (F := Ideal) x0) (val_main_v11 (F := Ideal) x0) (val_main_v26 (F := Ideal) x0) n

/-- Corner 110: volume[Z1, Y1, X0]. -/
theorem corner_6 (x0 : (⟨S4194304x3, .f32⟩ : BufTy).Contents (Elt Ideal)) (x1 : (⟨S512x512x512, .f32⟩ : BufTy).Contents (Elt Ideal)) (n : Fin 4194304) :
    val_main_v176 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 6 n := by
  unfold val_main_v176
  rw [col_apply]
  exact lookup_apply x1 (val_main_v18 (F := Ideal) x0) (val_main_v22 (F := Ideal) x0) (val_main_v14 (F := Ideal) x0) n

/-- Corner 111: volume[Z1, Y1, X1]. -/
theorem corner_7 (x0 : (⟨S4194304x3, .f32⟩ : BufTy).Contents (Elt Ideal)) (x1 : (⟨S512x512x512, .f32⟩ : BufTy).Contents (Elt Ideal)) (n : Fin 4194304) :
    val_main_v197 (F := Ideal) x0 x1 (ix2 n (0 : Fin 1)) = corner x1 (val_main_v8 (F := Ideal) x0) (val_main_v11 (F := Ideal) x0) (val_main_v14 (F := Ideal) x0) (val_main_v18 (F := Ideal) x0) (val_main_v22 (F := Ideal) x0) (val_main_v26 (F := Ideal) x0) 7 n := by
  unfold val_main_v197
  rw [col_apply]
  exact lookup_apply x1 (val_main_v18 (F := Ideal) x0) (val_main_v22 (F := Ideal) x0) (val_main_v26 (F := Ideal) x0) n

/-! ## The weights and the constant 1.0 -/

/-- The reference's z weight column (column 0 of the weights) at (n, 0). -/
theorem wz_apply (x0 : (⟨S4194304x3, .f32⟩ : BufTy).Contents (Elt Ideal)) (n : Fin 4194304) :
    val_main_v27 (F := Ideal) x0 (ix2 n (0 : Fin 1)) = val_main_v5 (F := Ideal) x0 (ix2 n (0 : Fin 3)) := by
  unfold val_main_v27; exact slice0_apply _ n

/-- The reference's y weight column (column 1 of the weights) at (n, 0). -/
theorem wy_apply (x0 : (⟨S4194304x3, .f32⟩ : BufTy).Contents (Elt Ideal)) (n : Fin 4194304) :
    val_main_v28 (F := Ideal) x0 (ix2 n (0 : Fin 1)) = val_main_v5 (F := Ideal) x0 (ix2 n (1 : Fin 3)) := by
  unfold val_main_v28; exact slice1_apply _ n

/-- The reference's x weight column (column 2 of the weights) at (n, 0). -/
theorem wx_apply (x0 : (⟨S4194304x3, .f32⟩ : BufTy).Contents (Elt Ideal)) (n : Fin 4194304) :
    val_main_v29 (F := Ideal) x0 (ix2 n (0 : Fin 1)) = val_main_v5 (F := Ideal) x0 (ix2 n (2 : Fin 3)) := by
  unfold val_main_v29; exact slice2_apply _ n

/-- The float word 0x3F800000 spread over [N, 1] reads Spec.one everywhere (each of the seven lerp steps prints its own
    copy of this constant). -/
theorem one_apply (i : S4194304x1.Idx) :
    broadcastInDim S4194304x1 ![] bcast_S_S4194304x1 (constant (F := Ideal) S_ .f32 0x3F800000#32) i = one := by
  rw [splat2_apply]; rfl

/-! ## The result -/

/-- THE REFERENCE'S RESULT AT (n, 0): Spec.point at n. The blend's stages are entrywise multiplications, additions and
    subtractions, which on the extended reals are *, + and -; its leaves are the eight corner columns, the three weight
    columns and the constant 1.0, each read above. The x weight enters the four innermost steps, the y weight the two
    middle ones, the z weight the outermost: Spec.blend's order. -/
theorem result_apply (x0 : (⟨S4194304x3, .f32⟩ : BufTy).Contents (Elt Ideal)) (x1 : (⟨S512x512x512, .f32⟩ : BufTy).Contents (Elt Ideal)) (n : Fin 4194304) :
    val_main_v232 (F := Ideal) x0 x1 (ix2 n (0 : Fin 1))
      = point x1 (val_main_v8 (F := Ideal) x0) (val_main_v11 (F := Ideal) x0) (val_main_v14 (F := Ideal) x0) (val_main_v18 (F := Ideal) x0) (val_main_v22 (F := Ideal) x0) (val_main_v26 (F := Ideal) x0) (val_main_v5 (F := Ideal) x0) n := by
  -- the seven copies of 1.0
  have h198 : val_main_v198 (F := Ideal) (ix2 n (0 : Fin 1)) = one := one_apply _
  have h203 : val_main_v203 (F := Ideal) (ix2 n (0 : Fin 1)) = one := one_apply _
  have h208 : val_main_v208 (F := Ideal) (ix2 n (0 : Fin 1)) = one := one_apply _
  have h213 : val_main_v213 (F := Ideal) (ix2 n (0 : Fin 1)) = one := one_apply _
  have h218 : val_main_v218 (F := Ideal) (ix2 n (0 : Fin 1)) = one := one_apply _
  have h223 : val_main_v223 (F := Ideal) (ix2 n (0 : Fin 1)) = one := one_apply _
  have h228 : val_main_v228 (F := Ideal) (ix2 n (0 : Fin 1)) = one := one_apply _
  -- the blend, read at (n, 0), stage by stage down to its leaves
  show ((val_main_v50 (F := Ideal) x0 x1 (ix2 n (0 : Fin 1)) * (val_main_v198 (F := Ideal) (ix2 n (0 : Fin 1)) - val_main_v29 (F := Ideal) x0 (ix2 n (0 : Fin 1)))
          + val_main_v71 (F := Ideal) x0 x1 (ix2 n (0 : Fin 1)) * val_main_v29 (F := Ideal) x0 (ix2 n (0 : Fin 1)))
        * (val_main_v218 (F := Ideal) (ix2 n (0 : Fin 1)) - val_main_v28 (F := Ideal) x0 (ix2 n (0 : Fin 1)))
      + (val_main_v92 (F := Ideal) x0 x1 (ix2 n (0 : Fin 1)) * (val_main_v203 (F := Ideal) (ix2 n (0 : Fin 1)) - val_main_v29 (F := Ideal) x0 (ix2 n (0 : Fin 1)))
          + val_main_v113 (F := Ideal) x0 x1 (ix2 n (0 : Fin 1)) * val_main_v29 (F := Ideal) x0 (ix2 n (0 : Fin 1)))
        * val_main_v28 (F := Ideal) x0 (ix2 n (0 : Fin 1)))
      * (val_main_v228 (F := Ideal) (ix2 n (0 : Fin 1)) - val_main_v27 (F := Ideal) x0 (ix2 n (0 : Fin 1)))
    + ((val_main_v134 (F := Ideal) x0 x1 (ix2 n (0 : Fin 1)) * (val_main_v208 (F := Ideal) (ix2 n (0 : Fin 1)) - val_main_v29 (F := Ideal) x0 (ix2 n (0 : Fin 1)))
          + val_main_v155 (F := Ideal) x0 x1 (ix2 n (0 : Fin 1)) * val_main_v29 (F := Ideal) x0 (ix2 n (0 : Fin 1)))
        * (val_main_v223 (F := Ideal) (ix2 n (0 : Fin 1)) - val_main_v28 (F := Ideal) x0 (ix2 n (0 : Fin 1)))
      + (val_main_v176 (F := Ideal) x0 x1 (ix2 n (0 : Fin 1)) * (val_main_v213 (F := Ideal) (ix2 n (0 : Fin 1)) - val_main_v29 (F := Ideal) x0 (ix2 n (0 : Fin 1)))
          + val_main_v197 (F := Ideal) x0 x1 (ix2 n (0 : Fin 1)) * val_main_v29 (F := Ideal) x0 (ix2 n (0 : Fin 1)))
        * val_main_v28 (F := Ideal) x0 (ix2 n (0 : Fin 1)))
      * val_main_v27 (F := Ideal) x0 (ix2 n (0 : Fin 1))
    = _
  rw [corner_0, corner_1, corner_2, corner_3, corner_4, corner_5, corner_6, corner_7, wx_apply, wy_apply, wz_apply,
    h198, h203, h208, h213, h218, h223, h228]
  rfl

/-- THE REFERENCE'S RESULT is G of the volume, the six prefix index vectors and the prefix weights: every index of the
    [N, 1] result is (n, 0). -/
theorem result_eq (x0 : (⟨S4194304x3, .f32⟩ : BufTy).Contents (Elt Ideal)) (x1 : (⟨S512x512x512, .f32⟩ : BufTy).Contents (Elt Ideal)) :
    Cert.ReferenceIdeal.Read.val_main_v232 (F := Ideal) x0 x1
      = Cert.Spec.G x1 (val_main_v8 (F := Ideal) x0) (val_main_v11 (F := Ideal) x0) (val_main_v14 (F := Ideal) x0) (val_main_v18 (F := Ideal) x0) (val_main_v22 (F := Ideal) x0) (val_main_v26 (F := Ideal) x0) (val_main_v5 (F := Ideal) x0) := by
  funext i
  -- the second coordinate ranges over one value
  have h1 : i 1 = (0 : Fin 1) := Fin.ext (Nat.lt_one_iff.1 (idx2_lt1 (n0 := 4194304) (n1 := 1) i))
  have hi : i = ix2 (i 0) (0 : Fin 1) := by
    have h := eq_ix2 i
    rw [h1] at h
    exact h
  rw [hi]
  exact result_apply x0 x1 (i 0)

end Cert.RefValue

end
-- ==== Proof.lean ====
/-
  Trilinear interpolation of a 512 x 512 x 512 volume at 4,194,304 query points: a kernel program against its reference.

  Both programs scale the coordinates by 511, take integer parts and fractions, clamp the integer parts into [0, 511] and
  their successors by min (. + 1) 511: these first host operations are the same text in both.  They then differ only in
  how the eight corner values volume[z, y, x] of a point are fetched and where the blend is computed.  The reference
  gathers each corner by a point gather and blends on the host.  The kernel program fetches two 2 x 2 bricks per point,
  packs the eight corner rows and the three weight rows into two arrays, blends them entrywise in one region over sixteen
  blocks of rows, and reshapes the result into a column.  At the extended reals both results are, entry by entry,
      lerp_z (lerp_y (lerp_x c000 c001) (lerp_x c010 c011)) (lerp_y (lerp_x c100 c101) (lerp_x c110 c111)),
  with lerp a b w = a * (1 - w) + b * w and c_zyx the volume at the wrapped and clamped corner indices: the function
  Cert.Spec.G of the volume, the six index vectors and the weights.  No algebraic law is needed beyond reading both sides
  at an index: the two blends are the same expression, and the two ways of fetching a corner read the same volume entry.

  The frames: each program terminates without fault and leaves its arguments unchanged.  For the two kernel programs this
  is the launch of the one region around its host operations, the body's loads and store taken through its rectangles;
  for the reference it is its run, read chunk by chunk over its stages, with the result dropped.  The ideal pass rewrote nothing, so preserves is trivial.
-/
import proofs.«161852_j89034672046121_2_alg».proof.Defs
import proofs.«161852_j89034672046121_2_alg».proof.Proof.Gen.Kernel
import proofs.«161852_j89034672046121_2_alg».proof.Proof.Gen.KernelIdeal
import proofs.«161852_j89034672046121_2_alg».proof.Proof.Gen.ReferenceIdeal
import proofs.«161852_j89034672046121_2_alg».proof.Proof.Gen.Pre_finite_inputs
import proofs.«161852_j89034672046121_2_alg».proof.Proof.FrameBits
import proofs.«161852_j89034672046121_2_alg».proof.Proof.KernelResult
import proofs.«161852_j89034672046121_2_alg».proof.Proof.RefRunHand
import proofs.«161852_j89034672046121_2_alg».proof.Proof.RefValue

noncomputable section

namespace Cert.Proof

open Idealize.ShloMosaic Idealize.ShloMosaic.TcCoe Idealize.SL.Sem
open Cert.ReferenceIdeal.Read (val_main_v5 val_main_v8 val_main_v11 val_main_v14 val_main_v18 val_main_v22 val_main_v26 val_main_v232)

/-- The word-level kernel program runs to the end, faults nowhere and leaves its two arguments unchanged. -/
theorem frame_kernel : Cert.frame_Kernel := fun m ρ _ => Cert.Kernel.Hand.frame (F := Bits) m ρ

/-- The same for the kernel program read at the extended reals. -/
theorem frame_kernelIdeal : Cert.frame_KernelIdeal := fun m ρ _ => Cert.KernelIdeal.Hand.frame (F := Ideal) m ρ

/-- The reference runs to the end and leaves its arguments unchanged: its run, with what it says of the result dropped. -/
theorem frame_referenceIdeal : Cert.frame_ReferenceIdeal := fun m ρ _ =>
  (θ_run Cert.ReferenceIdeal.defs _ _).mono (fun _ h c => (h c).2) (Cert.RefRunHand.run m ρ)

/-- The ideal pass rewrote no operation: nothing to preserve. -/
theorem preserves : Cert.preserves_Kernel_KernelIdeal := trivial

/-- From memories that agree on the two arguments, both programs end with the column Cert.Spec.G of the volume and of the
    shared prefix stages of the coordinates: the kernel program by its region's blocks and its packed arrays, the
    reference by its eight point gathers and its host blend. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.RefRunHand.run m' ρ')
  rw [Cert.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
